-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2 : Shape := ⟨2, ![8192, 2]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg5 : FVec F S8x4096x1024 .f32) (main_arg6 : FVec F S8x1024 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S8x4096x1024 .f32 := Host.absf main_arg5
  let main_cst_6 : FVec F S_ .f32 := constant S_ .f32 0x7F800000#32
  let main_v20 : FVec F S8x4096x1024 .f32 := broadcastInDim S8x4096x1024 ![] bcast_S_S8x4096x1024 main_cst_6
  let main_v21 : IVec S8x4096x1024 1 := cmpf .olt main_v19 main_v20
  let main_c_7 : IVec S_ 1 := constantI S_ 1 1#1
  let main_v22 : IVec S_ 1 := (fun x v => Host.reduce IntOp.andi x v reducesTo_S8x4096x1024_S_d0_1_2 h_S_) main_v21 main_c_7
  let main_v23 : IVec S_ 1 := andi main_v18 main_v22
  let main_v24 : FVec F S8x1024 .f32 := Host.absf main_arg6
  let main_cst_8 : FVec F S_ .f32 := constant S_ .f32 0x7F800000#32
  let main_v25 : FVec F S8x1024 .f32 := broadcastInDim S8x1024 ![] bcast_S_S8x1024 main_cst_8
  let main_v26 : IVec S8x1024 1 := cmpf .olt main_v24 main_v25
  let main_c_9 : IVec S_ 1 := constantI S_ 1 1#1
  let main_v27 : IVec S_ 1 := (fun x v => Host.reduce IntOp.andi x v reducesTo_S8x1024_S_d0_1 h_S_) main_v26 main_c_9
  let main_v28 : IVec S_ 1 := andi main_v23 main_v27
  main_v28

def fn {F : FTy → Type} [FloatOps F] (main_arg0 : FVec F S8192x1024 .f32) (main_arg1 : IVec S8192x2 32) (main_arg2 : FVec F S8192x2 .f32) (main_arg3 : FVec F S8x1024x4096 .f32) (main_arg4 : FVec F S8x4096 .f32) (main_arg5 : FVec F S8x4096x1024 .f32) (main_arg6 : FVec F S8x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2 .f32 := Host.absf main_arg2
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S8x1024x4096 .f32 := Host.absf main_arg3
  let main_cst_2 : FVec F S_ .f32 := constant S_ .f32 0x7F800000#32
  let main_v10 : FVec F S8x1024x4096 .f32 := broadcastInDim S8x1024x4096 ![] bcast_S_S8x1024x4096 main_cst_2
  let main_v11 : IVec S8x1024x4096 1 := cmpf .olt main_v9 main_v10
  let main_c_3 : IVec S_ 1 := constantI S_ 1 1#1
  let main_v12 : IVec S_ 1 := (fun x v => Host.reduce IntOp.andi x v reducesTo_S8x1024x4096_S_d0_1_2 h_S_) main_v11 main_c_3
  let main_v13 : IVec S_ 1 := andi main_v8 main_v12
  let main_v14 : FVec F S8x4096 .f32 := Host.absf main_arg4
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg5 main_arg6 main_v13 main_v16
-- ==== Kernel.lean ====
abbrev S8192x1024 : Shape := ⟨2, ![8192, 1024]⟩
abbrev S8192x2 : Shape := ⟨2, ![8192, 2]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S8192x2x1 : Shape := ⟨3, ![8192, 2, 1]⟩
abbrev S8 : Shape := ⟨1, ![8]⟩
abbrev S1x1x8 : Shape := ⟨3, ![1, 1, 8]⟩
abbrev S8192x2x8 : Shape := ⟨3, ![8192, 2, 8]⟩
abbrev S_ : Shape := ⟨0, ![]⟩
abbrev S8192x8 : Shape := ⟨2, ![8192, 8]⟩
abbrev S8x1x4096 : Shape := ⟨3, ![8, 1, 4096]⟩
abbrev S8x1x1024 : Shape := ⟨3, ![8, 1, 1024]⟩
abbrev S1024x1024 : Shape := ⟨2, ![1024, 1024]⟩
abbrev S1x1024x512 : Shape := ⟨3, ![1, 1024, 512]⟩
abbrev S1x1x512 : Shape := ⟨3, ![1, 1, 512]⟩
abbrev S1x512x1024 : Shape := ⟨3, ![1, 512, 1024]⟩
abbrev S1x1x1024 : Shape := ⟨3, ![1, 1, 1024]⟩
abbrev S1024x8 : Shape := ⟨2, ![1024, 8]⟩
abbrev S1024x512 : Shape := ⟨2, ![1024, 512]⟩
abbrev S512 : Shape := ⟨1, ![512]⟩
abbrev S1x512 : Shape := ⟨2, ![1, 512]⟩
abbrev S512x1024 : Shape := ⟨2, ![512, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 25
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x2, .i32⟩
  | .hbm, ⟨2, _⟩ => ⟨S8192x2, .f32⟩
  | .hbm, ⟨3, _⟩ => ⟨S8x1024x4096, .f32⟩
  | .hbm, ⟨4, _⟩ => ⟨S8x4096, .f32⟩
  | .hbm, ⟨5, _⟩ => ⟨S8x4096x1024, .f32⟩
  | .hbm, ⟨6, _⟩ => ⟨S8x1024, .f32⟩
  | .hbm, ⟨7, _⟩ => ⟨S8192x2x1, .i32⟩
  | .hbm, ⟨8, _⟩ => ⟨S8, .i32⟩
  | .hbm, ⟨9, _⟩ => ⟨S1x1x8, .i32⟩
  | .hbm, ⟨10, _⟩ => ⟨S8192x2x8, .i32⟩
  | .hbm, ⟨11, _⟩ => ⟨S8192x2x8, .i32⟩
  | .hbm, ⟨12, _⟩ => ⟨S8192x2x8, .i1⟩
  | .hbm, ⟨13, _⟩ => ⟨S8192x2x1, .f32⟩
  | .hbm, ⟨14, _⟩ => ⟨S8192x2x8, .f32⟩
  | .hbm, ⟨15, _⟩ => ⟨S8192x2x8, .f32⟩
  | .hbm, ⟨16, _⟩ => ⟨S8192x2x8, .f32⟩
  | .hbm, ⟨17, _⟩ => ⟨S_, .f32⟩
  | .hbm, ⟨18, _⟩ => ⟨S8192x8, .f32⟩
  | .hbm, ⟨19, _⟩ => ⟨S8192x1024, .bf16⟩
  | .hbm, ⟨20, _⟩ => ⟨S8x1024x4096, .bf16⟩
  | .hbm, ⟨21, _⟩ => ⟨S8x4096x1024, .bf16⟩
  | .hbm, ⟨22, _⟩ => ⟨S8x1x4096, .f32⟩
  | .hbm, ⟨23, _⟩ => ⟨S8x1x1024, .f32⟩
  | .hbm, ⟨24, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1x512, .f32⟩
  | .local _ .vmem, ⟨5, _⟩ => ⟨S1x1x512, .f32⟩
  | .local _ .vmem, ⟨6, _⟩ => ⟨S1x512x1024, .bf16⟩
  | .local _ .vmem, ⟨7, _⟩ => ⟨S1x512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1024x8, .f32⟩
  | .local _ .vmem, ⟨11, _⟩ => ⟨S1024x8, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 8, 8], ![false, false, false]⟩

def k0_cond4 (i : grid0.Coords) : BitVec 1 :=
  let arg1 : BitVec 32 := BitVec.ofNat 32 (i 1).val
  let c7_i32_21 : BitVec 32 := 7#32
  let v32 : BitVec 1 := Scalar.cmpi .eq arg1 c7_i32_21
  let arg2 : BitVec 32 := BitVec.ofNat 32 (i 2).val
  let c7_i32_22 : BitVec 32 := 7#32
  let v33 : BitVec 1 := Scalar.cmpi .eq arg2 c7_i32_22
  let v34 : BitVec 1 := Scalar.andi v32 v33
  let v35 : BitVec 32 := Scalar.extui v34
  let c0_i32_23 : BitVec 32 := 0#32
  let v36 : BitVec 1 := Scalar.cmpi .ne v35 c0_i32_23
  v36

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

class Facts₀ : Prop where
  bcast_S8192x2_S8192x2x1_0_1 : S8192x2.BroadcastsInDim S8192x2x1 (![0, 1] : Fin 2 → Fin S8192x2x1.rank)
  bcast_S8_S1x1x8_2 : S8.BroadcastsInDim S1x1x8 (![2] : Fin 1 → Fin S1x1x8.rank)
  bcast_S8192x2x1_S8192x2x8_0_1_2 : S8192x2x1.BroadcastsInDim S8192x2x8 (![0, 1, 2] : Fin 3 → Fin S8192x2x8.rank)
  bcast_S1x1x8_S8192x2x8_0_1_2 : S1x1x8.BroadcastsInDim S8192x2x8 (![0, 1, 2] : Fin 3 → Fin S8192x2x8.rank)
  reducesTo_S8192x2x8_S8192x8_d1 : S8192x2x8.ReducesTo [1] S8192x8
  h_S_ : 0 < S_.numel
  bitsLt_bf16_f32 : FTy.bits .bf16 < FTy.bits .f32
  shapeCasts_S8x4096_S8x1x4096 : S8x4096.ShapeCasts S8x1x4096
  shapeCasts_S8x1024_S8x1x1024 : S8x1024.ShapeCasts S8x1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x512 : S512.ShapeCasts S1x512
  broadcasts_S1x512_S1024x512 : S1x512.Broadcasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  iota_S1024x8_d1_w32 : S1024x8.Iotas .tc 32 [1]
  natLt_1_32 : 1 < 32
  reduces_S1024x8_S1024 : S1024x8.Reduces [1] S1024
  shapeCasts_S1024_S1024x1 : S1024.ShapeCasts S1024x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1024 : S1024.ShapeCasts S1x1024
  broadcasts_S1x1024_S1024x1024 : S1x1024.Broadcasts S1024x1024
  broadcasts_S1024x1_S1024x1024 : S1024x1.Broadcasts S1024x1024
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x4096.size a
  hwx0_1 : ∀ i : grid0.Coords, EltTy.bits .bf16 = 32 ∨ (Rect.block (s := S8x1024x4096) S1x1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x4096.size a
  hwx0_2 : ∀ i : grid0.Coords, EltTy.bits .f32 = 32 ∨ (Rect.block (s := S8x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x4096x1024.size a
  hwx0_3 : ∀ i : grid0.Coords, EltTy.bits .bf16 = 32 ∨ (Rect.block (s := S8x4096x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x8.size a ≤ S8192x8.size a
  hwx0_5 : ∀ i : grid0.Coords, EltTy.bits .f32 = 32 ∨ (Rect.block (s := S8192x8) S1024x8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x1024.size a
  hwx0_6 : ∀ i : grid0.Coords, EltTy.bits .f32 = 32 ∨ (Rect.block (s := S8192x1024) S1024x1024.size (cc0_transform_6 i) (hinb0_6 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v11) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1024x8.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond4 i == 1#1) | ⟨_ + 7, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x2 : Shape := ⟨2, ![8192, 2]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S_ : Shape := ⟨0, ![]⟩
abbrev S8192 : Shape := ⟨1, ![8192]⟩
abbrev S1x1024x4096 : Shape := ⟨3, ![1, 1024, 4096]⟩
abbrev S1024x4096 : Shape := ⟨2, ![1024, 4096]⟩
abbrev S8192x4096 : Shape := ⟨2, ![8192, 4096]⟩
abbrev S1x4096 : Shape := ⟨2, ![1, 4096]⟩
abbrev S4096 : Shape := ⟨1, ![4096]⟩
abbrev S1x4096x1024 : Shape := ⟨3, ![1, 4096, 1024]⟩
abbrev S4096x1024 : Shape := ⟨2, ![4096, 1024]⟩
abbrev S1x1024 : Shape := ⟨2, ![1, 1024]⟩
abbrev S1024 : Shape := ⟨1, ![1024]⟩
abbrev S8192x1 : Shape := ⟨2, ![8192, 1]⟩

abbrev nBuf : Space → Nat
  | .hbm => 249
  | .vmem => 0
  | .smem => 0
  | _ => 0

abbrev hbmTy0_0 (i : Nat) : BufTy := match i % 128 with
  | 0 => ⟨S8192x1024, .f32⟩
  | 1 => ⟨S8192x2, .i32⟩
  | 2 => ⟨S8192x2, .f32⟩
  | 3 => ⟨S8x1024x4096, .f32⟩
  | 4 => ⟨S8x4096, .f32⟩
  | 5 => ⟨S8x4096x1024, .f32⟩
  | 6 => ⟨S8x1024, .f32⟩
  | 7 => ⟨S_, .f32⟩
  | 8 => ⟨S8192x1024, .f32⟩
  | 9 => ⟨S_, .i32⟩
  | 10 => ⟨S8192x2, .i32⟩
  | 11 => ⟨S8192x2, .i1⟩
  | 12 => ⟨S8192x2, .f32⟩
  | 13 => ⟨S8192x2, .f32⟩
  | 14 => ⟨S_, .f32⟩
  | 15 => ⟨S8192, .f32⟩
  | 16 => ⟨S1x1024x4096, .f32⟩
  | 17 => ⟨S1024x4096, .f32⟩
  | 18 => ⟨S8192x4096, .f32⟩
  | 19 => ⟨S1x4096, .f32⟩
  | 20 => ⟨S4096, .f32⟩
  | 21 => ⟨S1x4096, .f32⟩
  | 22 => ⟨S8192x4096, .f32⟩
  | 23 => ⟨S8192x4096, .f32⟩
  | 24 => ⟨S_, .f32⟩
  | 25 => ⟨S8192x4096, .f32⟩
  | 26 => ⟨S8192x4096, .f32⟩
  | 27 => ⟨S1x4096x1024, .f32⟩
  | 28 => ⟨S4096x1024, .f32⟩
  | 29 => ⟨S8192x1024, .f32⟩
  | 30 => ⟨S1x1024, .f32⟩
  | 31 => ⟨S1024, .f32⟩
  | 32 => ⟨S1x1024, .f32⟩
  | 33 => ⟨S8192x1024, .f32⟩
  | 34 => ⟨S8192x1024, .f32⟩
  | 35 => ⟨S8192x1, .f32⟩
  | 36 => ⟨S8192x1024, .f32⟩
  | 37 => ⟨S8192x1024, .f32⟩
  | 38 => ⟨S8192x1024, .f32⟩
  | 39 => ⟨S_, .i32⟩
  | 40 => ⟨S8192x2, .i32⟩
  | 41 => ⟨S8192x2, .i1⟩
  | 42 => ⟨S8192x2, .f32⟩
  | 43 => ⟨S8192x2, .f32⟩
  | 44 => ⟨S_, .f32⟩
  | 45 => ⟨S8192, .f32⟩
  | 46 => ⟨S1x1024x4096, .f32⟩
  | 47 => ⟨S1024x4096, .f32⟩
  | 48 => ⟨S8192x4096, .f32⟩
  | 49 => ⟨S1x4096, .f32⟩
  | 50 => ⟨S4096, .f32⟩
  | 51 => ⟨S1x4096, .f32⟩
  | 52 => ⟨S8192x4096, .f32⟩
  | 53 => ⟨S8192x4096, .f32⟩
  | 54 => ⟨S_, .f32⟩
  | 55 => ⟨S8192x4096, .f32⟩
  | 56 => ⟨S8192x4096, .f32⟩
  | 57 => ⟨S1x4096x1024, .f32⟩
  | 58 => ⟨S4096x1024, .f32⟩
  | 59 => ⟨S8192x1024, .f32⟩
  | 60 => ⟨S1x1024, .f32⟩
  | 61 => ⟨S1024, .f32⟩
  | 62 => ⟨S1x1024, .f32⟩
  | 63 => ⟨S8192x1024, .f32⟩
  | 64 => ⟨S8192x1024, .f32⟩
  | 65 => ⟨S8192x1, .f32⟩
  | 66 => ⟨S8192x1024, .f32⟩
  | 67 => ⟨S8192x1024, .f32⟩
  | 68 => ⟨S8192x1024, .f32⟩
  | 69 => ⟨S_, .i32⟩
  | 70 => ⟨S8192x2, .i32⟩
  | 71 => ⟨S8192x2, .i1⟩
  | 72 => ⟨S8192x2, .f32⟩
  | 73 => ⟨S8192x2, .f32⟩
  | 74 => ⟨S_, .f32⟩
  | 75 => ⟨S8192, .f32⟩
  | 76 => ⟨S1x1024x4096, .f32⟩
  | 77 => ⟨S1024x4096, .f32⟩
  | 78 => ⟨S8192x4096, .f32⟩
  | 79 => ⟨S1x4096, .f32⟩
  | 80 => ⟨S4096, .f32⟩
  | 81 => ⟨S1x4096, .f32⟩
  | 82 => ⟨S8192x4096, .f32⟩
  | 83 => ⟨S8192x4096, .f32⟩
  | 84 => ⟨S_, .f32⟩
  | 85 => ⟨S8192x4096, .f32⟩
  | 86 => ⟨S8192x4096, .f32⟩
  | 87 => ⟨S1x4096x1024, .f32⟩
  | 88 => ⟨S4096x1024, .f32⟩
  | 89 => ⟨S8192x1024, .f32⟩
  | 90 => ⟨S1x1024, .f32⟩
  | 91 => ⟨S1024, .f32⟩
  | 92 => ⟨S1x1024, .f32⟩
  | 93 => ⟨S8192x1024, .f32⟩
  | 94 => ⟨S8192x1024, .f32⟩
  | 95 => ⟨S8192x1, .f32⟩
  | 96 => ⟨S8192x1024, .f32⟩
  | 97 => ⟨S8192x1024, .f32⟩
  | 98 => ⟨S8192x1024, .f32⟩
  | 99 => ⟨S_, .i32⟩
  | 100 => ⟨S8192x2, .i32⟩
  | 101 => ⟨S8192x2, .i1⟩
  | 102 => ⟨S8192x2, .f32⟩
  | 103 => ⟨S8192x2, .f32⟩
  | 104 => ⟨S_, .f32⟩
  | 105 => ⟨S8192, .f32⟩
  | 106 => ⟨S1x1024x4096, .f32⟩
  | 107 => ⟨S1024x4096, .f32⟩
  | 108 => ⟨S8192x4096, .f32⟩
  | 109 => ⟨S1x4096, .f32⟩
  | 110 => ⟨S4096, .f32⟩
  | 111 => ⟨S1x4096, .f32⟩
  | 112 => ⟨S8192x4096, .f32⟩
  | 113 => ⟨S8192x4096, .f32⟩
  | 114 => ⟨S_, .f32⟩
  | 115 => ⟨S8192x4096, .f32⟩
  | 116 => ⟨S8192x4096, .f32⟩
  | 117 => ⟨S1x4096x1024, .f32⟩
  | 118 => ⟨S4096x1024, .f32⟩
  | 119 => ⟨S8192x1024, .f32⟩
  | 120 => ⟨S1x1024, .f32⟩
  | 121 => ⟨S1024, .f32⟩
  | 122 => ⟨S1x1024, .f32⟩
  | 123 => ⟨S8192x1024, .f32⟩
  | 124 => ⟨S8192x1024, .f32⟩
  | 125 => ⟨S8192x1, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .i32⟩
  | 2 => ⟨S8192x2, .i32⟩
  | 3 => ⟨S8192x2, .i1⟩
  | 4 => ⟨S8192x2, .f32⟩
  | 5 => ⟨S8192x2, .f32⟩
  | 6 => ⟨S_, .f32⟩
  | 7 => ⟨S8192, .f32⟩
  | 8 => ⟨S1x1024x4096, .f32⟩
  | 9 => ⟨S1024x4096, .f32⟩
  | 10 => ⟨S8192x4096, .f32⟩
  | 11 => ⟨S1x4096, .f32⟩
  | 12 => ⟨S4096, .f32⟩
  | 13 => ⟨S1x4096, .f32⟩
  | 14 => ⟨S8192x4096, .f32⟩
  | 15 => ⟨S8192x4096, .f32⟩
  | 16 => ⟨S_, .f32⟩
  | 17 => ⟨S8192x4096, .f32⟩
  | 18 => ⟨S8192x4096, .f32⟩
  | 19 => ⟨S1x4096x1024, .f32⟩
  | 20 => ⟨S4096x1024, .f32⟩
  | 21 => ⟨S8192x1024, .f32⟩
  | 22 => ⟨S1x1024, .f32⟩
  | 23 => ⟨S1024, .f32⟩
  | 24 => ⟨S1x1024, .f32⟩
  | 25 => ⟨S8192x1024, .f32⟩
  | 26 => ⟨S8192x1024, .f32⟩
  | 27 => ⟨S8192x1, .f32⟩
  | 28 => ⟨S8192x1024, .f32⟩
  | 29 => ⟨S8192x1024, .f32⟩
  | 30 => ⟨S8192x1024, .f32⟩
  | 31 => ⟨S_, .i32⟩
  | 32 => ⟨S8192x2, .i32⟩
  | 33 => ⟨S8192x2, .i1⟩
  | 34 => ⟨S8192x2, .f32⟩
  | 35 => ⟨S8192x2, .f32⟩
  | 36 => ⟨S_, .f32⟩
  | 37 => ⟨S8192, .f32⟩
  | 38 => ⟨S1x1024x4096, .f32⟩
  | 39 => ⟨S1024x4096, .f32⟩
  | 40 => ⟨S8192x4096, .f32⟩
  | 41 => ⟨S1x4096, .f32⟩
  | 42 => ⟨S4096, .f32⟩
  | 43 => ⟨S1x4096, .f32⟩
  | 44 => ⟨S8192x4096, .f32⟩
  | 45 => ⟨S8192x4096, .f32⟩
  | 46 => ⟨S_, .f32⟩
  | 47 => ⟨S8192x4096, .f32⟩
  | 48 => ⟨S8192x4096, .f32⟩
  | 49 => ⟨S1x4096x1024, .f32⟩
  | 50 => ⟨S4096x1024, .f32⟩
  | 51 => ⟨S8192x1024, .f32⟩
  | 52 => ⟨S1x1024, .f32⟩
  | 53 => ⟨S1024, .f32⟩
  | 54 => ⟨S1x1024, .f32⟩
  | 55 => ⟨S8192x1024, .f32⟩
  | 56 => ⟨S8192x1024, .f32⟩
  | 57 => ⟨S8192x1, .f32⟩
  | 58 => ⟨S8192x1024, .f32⟩
  | 59 => ⟨S8192x1024, .f32⟩
  | 60 => ⟨S8192x1024, .f32⟩
  | 61 => ⟨S_, .i32⟩
  | 62 => ⟨S8192x2, .i32⟩
  | 63 => ⟨S8192x2, .i1⟩
  | 64 => ⟨S8192x2, .f32⟩
  | 65 => ⟨S8192x2, .f32⟩
  | 66 => ⟨S_, .f32⟩
  | 67 => ⟨S8192, .f32⟩
  | 68 => ⟨S1x1024x4096, .f32⟩
  | 69 => ⟨S1024x4096, .f32⟩
  | 70 => ⟨S8192x4096, .f32⟩
  | 71 => ⟨S1x4096, .f32⟩
  | 72 => ⟨S4096, .f32⟩
  | 73 => ⟨S1x4096, .f32⟩
  | 74 => ⟨S8192x4096, .f32⟩
  | 75 => ⟨S8192x4096, .f32⟩
  | 76 => ⟨S_, .f32⟩
  | 77 => ⟨S8192x4096, .f32⟩
  | 78 => ⟨S8192x4096, .f32⟩
  | 79 => ⟨S1x4096x1024, .f32⟩
  | 80 => ⟨S4096x1024, .f32⟩
  | 81 => ⟨S8192x1024, .f32⟩
  | 82 => ⟨S1x1024, .f32⟩
  | 83 => ⟨S1024, .f32⟩
  | 84 => ⟨S1x1024, .f32⟩
  | 85 => ⟨S8192x1024, .f32⟩
  | 86 => ⟨S8192x1024, .f32⟩
  | 87 => ⟨S8192x1, .f32⟩
  | 88 => ⟨S8192x1024, .f32⟩
  | 89 => ⟨S8192x1024, .f32⟩
  | 90 => ⟨S8192x1024, .f32⟩
  | 91 => ⟨S_, .i32⟩
  | 92 => ⟨S8192x2, .i32⟩
  | 93 => ⟨S8192x2, .i1⟩
  | 94 => ⟨S8192x2, .f32⟩
  | 95 => ⟨S8192x2, .f32⟩
  | 96 => ⟨S_, .f32⟩
  | 97 => ⟨S8192, .f32⟩
  | 98 => ⟨S1x1024x4096, .f32⟩
  | 99 => ⟨S1024x4096, .f32⟩
  | 100 => ⟨S8192x4096, .f32⟩
  | 101 => ⟨S1x4096, .f32⟩
  | 102 => ⟨S4096, .f32⟩
  | 103 => ⟨S1x4096, .f32⟩
  | 104 => ⟨S8192x4096, .f32⟩
  | 105 => ⟨S8192x4096, .f32⟩
  | 106 => ⟨S_, .f32⟩
  | 107 => ⟨S8192x4096, .f32⟩
  | 108 => ⟨S8192x4096, .f32⟩
  | 109 => ⟨S1x4096x1024, .f32⟩
  | 110 => ⟨S4096x1024, .f32⟩
  | 111 => ⟨S8192x1024, .f32⟩
  | 112 => ⟨S1x1024, .f32⟩
  | 113 => ⟨S1024, .f32⟩
  | 114 => ⟨S1x1024, .f32⟩
  | 115 => ⟨S8192x1024, .f32⟩
  | 116 => ⟨S8192x1024, .f32⟩
  | 117 => ⟨S8192x1, .f32⟩
  | 118 => ⟨S8192x1024, .f32⟩
  | 119 => ⟨S8192x1024, .f32⟩
  | 120 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call1_cst : Ref sig .tc := ⟨.hbm, 54, rfl⟩
abbrev main_call1_v0 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_3 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_4 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_call2_cst : Ref sig .tc := ⟨.hbm, 84, rfl⟩
abbrev main_call2_v0 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_c_5 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_6 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_call3_cst : Ref sig .tc := ⟨.hbm, 114, rfl⟩
abbrev main_call3_v0 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_c_7 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_8 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_call4_cst : Ref sig .tc := ⟨.hbm, 144, rfl⟩
abbrev main_call4_v0 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_c_9 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_cst_10 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_call5_cst : Ref sig .tc := ⟨.hbm, 174, rfl⟩
abbrev main_call5_v0 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_c_11 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_cst_12 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_call6_cst : Ref sig .tc := ⟨.hbm, 204, rfl⟩
abbrev main_call6_v0 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_c_13 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_cst_14 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_call7_cst : Ref sig .tc := ⟨.hbm, 234, rfl⟩
abbrev main_call7_v0 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  bcast_S_S8192x2 : S_.BroadcastsInDim S8192x2 (![] : Fin 0 → Fin S8192x2.rank)
  reducesTo_S8192x2_S8192_d1 : S8192x2.ReducesTo [1] S8192
  h_S_ : 0 < S_.numel
  slices_S8x1024x4096_S1x1024x4096_0_0_0 : S8x1024x4096.Slices ![0, 0, 0] S1x1024x4096
  shapeCasts_S1x1024x4096_S1024x4096 : S1x1024x4096.ShapeCasts S1024x4096
  slices_S8x4096_S1x4096_0_0 : S8x4096.Slices ![0, 0] S1x4096
  shapeCasts_S1x4096_S4096 : S1x4096.ShapeCasts S4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  slices_S8x4096x1024_S1x4096x1024_0_0_0 : S8x4096x1024.Slices ![0, 0, 0] S1x4096x1024
  shapeCasts_S1x4096x1024_S4096x1024 : S1x4096x1024.ShapeCasts S4096x1024
  slices_S8x1024_S1x1024_0_0 : S8x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  slices_S8x1024x4096_S1x1024x4096_1_0_0 : S8x1024x4096.Slices ![1, 0, 0] S1x1024x4096
  slices_S8x4096_S1x4096_1_0 : S8x4096.Slices ![1, 0] S1x4096
  slices_S8x4096x1024_S1x4096x1024_1_0_0 : S8x4096x1024.Slices ![1, 0, 0] S1x4096x1024
  slices_S8x1024_S1x1024_1_0 : S8x1024.Slices ![1, 0] S1x1024
  slices_S8x1024x4096_S1x1024x4096_2_0_0 : S8x1024x4096.Slices ![2, 0, 0] S1x1024x4096
  slices_S8x4096_S1x4096_2_0 : S8x4096.Slices ![2, 0] S1x4096
  slices_S8x4096x1024_S1x4096x1024_2_0_0 : S8x4096x1024.Slices ![2, 0, 0] S1x4096x1024
  slices_S8x1024_S1x1024_2_0 : S8x1024.Slices ![2, 0] S1x1024
  slices_S8x1024x4096_S1x1024x4096_3_0_0 : S8x1024x4096.Slices ![3, 0, 0] S1x1024x4096
  slices_S8x4096_S1x4096_3_0 : S8x4096.Slices ![3, 0] S1x4096
  slices_S8x4096x1024_S1x4096x1024_3_0_0 : S8x4096x1024.Slices ![3, 0, 0] S1x4096x1024
  slices_S8x1024_S1x1024_3_0 : S8x1024.Slices ![3, 0] S1x1024
  slices_S8x1024x4096_S1x1024x4096_4_0_0 : S8x1024x4096.Slices ![4, 0, 0] S1x1024x4096
  slices_S8x4096_S1x4096_4_0 : S8x4096.Slices ![4, 0] S1x4096
  slices_S8x4096x1024_S1x4096x1024_4_0_0 : S8x4096x1024.Slices ![4, 0, 0] S1x4096x1024
  slices_S8x1024_S1x1024_4_0 : S8x1024.Slices ![4, 0] S1x1024
  slices_S8x1024x4096_S1x1024x4096_5_0_0 : S8x1024x4096.Slices ![5, 0, 0] S1x1024x4096
  slices_S8x4096_S1x4096_5_0 : S8x4096.Slices ![5, 0] S1x4096
  slices_S8x4096x1024_S1x4096x1024_5_0_0 : S8x4096x1024.Slices ![5, 0, 0] S1x4096x1024
  slices_S8x1024_S1x1024_5_0 : S8x1024.Slices ![5, 0] S1x1024
  slices_S8x1024x4096_S1x1024x4096_6_0_0 : S8x1024x4096.Slices ![6, 0, 0] S1x1024x4096
  slices_S8x4096_S1x4096_6_0 : S8x4096.Slices ![6, 0] S1x4096
  slices_S8x4096x1024_S1x4096x1024_6_0_0 : S8x4096x1024.Slices ![6, 0, 0] S1x4096x1024
  slices_S8x1024_S1x1024_6_0 : S8x1024.Slices ![6, 0] S1x1024
  slices_S8x1024x4096_S1x1024x4096_7_0_0 : S8x1024x4096.Slices ![7, 0, 0] S1x1024x4096
  slices_S8x4096_S1x4096_7_0 : S8x4096.Slices ![7, 0] S1x4096
  slices_S8x4096x1024_S1x4096x1024_7_0_0 : S8x4096x1024.Slices ![7, 0, 0] S1x4096x1024
  slices_S8x1024_S1x1024_7_0 : S8x1024.Slices ![7, 0] S1x1024
  dot_S8192x1024_S1024x4096_S8192x4096_1_0_0_1_n_n_wf : DotDims.WF S8192x1024 S1024x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.RefTerms.lean ====
/-
  The reference's arithmetic, named: the zero array its sum starts from, the term each of its eight unrolled experts
  adds (the expert's gate mass broadcast along the rows, times the expert's two layers on slices of the stacked
  weights), and the running sums after each expert, all as functions of the seven argument arrays.
-/
import proofs.«141319_j14516989460789_2_alg».proof.Proof.Gen.ReferenceIdeal

noncomputable section

namespace Cert.ReferenceIdeal.HandRun

open Cert.ReferenceIdeal Cert.ReferenceIdeal.Gen Idealize.ShloMosaic Idealize.ShloMosaic.TcCoe Idealize.SL.Sem

variable {F : FTy → Type} [FloatOps F]

/-- The array of zeros the sum starts from. -/
def zeroArr : (⟨S8192x1024, .f32⟩ : BufTy).Contents (Elt F) :=
  broadcastInDim S8192x1024 ![] bcast_S_S8192x1024 (constant S_ .f32 0x00000000#32)

/-- What expert 0 adds. -/
def expertTerm0 (x0 : (⟨S8192x1024, .f32⟩ : BufTy).Contents (Elt F)) (x1 : (⟨S8192x2, .i32⟩ : BufTy).Contents (Elt F)) (x2 : (⟨S8192x2, .f32⟩ : BufTy).Contents (Elt F)) (x3 : (⟨S8x1024x4096, .f32⟩ : BufTy).Contents (Elt F)) (x4 : (⟨S8x4096, .f32⟩ : BufTy).Contents (Elt F)) (x5 : (⟨S8x4096x1024, .f32⟩ : BufTy).Contents (Elt F)) (x6 : (⟨S8x1024, .f32⟩ : BufTy).Contents (Elt F)) : (⟨S8192x1024, .f32⟩ : BufTy).Contents (Elt F) :=
  mulf (broadcastInDim S8192x1024 ![0, 1] bcast_S8192x1_S8192x1024_0_1 (broadcastInDim S8192x1 ![0] bcast_S8192_S8192x1_0 (Host.reduceAdd (mulf x2 (uitofp .f32 (cmpi .eq x1 (broadcastInDim S8192x2 ![] bcast_S_S8192x2 (constantI S_ 32 0#32))))) (constant S_ .f32 0x00000000#32) reducesTo_S8192x2_S8192_d1 h_S_))) (addf (Host.dotGeneral dot_S8192x4096_S4096x1024_S8192x1024_1_0_0_1_n_n none (maximumf (addf (Host.dotGeneral dot_S8192x1024_S1024x4096_S8192x4096_1_0_0_1_n_n none x0 (shapeCast _ (extractStridedSlice S1x1024x4096 ![0, 0, 0] x3 slices_S8x1024x4096_S1x1024x4096_0_0_0) shapeCasts_S1x1024x4096_S1024x4096)) (broadcastInDim S8192x4096 ![0, 1] bcast_S1x4096_S8192x4096_0_1 (broadcastInDim S1x4096 ![1] bcast_S4096_S1x4096_1 (shapeCast _ (extractStridedSlice S1x4096 ![0, 0] x4 slices_S8x4096_S1x4096_0_0) shapeCasts_S1x4096_S4096)))) (broadcastInDim S8192x4096 ![] bcast_S_S8192x4096 (constant S_ .f32 0x00000000#32))) (shapeCast _ (extractStridedSlice S1x4096x1024 ![0, 0, 0] x5 slices_S8x4096x1024_S1x4096x1024_0_0_0) shapeCasts_S1x4096x1024_S4096x1024)) (broadcastInDim S8192x1024 ![0, 1] bcast_S1x1024_S8192x1024_0_1 (broadcastInDim S1x1024 ![1] bcast_S1024_S1x1024_1 (shapeCast _ (extractStridedSlice S1x1024 ![0, 0] x6 slices_S8x1024_S1x1024_0_0) shapeCasts_S1x1024_S1024))))

/-- What expert 1 adds. -/
def expertTerm1 (x0 : (⟨S8192x1024, .f32⟩ : BufTy).Contents (Elt F)) (x1 : (⟨S8192x2, .i32⟩ : BufTy).Contents (Elt F)) (x2 : (⟨S8192x2, .f32⟩ : BufTy).Contents (Elt F)) (x3 : (⟨S8x1024x4096, .f32⟩ : BufTy).Contents (Elt F)) (x4 : (⟨S8x4096, .f32⟩ : BufTy).Contents (Elt F)) (x5 : (⟨S8x4096x1024, .f32⟩ : BufTy).Contents (Elt F)) (x6 : (⟨S8x1024, .f32⟩ : BufTy).Contents (Elt F)) : (⟨S8192x1024, .f32⟩ : BufTy).Contents (Elt F) :=
  mulf (broadcastInDim S8192x1024 ![0, 1] bcast_S8192x1_S8192x1024_0_1 (broadcastInDim S8192x1 ![0] bcast_S8192_S8192x1_0 (Host.reduceAdd (mulf x2 (uitofp .f32 (cmpi .eq x1 (broadcastInDim S8192x2 ![] bcast_S_S8192x2 (constantI S_ 32 1#32))))) (constant S_ .f32 0x00000000#32) reducesTo_S8192x2_S8192_d1 h_S_))) (addf (Host.dotGeneral dot_S8192x4096_S4096x1024_S8192x1024_1_0_0_1_n_n none (maximumf (addf (Host.dotGeneral dot_S8192x1024_S1024x4096_S8192x4096_1_0_0_1_n_n none x0 (shapeCast _ (extractStridedSlice S1x1024x4096 ![1, 0, 0] x3 slices_S8x1024x4096_S1x1024x4096_1_0_0) shapeCasts_S1x1024x4096_S1024x4096)) (broadcastInDim S8192x4096 ![0, 1] bcast_S1x4096_S8192x4096_0_1 (broadcastInDim S1x4096 ![1] bcast_S4096_S1x4096_1 (shapeCast _ (extractStridedSlice S1x4096 ![1, 0] x4 slices_S8x4096_S1x4096_1_0) shapeCasts_S1x4096_S4096)))) (broadcastInDim S8192x4096 ![] bcast_S_S8192x4096 (constant S_ .f32 0x00000000#32))) (shapeCast _ (extractStridedSlice S1x4096x1024 ![1, 0, 0] x5 slices_S8x4096x1024_S1x4096x1024_1_0_0) shapeCasts_S1x4096x1024_S4096x1024)) (broadcastInDim S8192x1024 ![0, 1] bcast_S1x1024_S8192x1024_0_1 (broadcastInDim S1x1024 ![1] bcast_S1024_S1x1024_1 (shapeCast _ (extractStridedSlice S1x1024 ![1, 0] x6 slices_S8x1024_S1x1024_1_0) shapeCasts_S1x1024_S1024))))

/-- What expert 2 adds. -/
def expertTerm2 (x0 : (⟨S8192x1024, .f32⟩ : BufTy).Contents (Elt F)) (x1 : (⟨S8192x2, .i32⟩ : BufTy).Contents (Elt F)) (x2 : (⟨S8192x2, .f32⟩ : BufTy).Contents (Elt F)) (x3 : (⟨S8x1024x4096, .f32⟩ : BufTy).Contents (Elt F)) (x4 : (⟨S8x4096, .f32⟩ : BufTy).Contents (Elt F)) (x5 : (⟨S8x4096x1024, .f32⟩ : BufTy).Contents (Elt F)) (x6 : (⟨S8x1024, .f32⟩ : BufTy).Contents (Elt F)) : (⟨S8192x1024, .f32⟩ : BufTy).Contents (Elt F) :=
  mulf (broadcastInDim S8192x1024 ![0, 1] bcast_S8192x1_S8192x1024_0_1 (broadcastInDim S8192x1 ![0] bcast_S8192_S8192x1_0 (Host.reduceAdd (mulf x2 (uitofp .f32 (cmpi .eq x1 (broadcastInDim S8192x2 ![] bcast_S_S8192x2 (constantI S_ 32 2#32))))) (constant S_ .f32 0x00000000#32) reducesTo_S8192x2_S8192_d1 h_S_))) (addf (Host.dotGeneral dot_S8192x4096_S4096x1024_S8192x1024_1_0_0_1_n_n none (maximumf (addf (Host.dotGeneral dot_S8192x1024_S1024x4096_S8192x4096_1_0_0_1_n_n none x0 (shapeCast _ (extractStridedSlice S1x1024x4096 ![2, 0, 0] x3 slices_S8x1024x4096_S1x1024x4096_2_0_0) shapeCasts_S1x1024x4096_S1024x4096)) (broadcastInDim S8192x4096 ![0, 1] bcast_S1x4096_S8192x4096_0_1 (broadcastInDim S1x4096 ![1] bcast_S4096_S1x4096_1 (shapeCast _ (extractStridedSlice S1x4096 ![2, 0] x4 slices_S8x4096_S1x4096_2_0) shapeCasts_S1x4096_S4096)))) (broadcastInDim S8192x4096 ![] bcast_S_S8192x4096 (constant S_ .f32 0x00000000#32))) (shapeCast _ (extractStridedSlice S1x4096x1024 ![2, 0, 0] x5 slices_S8x4096x1024_S1x4096x1024_2_0_0) shapeCasts_S1x4096x1024_S4096x1024)) (broadcastInDim S8192x1024 ![0, 1] bcast_S1x1024_S8192x1024_0_1 (broadcastInDim S1x1024 ![1] bcast_S1024_S1x1024_1 (shapeCast _ (extractStridedSlice S1x1024 ![2, 0] x6 slices_S8x1024_S1x1024_2_0) shapeCasts_S1x1024_S1024))))

/-- What expert 3 adds. -/
def expertTerm3 (x0 : (⟨S8192x1024, .f32⟩ : BufTy).Contents (Elt F)) (x1 : (⟨S8192x2, .i32⟩ : BufTy).Contents (Elt F)) (x2 : (⟨S8192x2, .f32⟩ : BufTy).Contents (Elt F)) (x3 : (⟨S8x1024x4096, .f32⟩ : BufTy).Contents (Elt F)) (x4 : (⟨S8x4096, .f32⟩ : BufTy).Contents (Elt F)) (x5 : (⟨S8x4096x1024, .f32⟩ : BufTy).Contents (Elt F)) (x6 : (⟨S8x1024, .f32⟩ : BufTy).Contents (Elt F)) : (⟨S8192x1024, .f32⟩ : BufTy).Contents (Elt F) :=
  mulf (broadcastInDim S8192x1024 ![0, 1] bcast_S8192x1_S8192x1024_0_1 (broadcastInDim S8192x1 ![0] bcast_S8192_S8192x1_0 (Host.reduceAdd (mulf x2 (uitofp .f32 (cmpi .eq x1 (broadcastInDim S8192x2 ![] bcast_S_S8192x2 (constantI S_ 32 3#32))))) (constant S_ .f32 0x00000000#32) reducesTo_S8192x2_S8192_d1 h_S_))) (addf (Host.dotGeneral dot_S8192x4096_S4096x1024_S8192x1024_1_0_0_1_n_n none (maximumf (addf (Host.dotGeneral dot_S8192x1024_S1024x4096_S8192x4096_1_0_0_1_n_n none x0 (shapeCast _ (extractStridedSlice S1x1024x4096 ![3, 0, 0] x3 slices_S8x1024x4096_S1x1024x4096_3_0_0) shapeCasts_S1x1024x4096_S1024x4096)) (broadcastInDim S8192x4096 ![0, 1] bcast_S1x4096_S8192x4096_0_1 (broadcastInDim S1x4096 ![1] bcast_S4096_S1x4096_1 (shapeCast _ (extractStridedSlice S1x4096 ![3, 0] x4 slices_S8x4096_S1x4096_3_0) shapeCasts_S1x4096_S4096)))) (broadcastInDim S8192x4096 ![] bcast_S_S8192x4096 (constant S_ .f32 0x00000000#32))) (shapeCast _ (extractStridedSlice S1x4096x1024 ![3, 0, 0] x5 slices_S8x4096x1024_S1x4096x1024_3_0_0) shapeCasts_S1x4096x1024_S4096x1024)) (broadcastInDim S8192x1024 ![0, 1] bcast_S1x1024_S8192x1024_0_1 (broadcastInDim S1x1024 ![1] bcast_S1024_S1x1024_1 (shapeCast _ (extractStridedSlice S1x1024 ![3, 0] x6 slices_S8x1024_S1x1024_3_0) shapeCasts_S1x1024_S1024))))

/-- What expert 4 adds. -/
def expertTerm4 (x0 : (⟨S8192x1024, .f32⟩ : BufTy).Contents (Elt F)) (x1 : (⟨S8192x2, .i32⟩ : BufTy).Contents (Elt F)) (x2 : (⟨S8192x2, .f32⟩ : BufTy).Contents (Elt F)) (x3 : (⟨S8x1024x4096, .f32⟩ : BufTy).Contents (Elt F)) (x4 : (⟨S8x4096, .f32⟩ : BufTy).Contents (Elt F)) (x5 : (⟨S8x4096x1024, .f32⟩ : BufTy).Contents (Elt F)) (x6 : (⟨S8x1024, .f32⟩ : BufTy).Contents (Elt F)) : (⟨S8192x1024, .f32⟩ : BufTy).Contents (Elt F) :=
  mulf (broadcastInDim S8192x1024 ![0, 1] bcast_S8192x1_S8192x1024_0_1 (broadcastInDim S8192x1 ![0] bcast_S8192_S8192x1_0 (Host.reduceAdd (mulf x2 (uitofp .f32 (cmpi .eq x1 (broadcastInDim S8192x2 ![] bcast_S_S8192x2 (constantI S_ 32 4#32))))) (constant S_ .f32 0x00000000#32) reducesTo_S8192x2_S8192_d1 h_S_))) (addf (Host.dotGeneral dot_S8192x4096_S4096x1024_S8192x1024_1_0_0_1_n_n none (maximumf (addf (Host.dotGeneral dot_S8192x1024_S1024x4096_S8192x4096_1_0_0_1_n_n none x0 (shapeCast _ (extractStridedSlice S1x1024x4096 ![4, 0, 0] x3 slices_S8x1024x4096_S1x1024x4096_4_0_0) shapeCasts_S1x1024x4096_S1024x4096)) (broadcastInDim S8192x4096 ![0, 1] bcast_S1x4096_S8192x4096_0_1 (broadcastInDim S1x4096 ![1] bcast_S4096_S1x4096_1 (shapeCast _ (extractStridedSlice S1x4096 ![4, 0] x4 slices_S8x4096_S1x4096_4_0) shapeCasts_S1x4096_S4096)))) (broadcastInDim S8192x4096 ![] bcast_S_S8192x4096 (constant S_ .f32 0x00000000#32))) (shapeCast _ (extractStridedSlice S1x4096x1024 ![4, 0, 0] x5 slices_S8x4096x1024_S1x4096x1024_4_0_0) shapeCasts_S1x4096x1024_S4096x1024)) (broadcastInDim S8192x1024 ![0, 1] bcast_S1x1024_S8192x1024_0_1 (broadcastInDim S1x1024 ![1] bcast_S1024_S1x1024_1 (shapeCast _ (extractStridedSlice S1x1024 ![4, 0] x6 slices_S8x1024_S1x1024_4_0) shapeCasts_S1x1024_S1024))))

/-- What expert 5 adds. -/
def expertTerm5 (x0 : (⟨S8192x1024, .f32⟩ : BufTy).Contents (Elt F)) (x1 : (⟨S8192x2, .i32⟩ : BufTy).Contents (Elt F)) (x2 : (⟨S8192x2, .f32⟩ : BufTy).Contents (Elt F)) (x3 : (⟨S8x1024x4096, .f32⟩ : BufTy).Contents (Elt F)) (x4 : (⟨S8x4096, .f32⟩ : BufTy).Contents (Elt F)) (x5 : (⟨S8x4096x1024, .f32⟩ : BufTy).Contents (Elt F)) (x6 : (⟨S8x1024, .f32⟩ : BufTy).Contents (Elt F)) : (⟨S8192x1024, .f32⟩ : BufTy).Contents (Elt F) :=
  mulf (broadcastInDim S8192x1024 ![0, 1] bcast_S8192x1_S8192x1024_0_1 (broadcastInDim S8192x1 ![0] bcast_S8192_S8192x1_0 (Host.reduceAdd (mulf x2 (uitofp .f32 (cmpi .eq x1 (broadcastInDim S8192x2 ![] bcast_S_S8192x2 (constantI S_ 32 5#32))))) (constant S_ .f32 0x00000000#32) reducesTo_S8192x2_S8192_d1 h_S_))) (addf (Host.dotGeneral dot_S8192x4096_S4096x1024_S8192x1024_1_0_0_1_n_n none (maximumf (addf (Host.dotGeneral dot_S8192x1024_S1024x4096_S8192x4096_1_0_0_1_n_n none x0 (shapeCast _ (extractStridedSlice S1x1024x4096 ![5, 0, 0] x3 slices_S8x1024x4096_S1x1024x4096_5_0_0) shapeCasts_S1x1024x4096_S1024x4096)) (broadcastInDim S8192x4096 ![0, 1] bcast_S1x4096_S8192x4096_0_1 (broadcastInDim S1x4096 ![1] bcast_S4096_S1x4096_1 (shapeCast _ (extractStridedSlice S1x4096 ![5, 0] x4 slices_S8x4096_S1x4096_5_0) shapeCasts_S1x4096_S4096)))) (broadcastInDim S8192x4096 ![] bcast_S_S8192x4096 (constant S_ .f32 0x00000000#32))) (shapeCast _ (extractStridedSlice S1x4096x1024 ![5, 0, 0] x5 slices_S8x4096x1024_S1x4096x1024_5_0_0) shapeCasts_S1x4096x1024_S4096x1024)) (broadcastInDim S8192x1024 ![0, 1] bcast_S1x1024_S8192x1024_0_1 (broadcastInDim S1x1024 ![1] bcast_S1024_S1x1024_1 (shapeCast _ (extractStridedSlice S1x1024 ![5, 0] x6 slices_S8x1024_S1x1024_5_0) shapeCasts_S1x1024_S1024))))

/-- What expert 6 adds. -/
def expertTerm6 (x0 : (⟨S8192x1024, .f32⟩ : BufTy).Contents (Elt F)) (x1 : (⟨S8192x2, .i32⟩ : BufTy).Contents (Elt F)) (x2 : (⟨S8192x2, .f32⟩ : BufTy).Contents (Elt F)) (x3 : (⟨S8x1024x4096, .f32⟩ : BufTy).Contents (Elt F)) (x4 : (⟨S8x4096, .f32⟩ : BufTy).Contents (Elt F)) (x5 : (⟨S8x4096x1024, .f32⟩ : BufTy).Contents (Elt F)) (x6 : (⟨S8x1024, .f32⟩ : BufTy).Contents (Elt F)) : (⟨S8192x1024, .f32⟩ : BufTy).Contents (Elt F) :=
  mulf (broadcastInDim S8192x1024 ![0, 1] bcast_S8192x1_S8192x1024_0_1 (broadcastInDim S8192x1 ![0] bcast_S8192_S8192x1_0 (Host.reduceAdd (mulf x2 (uitofp .f32 (cmpi .eq x1 (broadcastInDim S8192x2 ![] bcast_S_S8192x2 (constantI S_ 32 6#32))))) (constant S_ .f32 0x00000000#32) reducesTo_S8192x2_S8192_d1 h_S_))) (addf (Host.dotGeneral dot_S8192x4096_S4096x1024_S8192x1024_1_0_0_1_n_n none (maximumf (addf (Host.dotGeneral dot_S8192x1024_S1024x4096_S8192x4096_1_0_0_1_n_n none x0 (shapeCast _ (extractStridedSlice S1x1024x4096 ![6, 0, 0] x3 slices_S8x1024x4096_S1x1024x4096_6_0_0) shapeCasts_S1x1024x4096_S1024x4096)) (broadcastInDim S8192x4096 ![0, 1] bcast_S1x4096_S8192x4096_0_1 (broadcastInDim S1x4096 ![1] bcast_S4096_S1x4096_1 (shapeCast _ (extractStridedSlice S1x4096 ![6, 0] x4 slices_S8x4096_S1x4096_6_0) shapeCasts_S1x4096_S4096)))) (broadcastInDim S8192x4096 ![] bcast_S_S8192x4096 (constant S_ .f32 0x00000000#32))) (shapeCast _ (extractStridedSlice S1x4096x1024 ![6, 0, 0] x5 slices_S8x4096x1024_S1x4096x1024_6_0_0) shapeCasts_S1x4096x1024_S4096x1024)) (broadcastInDim S8192x1024 ![0, 1] bcast_S1x1024_S8192x1024_0_1 (broadcastInDim S1x1024 ![1] bcast_S1024_S1x1024_1 (shapeCast _ (extractStridedSlice S1x1024 ![6, 0] x6 slices_S8x1024_S1x1024_6_0) shapeCasts_S1x1024_S1024))))

/-- What expert 7 adds. -/
def expertTerm7 (x0 : (⟨S8192x1024, .f32⟩ : BufTy).Contents (Elt F)) (x1 : (⟨S8192x2, .i32⟩ : BufTy).Contents (Elt F)) (x2 : (⟨S8192x2, .f32⟩ : BufTy).Contents (Elt F)) (x3 : (⟨S8x1024x4096, .f32⟩ : BufTy).Contents (Elt F)) (x4 : (⟨S8x4096, .f32⟩ : BufTy).Contents (Elt F)) (x5 : (⟨S8x4096x1024, .f32⟩ : BufTy).Contents (Elt F)) (x6 : (⟨S8x1024, .f32⟩ : BufTy).Contents (Elt F)) : (⟨S8192x1024, .f32⟩ : BufTy).Contents (Elt F) :=
  mulf (broadcastInDim S8192x1024 ![0, 1] bcast_S8192x1_S8192x1024_0_1 (broadcastInDim S8192x1 ![0] bcast_S8192_S8192x1_0 (Host.reduceAdd (mulf x2 (uitofp .f32 (cmpi .eq x1 (broadcastInDim S8192x2 ![] bcast_S_S8192x2 (constantI S_ 32 7#32))))) (constant S_ .f32 0x00000000#32) reducesTo_S8192x2_S8192_d1 h_S_))) (addf (Host.dotGeneral dot_S8192x4096_S4096x1024_S8192x1024_1_0_0_1_n_n none (maximumf (addf (Host.dotGeneral dot_S8192x1024_S1024x4096_S8192x4096_1_0_0_1_n_n none x0 (shapeCast _ (extractStridedSlice S1x1024x4096 ![7, 0, 0] x3 slices_S8x1024x4096_S1x1024x4096_7_0_0) shapeCasts_S1x1024x4096_S1024x4096)) (broadcastInDim S8192x4096 ![0, 1] bcast_S1x4096_S8192x4096_0_1 (broadcastInDim S1x4096 ![1] bcast_S4096_S1x4096_1 (shapeCast _ (extractStridedSlice S1x4096 ![7, 0] x4 slices_S8x4096_S1x4096_7_0) shapeCasts_S1x4096_S4096)))) (broadcastInDim S8192x4096 ![] bcast_S_S8192x4096 (constant S_ .f32 0x00000000#32))) (shapeCast _ (extractStridedSlice S1x4096x1024 ![7, 0, 0] x5 slices_S8x4096x1024_S1x4096x1024_7_0_0) shapeCasts_S1x4096x1024_S4096x1024)) (broadcastInDim S8192x1024 ![0, 1] bcast_S1x1024_S8192x1024_0_1 (broadcastInDim S1x1024 ![1] bcast_S1024_S1x1024_1 (shapeCast _ (extractStridedSlice S1x1024 ![7, 0] x6 slices_S8x1024_S1x1024_7_0) shapeCasts_S1x1024_S1024))))

/-- The running sum after expert 0, …, after expert 7. -/
def acc0 (x0 : (⟨S8192x1024, .f32⟩ : BufTy).Contents (Elt F)) (x1 : (⟨S8192x2, .i32⟩ : BufTy).Contents (Elt F)) (x2 : (⟨S8192x2, .f32⟩ : BufTy).Contents (Elt F)) (x3 : (⟨S8x1024x4096, .f32⟩ : BufTy).Contents (Elt F)) (x4 : (⟨S8x4096, .f32⟩ : BufTy).Contents (Elt F)) (x5 : (⟨S8x4096x1024, .f32⟩ : BufTy).Contents (Elt F)) (x6 : (⟨S8x1024, .f32⟩ : BufTy).Contents (Elt F)) : (⟨S8192x1024, .f32⟩ : BufTy).Contents (Elt F) := addf (zeroArr (F := F)) (expertTerm0 x0 x1 x2 x3 x4 x5 x6)
def acc1 (x0 : (⟨S8192x1024, .f32⟩ : BufTy).Contents (Elt F)) (x1 : (⟨S8192x2, .i32⟩ : BufTy).Contents (Elt F)) (x2 : (⟨S8192x2, .f32⟩ : BufTy).Contents (Elt F)) (x3 : (⟨S8x1024x4096, .f32⟩ : BufTy).Contents (Elt F)) (x4 : (⟨S8x4096, .f32⟩ : BufTy).Contents (Elt F)) (x5 : (⟨S8x4096x1024, .f32⟩ : BufTy).Contents (Elt F)) (x6 : (⟨S8x1024, .f32⟩ : BufTy).Contents (Elt F)) : (⟨S8192x1024, .f32⟩ : BufTy).Contents (Elt F) := addf (acc0 x0 x1 x2 x3 x4 x5 x6) (expertTerm1 x0 x1 x2 x3 x4 x5 x6)
def acc2 (x0 : (⟨S8192x1024, .f32⟩ : BufTy).Contents (Elt F)) (x1 : (⟨S8192x2, .i32⟩ : BufTy).Contents (Elt F)) (x2 : (⟨S8192x2, .f32⟩ : BufTy).Contents (Elt F)) (x3 : (⟨S8x1024x4096, .f32⟩ : BufTy).Contents (Elt F)) (x4 : (⟨S8x4096, .f32⟩ : BufTy).Contents (Elt F)) (x5 : (⟨S8x4096x1024, .f32⟩ : BufTy).Contents (Elt F)) (x6 : (⟨S8x1024, .f32⟩ : BufTy).Contents (Elt F)) : (⟨S8192x1024, .f32⟩ : BufTy).Contents (Elt F) := addf (acc1 x0 x1 x2 x3 x4 x5 x6) (expertTerm2 x0 x1 x2 x3 x4 x5 x6)
def acc3 (x0 : (⟨S8192x1024, .f32⟩ : BufTy).Contents (Elt F)) (x1 : (⟨S8192x2, .i32⟩ : BufTy).Contents (Elt F)) (x2 : (⟨S8192x2, .f32⟩ : BufTy).Contents (Elt F)) (x3 : (⟨S8x1024x4096, .f32⟩ : BufTy).Contents (Elt F)) (x4 : (⟨S8x4096, .f32⟩ : BufTy).Contents (Elt F)) (x5 : (⟨S8x4096x1024, .f32⟩ : BufTy).Contents (Elt F)) (x6 : (⟨S8x1024, .f32⟩ : BufTy).Contents (Elt F)) : (⟨S8192x1024, .f32⟩ : BufTy).Contents (Elt F) := addf (acc2 x0 x1 x2 x3 x4 x5 x6) (expertTerm3 x0 x1 x2 x3 x4 x5 x6)
def acc4 (x0 : (⟨S8192x1024, .f32⟩ : BufTy).Contents (Elt F)) (x1 : (⟨S8192x2, .i32⟩ : BufTy).Contents (Elt F)) (x2 : (⟨S8192x2, .f32⟩ : BufTy).Contents (Elt F)) (x3 : (⟨S8x1024x4096, .f32⟩ : BufTy).Contents (Elt F)) (x4 : (⟨S8x4096, .f32⟩ : BufTy).Contents (Elt F)) (x5 : (⟨S8x4096x1024, .f32⟩ : BufTy).Contents (Elt F)) (x6 : (⟨S8x1024, .f32⟩ : BufTy).Contents (Elt F)) : (⟨S8192x1024, .f32⟩ : BufTy).Contents (Elt F) := addf (acc3 x0 x1 x2 x3 x4 x5 x6) (expertTerm4 x0 x1 x2 x3 x4 x5 x6)
def acc5 (x0 : (⟨S8192x1024, .f32⟩ : BufTy).Contents (Elt F)) (x1 : (⟨S8192x2, .i32⟩ : BufTy).Contents (Elt F)) (x2 : (⟨S8192x2, .f32⟩ : BufTy).Contents (Elt F)) (x3 : (⟨S8x1024x4096, .f32⟩ : BufTy).Contents (Elt F)) (x4 : (⟨S8x4096, .f32⟩ : BufTy).Contents (Elt F)) (x5 : (⟨S8x4096x1024, .f32⟩ : BufTy).Contents (Elt F)) (x6 : (⟨S8x1024, .f32⟩ : BufTy).Contents (Elt F)) : (⟨S8192x1024, .f32⟩ : BufTy).Contents (Elt F) := addf (acc4 x0 x1 x2 x3 x4 x5 x6) (expertTerm5 x0 x1 x2 x3 x4 x5 x6)
def acc6 (x0 : (⟨S8192x1024, .f32⟩ : BufTy).Contents (Elt F)) (x1 : (⟨S8192x2, .i32⟩ : BufTy).Contents (Elt F)) (x2 : (⟨S8192x2, .f32⟩ : BufTy).Contents (Elt F)) (x3 : (⟨S8x1024x4096, .f32⟩ : BufTy).Contents (Elt F)) (x4 : (⟨S8x4096, .f32⟩ : BufTy).Contents (Elt F)) (x5 : (⟨S8x4096x1024, .f32⟩ : BufTy).Contents (Elt F)) (x6 : (⟨S8x1024, .f32⟩ : BufTy).Contents (Elt F)) : (⟨S8192x1024, .f32⟩ : BufTy).Contents (Elt F) := addf (acc5 x0 x1 x2 x3 x4 x5 x6) (expertTerm6 x0 x1 x2 x3 x4 x5 x6)
def acc7 (x0 : (⟨S8192x1024, .f32⟩ : BufTy).Contents (Elt F)) (x1 : (⟨S8192x2, .i32⟩ : BufTy).Contents (Elt F)) (x2 : (⟨S8192x2, .f32⟩ : BufTy).Contents (Elt F)) (x3 : (⟨S8x1024x4096, .f32⟩ : BufTy).Contents (Elt F)) (x4 : (⟨S8x4096, .f32⟩ : BufTy).Contents (Elt F)) (x5 : (⟨S8x4096x1024, .f32⟩ : BufTy).Contents (Elt F)) (x6 : (⟨S8x1024, .f32⟩ : BufTy).Contents (Elt F)) : (⟨S8192x1024, .f32⟩ : BufTy).Contents (Elt F) := addf (acc6 x0 x1 x2 x3 x4 x5 x6) (expertTerm7 x0 x1 x2 x3 x4 x5 x6)

end Cert.ReferenceIdeal.HandRun

end
-- ==== Proof.RefWin1.lean ====
/-
  The reference's operations for expert 0 (with the two that make the zero array the sum starts from), run from any
  contents of the buffers: the running sum's buffer ends at the sum so far plus the expert's term of the arguments, and
  a buffer these operations do not write keeps its contents.
-/
import proofs.«141319_j14516989460789_2_alg».proof.Proof.RefTerms
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The operations, in program order. -/
abbrev part1 : List (HloOp τ sig (Elt F)) :=
  [ nullary main_cst (constant S_ .f32 0x00000000#32),
    unary main_cst main_v0 (broadcastInDim S8192x1024 ![] bcast_S_S8192x1024 : (⟨S_, .f32⟩ : BufTy).Contents (Elt F) → (⟨S8192x1024, .f32⟩ : BufTy).Contents (Elt F)),
    nullary main_c (constantI S_ 32 0#32),
    unary main_c main_v1 (broadcastInDim S8192x2 ![] bcast_S_S8192x2 : (⟨S_, .i32⟩ : BufTy).Contents (Elt F) → (⟨S8192x2, .i32⟩ : BufTy).Contents (Elt F)),
    binary main_arg1 main_v1 main_v2 (cmpi .eq : (⟨S8192x2, .i32⟩ : BufTy).Contents (Elt F) → (⟨S8192x2, .i32⟩ : BufTy).Contents (Elt F) → (⟨S8192x2, .i1⟩ : BufTy).Contents (Elt F)),
    unary main_v2 main_v3 (uitofp .f32 : (⟨S8192x2, .i1⟩ : BufTy).Contents (Elt F) → (⟨S8192x2, .f32⟩ : BufTy).Contents (Elt F)),
    binary main_arg2 main_v3 main_v4 (mulf : (⟨S8192x2, .f32⟩ : BufTy).Contents (Elt F) → (⟨S8192x2, .f32⟩ : BufTy).Contents (Elt F) → (⟨S8192x2, .f32⟩ : BufTy).Contents (Elt F)),
    nullary main_cst_0 (constant S_ .f32 0x00000000#32),
    binary main_v4 main_cst_0 main_v5 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_arg3 main_v6 ((extractStridedSlice S1x1024x4096 ![0, 0, 0] · slices_S8x1024x4096_S1x1024x4096_0_0_0) : (⟨S8x1024x4096, .f32⟩ : BufTy).Contents (Elt F) → (⟨S1x1024x4096, .f32⟩ : BufTy).Contents (Elt F)),
    reshape main_v6 main_v7 rfl shapeCasts_S1x1024x4096_S1024x4096,
    binary main_arg0 main_v7 main_v8 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    unary main_arg4 main_v9 ((extractStridedSlice S1x4096 ![0, 0] · slices_S8x4096_S1x4096_0_0) : (⟨S8x4096, .f32⟩ : BufTy).Contents (Elt F) → (⟨S1x4096, .f32⟩ : BufTy).Contents (Elt F)),
    reshape main_v9 main_v10 rfl shapeCasts_S1x4096_S4096,
    unary main_v10 main_v11 (broadcastInDim S1x4096 ![1] bcast_S4096_S1x4096_1 : (⟨S4096, .f32⟩ : BufTy).Contents (Elt F) → (⟨S1x4096, .f32⟩ : BufTy).Contents (Elt F)),
    unary main_v11 main_v12 (broadcastInDim S8192x4096 ![0, 1] bcast_S1x4096_S8192x4096_0_1 : (⟨S1x4096, .f32⟩ : BufTy).Contents (Elt F) → (⟨S8192x4096, .f32⟩ : BufTy).Contents (Elt F)),
    binary main_v8 main_v12 main_v13 (addf : (⟨S8192x4096, .f32⟩ : BufTy).Contents (Elt F) → (⟨S8192x4096, .f32⟩ : BufTy).Contents (Elt F) → (⟨S8192x4096, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x4096, .f32⟩) main_call0_v0) (broadcastInDim S8192x4096 ![] bcast_S_S8192x4096),
    TRef.binary (TRef.of (T := ⟨S8192x4096, .f32⟩) main_v13) (TRef.of (T := ⟨S8192x4096, .f32⟩) main_call0_v0) (TRef.of (T := ⟨S8192x4096, .f32⟩) main_v14) maximumf,
    unary main_arg5 main_v15 ((extractStridedSlice S1x4096x1024 ![0, 0, 0] · slices_S8x4096x1024_S1x4096x1024_0_0_0) : (⟨S8x4096x1024, .f32⟩ : BufTy).Contents (Elt F) → (⟨S1x4096x1024, .f32⟩ : BufTy).Contents (Elt F)),
    reshape main_v15 main_v16 rfl shapeCasts_S1x4096x1024_S4096x1024,
    binary main_v14 main_v16 main_v17 ((fun l r => Host.dotGeneral dot_S8192x4096_S4096x1024_S8192x1024_1_0_0_1_n_n none l r) : (⟨S8192x4096, .f32⟩ : BufTy).Contents (Elt F) → (⟨S4096x1024, .f32⟩ : BufTy).Contents (Elt F) → (⟨S8192x1024, .f32⟩ : BufTy).Contents (Elt F)),
    unary main_arg6 main_v18 ((extractStridedSlice S1x1024 ![0, 0] · slices_S8x1024_S1x1024_0_0) : (⟨S8x1024, .f32⟩ : BufTy).Contents (Elt F) → (⟨S1x1024, .f32⟩ : BufTy).Contents (Elt F)),
    reshape main_v18 main_v19 rfl shapeCasts_S1x1024_S1024,
    unary main_v19 main_v20 (broadcastInDim S1x1024 ![1] bcast_S1024_S1x1024_1 : (⟨S1024, .f32⟩ : BufTy).Contents (Elt F) → (⟨S1x1024, .f32⟩ : BufTy).Contents (Elt F)),
    unary main_v20 main_v21 (broadcastInDim S8192x1024 ![0, 1] bcast_S1x1024_S8192x1024_0_1 : (⟨S1x1024, .f32⟩ : BufTy).Contents (Elt F) → (⟨S8192x1024, .f32⟩ : BufTy).Contents (Elt F)),
    binary main_v17 main_v21 main_v22 (addf : (⟨S8192x1024, .f32⟩ : BufTy).Contents (Elt F) → (⟨S8192x1024, .f32⟩ : BufTy).Contents (Elt F) → (⟨S8192x1024, .f32⟩ : BufTy).Contents (Elt F)),
    unary main_v5 main_v23 (broadcastInDim S8192x1 ![0] bcast_S8192_S8192x1_0 : (⟨S8192, .f32⟩ : BufTy).Contents (Elt F) → (⟨S8192x1, .f32⟩ : BufTy).Contents (Elt F)),
    unary main_v23 main_v24 (broadcastInDim S8192x1024 ![0, 1] bcast_S8192x1_S8192x1024_0_1 : (⟨S8192x1, .f32⟩ : BufTy).Contents (Elt F) → (⟨S8192x1024, .f32⟩ : BufTy).Contents (Elt F)),
    binary main_v24 main_v22 main_v25 (mulf : (⟨S8192x1024, .f32⟩ : BufTy).Contents (Elt F) → (⟨S8192x1024, .f32⟩ : BufTy).Contents (Elt F) → (⟨S8192x1024, .f32⟩ : BufTy).Contents (Elt F)),
    binary main_v0 main_v25 main_v26 (addf : (⟨S8192x1024, .f32⟩ : BufTy).Contents (Elt F) → (⟨S8192x1024, .f32⟩ : BufTy).Contents (Elt F) → (⟨S8192x1024, .f32⟩ : BufTy).Contents (Elt F)) ]

/-- The buffers they write. -/
abbrev part1_W : List (Ref sig .tc) := [main_cst, main_v0, main_c, main_v1, main_v2, main_v3, main_v4, main_cst_0, main_v5, main_v6, main_v7, main_v8, main_v9, main_v10, main_v11, main_v12, main_v13, main_call0_cst, main_call0_v0, main_v14, main_v15, main_v16, main_v17, main_v18, main_v19, main_v20, main_v21, main_v22, main_v23, main_v24, main_v25, main_v26]

set_option maxRecDepth 8192 in
set_option maxHeartbeats 8000000 in
theorem part1_sub : (part1 : List (HloOp τ sig (Elt F))).Forall fun op => op.bufs ⊆ tcRefs τ sig :=
  ⟨nullary_bufs_sub .., unary_bufs_sub .., nullary_bufs_sub .., unary_bufs_sub .., binary_bufs_sub .., unary_bufs_sub .., binary_bufs_sub .., nullary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., binary_bufs_sub .., binary_bufs_sub ..⟩

set_option maxRecDepth 8192 in
set_option maxHeartbeats 8000000 in
theorem part1_fresh : ∀ op ∈ (part1 : List (HloOp τ sig (Elt F))), op.fresh = ∅ := by
  intro _ h; (repeat (cases h with | head => rfl | tail _ h => ?_)); exact nomatch h

set_option maxRecDepth 8192 in
set_option maxHeartbeats 8000000 in
theorem part1_writes : (part1 : List (HloOp τ sig (Elt F))).Forall fun op =>
    op.writes ⊆ (part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keep1 (W : Valuation τ sig (Elt F)) (r : Ref sig .tc) (h : r ∉ part1_W) :
    after part1 W (Proc.devRef .tc r) = W (Proc.devRef .tc r) :=
  after_of_writes_sub part1 _ part1_writes h

set_option maxRecDepth 8192 in
set_option maxHeartbeats 8000000 in
/-- The running sum after these operations. -/
theorem sum1 (W : Valuation τ sig (Elt F)) :
    after part1 W (Proc.devRef .tc main_v26) = addf (zeroArr (F := F)) (expertTerm0 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6))) := by
  unfold zeroArr expertTerm0
  after_results_simp
  all_goals rfl

end Cert.ReferenceIdeal.HandRun

end
-- ==== Proof.RefWin2.lean ====
/-
  The reference's operations for expert 1, run from any
  contents of the buffers: the running sum's buffer ends at the sum so far plus the expert's term of the arguments, and
  a buffer these operations do not write keeps its contents.
-/
import proofs.«141319_j14516989460789_2_alg».proof.Proof.RefTerms
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The operations, in program order. -/
abbrev part2 : List (HloOp τ sig (Elt F)) :=
  [ nullary main_c_1 (constantI S_ 32 1#32),
    unary main_c_1 main_v27 (broadcastInDim S8192x2 ![] bcast_S_S8192x2 : (⟨S_, .i32⟩ : BufTy).Contents (Elt F) → (⟨S8192x2, .i32⟩ : BufTy).Contents (Elt F)),
    binary main_arg1 main_v27 main_v28 (cmpi .eq : (⟨S8192x2, .i32⟩ : BufTy).Contents (Elt F) → (⟨S8192x2, .i32⟩ : BufTy).Contents (Elt F) → (⟨S8192x2, .i1⟩ : BufTy).Contents (Elt F)),
    unary main_v28 main_v29 (uitofp .f32 : (⟨S8192x2, .i1⟩ : BufTy).Contents (Elt F) → (⟨S8192x2, .f32⟩ : BufTy).Contents (Elt F)),
    binary main_arg2 main_v29 main_v30 (mulf : (⟨S8192x2, .f32⟩ : BufTy).Contents (Elt F) → (⟨S8192x2, .f32⟩ : BufTy).Contents (Elt F) → (⟨S8192x2, .f32⟩ : BufTy).Contents (Elt F)),
    nullary main_cst_2 (constant S_ .f32 0x00000000#32),
    binary main_v30 main_cst_2 main_v31 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_arg3 main_v32 ((extractStridedSlice S1x1024x4096 ![1, 0, 0] · slices_S8x1024x4096_S1x1024x4096_1_0_0) : (⟨S8x1024x4096, .f32⟩ : BufTy).Contents (Elt F) → (⟨S1x1024x4096, .f32⟩ : BufTy).Contents (Elt F)),
    reshape main_v32 main_v33 rfl shapeCasts_S1x1024x4096_S1024x4096,
    binary main_arg0 main_v33 main_v34 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    unary main_arg4 main_v35 ((extractStridedSlice S1x4096 ![1, 0] · slices_S8x4096_S1x4096_1_0) : (⟨S8x4096, .f32⟩ : BufTy).Contents (Elt F) → (⟨S1x4096, .f32⟩ : BufTy).Contents (Elt F)),
    reshape main_v35 main_v36 rfl shapeCasts_S1x4096_S4096,
    unary main_v36 main_v37 (broadcastInDim S1x4096 ![1] bcast_S4096_S1x4096_1 : (⟨S4096, .f32⟩ : BufTy).Contents (Elt F) → (⟨S1x4096, .f32⟩ : BufTy).Contents (Elt F)),
    unary main_v37 main_v38 (broadcastInDim S8192x4096 ![0, 1] bcast_S1x4096_S8192x4096_0_1 : (⟨S1x4096, .f32⟩ : BufTy).Contents (Elt F) → (⟨S8192x4096, .f32⟩ : BufTy).Contents (Elt F)),
    binary main_v34 main_v38 main_v39 (addf : (⟨S8192x4096, .f32⟩ : BufTy).Contents (Elt F) → (⟨S8192x4096, .f32⟩ : BufTy).Contents (Elt F) → (⟨S8192x4096, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x4096, .f32⟩) main_call1_v0) (broadcastInDim S8192x4096 ![] bcast_S_S8192x4096),
    TRef.binary (TRef.of (T := ⟨S8192x4096, .f32⟩) main_v39) (TRef.of (T := ⟨S8192x4096, .f32⟩) main_call1_v0) (TRef.of (T := ⟨S8192x4096, .f32⟩) main_v40) maximumf,
    unary main_arg5 main_v41 ((extractStridedSlice S1x4096x1024 ![1, 0, 0] · slices_S8x4096x1024_S1x4096x1024_1_0_0) : (⟨S8x4096x1024, .f32⟩ : BufTy).Contents (Elt F) → (⟨S1x4096x1024, .f32⟩ : BufTy).Contents (Elt F)),
    reshape main_v41 main_v42 rfl shapeCasts_S1x4096x1024_S4096x1024,
    binary main_v40 main_v42 main_v43 ((fun l r => Host.dotGeneral dot_S8192x4096_S4096x1024_S8192x1024_1_0_0_1_n_n none l r) : (⟨S8192x4096, .f32⟩ : BufTy).Contents (Elt F) → (⟨S4096x1024, .f32⟩ : BufTy).Contents (Elt F) → (⟨S8192x1024, .f32⟩ : BufTy).Contents (Elt F)),
    unary main_arg6 main_v44 ((extractStridedSlice S1x1024 ![1, 0] · slices_S8x1024_S1x1024_1_0) : (⟨S8x1024, .f32⟩ : BufTy).Contents (Elt F) → (⟨S1x1024, .f32⟩ : BufTy).Contents (Elt F)),
    reshape main_v44 main_v45 rfl shapeCasts_S1x1024_S1024,
    unary main_v45 main_v46 (broadcastInDim S1x1024 ![1] bcast_S1024_S1x1024_1 : (⟨S1024, .f32⟩ : BufTy).Contents (Elt F) → (⟨S1x1024, .f32⟩ : BufTy).Contents (Elt F)),
    unary main_v46 main_v47 (broadcastInDim S8192x1024 ![0, 1] bcast_S1x1024_S8192x1024_0_1 : (⟨S1x1024, .f32⟩ : BufTy).Contents (Elt F) → (⟨S8192x1024, .f32⟩ : BufTy).Contents (Elt F)),
    binary main_v43 main_v47 main_v48 (addf : (⟨S8192x1024, .f32⟩ : BufTy).Contents (Elt F) → (⟨S8192x1024, .f32⟩ : BufTy).Contents (Elt F) → (⟨S8192x1024, .f32⟩ : BufTy).Contents (Elt F)),
    unary main_v31 main_v49 (broadcastInDim S8192x1 ![0] bcast_S8192_S8192x1_0 : (⟨S8192, .f32⟩ : BufTy).Contents (Elt F) → (⟨S8192x1, .f32⟩ : BufTy).Contents (Elt F)),
    unary main_v49 main_v50 (broadcastInDim S8192x1024 ![0, 1] bcast_S8192x1_S8192x1024_0_1 : (⟨S8192x1, .f32⟩ : BufTy).Contents (Elt F) → (⟨S8192x1024, .f32⟩ : BufTy).Contents (Elt F)),
    binary main_v50 main_v48 main_v51 (mulf : (⟨S8192x1024, .f32⟩ : BufTy).Contents (Elt F) → (⟨S8192x1024, .f32⟩ : BufTy).Contents (Elt F) → (⟨S8192x1024, .f32⟩ : BufTy).Contents (Elt F)),
    binary main_v26 main_v51 main_v52 (addf : (⟨S8192x1024, .f32⟩ : BufTy).Contents (Elt F) → (⟨S8192x1024, .f32⟩ : BufTy).Contents (Elt F) → (⟨S8192x1024, .f32⟩ : BufTy).Contents (Elt F)) ]

/-- The buffers they write. -/
abbrev part2_W : List (Ref sig .tc) := [main_c_1, main_v27, main_v28, main_v29, main_v30, main_cst_2, main_v31, main_v32, main_v33, main_v34, main_v35, main_v36, main_v37, main_v38, main_v39, main_call1_cst, main_call1_v0, main_v40, main_v41, main_v42, main_v43, main_v44, main_v45, main_v46, main_v47, main_v48, main_v49, main_v50, main_v51, main_v52]

set_option maxRecDepth 8192 in
set_option maxHeartbeats 8000000 in
theorem part2_sub : (part2 : List (HloOp τ sig (Elt F))).Forall fun op => op.bufs ⊆ tcRefs τ sig :=
  ⟨nullary_bufs_sub .., unary_bufs_sub .., binary_bufs_sub .., unary_bufs_sub .., binary_bufs_sub .., nullary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., binary_bufs_sub .., binary_bufs_sub ..⟩

set_option maxRecDepth 8192 in
set_option maxHeartbeats 8000000 in
theorem part2_fresh : ∀ op ∈ (part2 : List (HloOp τ sig (Elt F))), op.fresh = ∅ := by
  intro _ h; (repeat (cases h with | head => rfl | tail _ h => ?_)); exact nomatch h

set_option maxRecDepth 8192 in
set_option maxHeartbeats 8000000 in
theorem part2_writes : (part2 : List (HloOp τ sig (Elt F))).Forall fun op =>
    op.writes ⊆ (part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keep2 (W : Valuation τ sig (Elt F)) (r : Ref sig .tc) (h : r ∉ part2_W) :
    after part2 W (Proc.devRef .tc r) = W (Proc.devRef .tc r) :=
  after_of_writes_sub part2 _ part2_writes h

set_option maxRecDepth 8192 in
set_option maxHeartbeats 8000000 in
/-- The running sum after these operations. -/
theorem sum2 (W : Valuation τ sig (Elt F)) :
    after part2 W (Proc.devRef .tc main_v52) = addf (W (Proc.devRef .tc main_v26)) (expertTerm1 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6))) := by
  unfold expertTerm1
  after_results_simp
  all_goals rfl

end Cert.ReferenceIdeal.HandRun

end
-- ==== Proof.RefWin3.lean ====
/-
  The reference's operations for expert 2, run from any
  contents of the buffers: the running sum's buffer ends at the sum so far plus the expert's term of the arguments, and
  a buffer these operations do not write keeps its contents.
-/
import proofs.«141319_j14516989460789_2_alg».proof.Proof.RefTerms
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The operations, in program order. -/
abbrev part3 : List (HloOp τ sig (Elt F)) :=
  [ nullary main_c_3 (constantI S_ 32 2#32),
    unary main_c_3 main_v53 (broadcastInDim S8192x2 ![] bcast_S_S8192x2 : (⟨S_, .i32⟩ : BufTy).Contents (Elt F) → (⟨S8192x2, .i32⟩ : BufTy).Contents (Elt F)),
    binary main_arg1 main_v53 main_v54 (cmpi .eq : (⟨S8192x2, .i32⟩ : BufTy).Contents (Elt F) → (⟨S8192x2, .i32⟩ : BufTy).Contents (Elt F) → (⟨S8192x2, .i1⟩ : BufTy).Contents (Elt F)),
    unary main_v54 main_v55 (uitofp .f32 : (⟨S8192x2, .i1⟩ : BufTy).Contents (Elt F) → (⟨S8192x2, .f32⟩ : BufTy).Contents (Elt F)),
    binary main_arg2 main_v55 main_v56 (mulf : (⟨S8192x2, .f32⟩ : BufTy).Contents (Elt F) → (⟨S8192x2, .f32⟩ : BufTy).Contents (Elt F) → (⟨S8192x2, .f32⟩ : BufTy).Contents (Elt F)),
    nullary main_cst_4 (constant S_ .f32 0x00000000#32),
    binary main_v56 main_cst_4 main_v57 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_arg3 main_v58 ((extractStridedSlice S1x1024x4096 ![2, 0, 0] · slices_S8x1024x4096_S1x1024x4096_2_0_0) : (⟨S8x1024x4096, .f32⟩ : BufTy).Contents (Elt F) → (⟨S1x1024x4096, .f32⟩ : BufTy).Contents (Elt F)),
    reshape main_v58 main_v59 rfl shapeCasts_S1x1024x4096_S1024x4096,
    binary main_arg0 main_v59 main_v60 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    unary main_arg4 main_v61 ((extractStridedSlice S1x4096 ![2, 0] · slices_S8x4096_S1x4096_2_0) : (⟨S8x4096, .f32⟩ : BufTy).Contents (Elt F) → (⟨S1x4096, .f32⟩ : BufTy).Contents (Elt F)),
    reshape main_v61 main_v62 rfl shapeCasts_S1x4096_S4096,
    unary main_v62 main_v63 (broadcastInDim S1x4096 ![1] bcast_S4096_S1x4096_1 : (⟨S4096, .f32⟩ : BufTy).Contents (Elt F) → (⟨S1x4096, .f32⟩ : BufTy).Contents (Elt F)),
    unary main_v63 main_v64 (broadcastInDim S8192x4096 ![0, 1] bcast_S1x4096_S8192x4096_0_1 : (⟨S1x4096, .f32⟩ : BufTy).Contents (Elt F) → (⟨S8192x4096, .f32⟩ : BufTy).Contents (Elt F)),
    binary main_v60 main_v64 main_v65 (addf : (⟨S8192x4096, .f32⟩ : BufTy).Contents (Elt F) → (⟨S8192x4096, .f32⟩ : BufTy).Contents (Elt F) → (⟨S8192x4096, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8192x4096, .f32⟩) main_call2_v0) (broadcastInDim S8192x4096 ![] bcast_S_S8192x4096),
    TRef.binary (TRef.of (T := ⟨S8192x4096, .f32⟩) main_v65) (TRef.of (T := ⟨S8192x4096, .f32⟩) main_call2_v0) (TRef.of (T := ⟨S8192x4096, .f32⟩) main_v66) maximumf,
    unary main_arg5 main_v67 ((extractStridedSlice S1x4096x1024 ![2, 0, 0] · slices_S8x4096x1024_S1x4096x1024_2_0_0) : (⟨S8x4096x1024, .f32⟩ : BufTy).Contents (Elt F) → (⟨S1x4096x1024, .f32⟩ : BufTy).Contents (Elt F)),
    reshape main_v67 main_v68 rfl shapeCasts_S1x4096x1024_S4096x1024,
    binary main_v66 main_v68 main_v69 ((fun l r => Host.dotGeneral dot_S8192x4096_S4096x1024_S8192x1024_1_0_0_1_n_n none l r) : (⟨S8192x4096, .f32⟩ : BufTy).Contents (Elt F) → (⟨S4096x1024, .f32⟩ : BufTy).Contents (Elt F) → (⟨S8192x1024, .f32⟩ : BufTy).Contents (Elt F)),
    unary main_arg6 main_v70 ((extractStridedSlice S1x1024 ![2, 0] · slices_S8x1024_S1x1024_2_0) : (⟨S8x1024, .f32⟩ : BufTy).Contents (Elt F) → (⟨S1x1024, .f32⟩ : BufTy).Contents (Elt F)),
    reshape main_v70 main_v71 rfl shapeCasts_S1x1024_S1024,
    unary main_v71 main_v72 (broadcastInDim S1x1024 ![1] bcast_S1024_S1x1024_1 : (⟨S1024, .f32⟩ : BufTy).Contents (Elt F) → (⟨S1x1024, .f32⟩ : BufTy).Contents (Elt F)),
    unary main_v72 main_v73 (broadcastInDim S8192x1024 ![0, 1] bcast_S1x1024_S8192x1024_0_1 : (⟨S1x1024, .f32⟩ : BufTy).Contents (Elt F) → (⟨S8192x1024, .f32⟩ : BufTy).Contents (Elt F)),
    binary main_v69 main_v73 main_v74 (addf : (⟨S8192x1024, .f32⟩ : BufTy).Contents (Elt F) → (⟨S8192x1024, .f32⟩ : BufTy).Contents (Elt F) → (⟨S8192x1024, .f32⟩ : BufTy).Contents (Elt F)),
    unary main_v57 main_v75 (broadcastInDim S8192x1 ![0] bcast_S8192_S8192x1_0 : (⟨S8192, .f32⟩ : BufTy).Contents (Elt F) → (⟨S8192x1, .f32⟩ : BufTy).Contents (Elt F)),
    unary main_v75 main_v76 (broadcastInDim S8192x1024 ![0, 1] bcast_S8192x1_S8192x1024_0_1 : (⟨S8192x1, .f32⟩ : BufTy).Contents (Elt F) → (⟨S8192x1024, .f32⟩ : BufTy).Contents (Elt F)),
    binary main_v76 main_v74 main_v77 (mulf : (⟨S8192x1024, .f32⟩ : BufTy).Contents (Elt F) → (⟨S8192x1024, .f32⟩ : BufTy).Contents (Elt F) → (⟨S8192x1024, .f32⟩ : BufTy).Contents (Elt F)),
    binary main_v52 main_v77 main_v78 (addf : (⟨S8192x1024, .f32⟩ : BufTy).Contents (Elt F) → (⟨S8192x1024, .f32⟩ : BufTy).Contents (Elt F) → (⟨S8192x1024, .f32⟩ : BufTy).Contents (Elt F)) ]

/-- The buffers they write. -/
abbrev part3_W : List (Ref sig .tc) := [main_c_3, main_v53, main_v54, main_v55, main_v56, main_cst_4, main_v57, main_v58, main_v59, main_v60, main_v61, main_v62, main_v63, main_v64, main_v65, main_call2_cst, main_call2_v0, main_v66, main_v67, main_v68, main_v69, main_v70, main_v71, main_v72, main_v73, main_v74, main_v75, main_v76, main_v77, main_v78]

set_option maxRecDepth 8192 in
set_option maxHeartbeats 8000000 in
theorem part3_sub : (part3 : List (HloOp τ sig (Elt F))).Forall fun op => op.bufs ⊆ tcRefs τ sig :=
  ⟨nullary_bufs_sub .., unary_bufs_sub .., binary_bufs_sub .., unary_bufs_sub .., binary_bufs_sub .., nullary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., binary_bufs_sub .., binary_bufs_sub ..⟩

set_option maxRecDepth 8192 in
set_option maxHeartbeats 8000000 in
theorem part3_fresh : ∀ op ∈ (part3 : List (HloOp τ sig (Elt F))), op.fresh = ∅ := by
  intro _ h; (repeat (cases h with | head => rfl | tail _ h => ?_)); exact nomatch h

set_option maxRecDepth 8192 in
set_option maxHeartbeats 8000000 in
theorem part3_writes : (part3 : List (HloOp τ sig (Elt F))).Forall fun op =>
    op.writes ⊆ (part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keep3 (W : Valuation τ sig (Elt F)) (r : Ref sig .tc) (h : r ∉ part3_W) :
    after part3 W (Proc.devRef .tc r) = W (Proc.devRef .tc r) :=
  after_of_writes_sub part3 _ part3_writes h

set_option maxRecDepth 8192 in
set_option maxHeartbeats 8000000 in
/-- The running sum after these operations. -/
theorem sum3 (W : Valuation τ sig (Elt F)) :
    after part3 W (Proc.devRef .tc main_v78) = addf (W (Proc.devRef .tc main_v52)) (expertTerm2 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6))) := by
  unfold expertTerm2
  after_results_simp
  all_goals rfl

end Cert.ReferenceIdeal.HandRun

end
-- ==== Proof.RefWin4.lean ====
/-
  The reference's operations for expert 3, run from any
  contents of the buffers: the running sum's buffer ends at the sum so far plus the expert's term of the arguments, and
  a buffer these operations do not write keeps its contents.
-/
import proofs.«141319_j14516989460789_2_alg».proof.Proof.RefTerms
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The operations, in program order. -/
abbrev part4 : List (HloOp τ sig (Elt F)) :=
  [ nullary main_c_5 (constantI S_ 32 3#32),
    unary main_c_5 main_v79 (broadcastInDim S8192x2 ![] bcast_S_S8192x2 : (⟨S_, .i32⟩ : BufTy).Contents (Elt F) → (⟨S8192x2, .i32⟩ : BufTy).Contents (Elt F)),
    binary main_arg1 main_v79 main_v80 (cmpi .eq : (⟨S8192x2, .i32⟩ : BufTy).Contents (Elt F) → (⟨S8192x2, .i32⟩ : BufTy).Contents (Elt F) → (⟨S8192x2, .i1⟩ : BufTy).Contents (Elt F)),
    unary main_v80 main_v81 (uitofp .f32 : (⟨S8192x2, .i1⟩ : BufTy).Contents (Elt F) → (⟨S8192x2, .f32⟩ : BufTy).Contents (Elt F)),
    binary main_arg2 main_v81 main_v82 (mulf : (⟨S8192x2, .f32⟩ : BufTy).Contents (Elt F) → (⟨S8192x2, .f32⟩ : BufTy).Contents (Elt F) → (⟨S8192x2, .f32⟩ : BufTy).Contents (Elt F)),
    nullary main_cst_6 (constant S_ .f32 0x00000000#32),
    binary main_v82 main_cst_6 main_v83 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_arg3 main_v84 ((extractStridedSlice S1x1024x4096 ![3, 0, 0] · slices_S8x1024x4096_S1x1024x4096_3_0_0) : (⟨S8x1024x4096, .f32⟩ : BufTy).Contents (Elt F) → (⟨S1x1024x4096, .f32⟩ : BufTy).Contents (Elt F)),
    reshape main_v84 main_v85 rfl shapeCasts_S1x1024x4096_S1024x4096,
    binary main_arg0 main_v85 main_v86 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    unary main_arg4 main_v87 ((extractStridedSlice S1x4096 ![3, 0] · slices_S8x4096_S1x4096_3_0) : (⟨S8x4096, .f32⟩ : BufTy).Contents (Elt F) → (⟨S1x4096, .f32⟩ : BufTy).Contents (Elt F)),
    reshape main_v87 main_v88 rfl shapeCasts_S1x4096_S4096,
    unary main_v88 main_v89 (broadcastInDim S1x4096 ![1] bcast_S4096_S1x4096_1 : (⟨S4096, .f32⟩ : BufTy).Contents (Elt F) → (⟨S1x4096, .f32⟩ : BufTy).Contents (Elt F)),
    unary main_v89 main_v90 (broadcastInDim S8192x4096 ![0, 1] bcast_S1x4096_S8192x4096_0_1 : (⟨S1x4096, .f32⟩ : BufTy).Contents (Elt F) → (⟨S8192x4096, .f32⟩ : BufTy).Contents (Elt F)),
    binary main_v86 main_v90 main_v91 (addf : (⟨S8192x4096, .f32⟩ : BufTy).Contents (Elt F) → (⟨S8192x4096, .f32⟩ : BufTy).Contents (Elt F) → (⟨S8192x4096, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8192x4096, .f32⟩) main_call3_v0) (broadcastInDim S8192x4096 ![] bcast_S_S8192x4096),
    TRef.binary (TRef.of (T := ⟨S8192x4096, .f32⟩) main_v91) (TRef.of (T := ⟨S8192x4096, .f32⟩) main_call3_v0) (TRef.of (T := ⟨S8192x4096, .f32⟩) main_v92) maximumf,
    unary main_arg5 main_v93 ((extractStridedSlice S1x4096x1024 ![3, 0, 0] · slices_S8x4096x1024_S1x4096x1024_3_0_0) : (⟨S8x4096x1024, .f32⟩ : BufTy).Contents (Elt F) → (⟨S1x4096x1024, .f32⟩ : BufTy).Contents (Elt F)),
    reshape main_v93 main_v94 rfl shapeCasts_S1x4096x1024_S4096x1024,
    binary main_v92 main_v94 main_v95 ((fun l r => Host.dotGeneral dot_S8192x4096_S4096x1024_S8192x1024_1_0_0_1_n_n none l r) : (⟨S8192x4096, .f32⟩ : BufTy).Contents (Elt F) → (⟨S4096x1024, .f32⟩ : BufTy).Contents (Elt F) → (⟨S8192x1024, .f32⟩ : BufTy).Contents (Elt F)),
    unary main_arg6 main_v96 ((extractStridedSlice S1x1024 ![3, 0] · slices_S8x1024_S1x1024_3_0) : (⟨S8x1024, .f32⟩ : BufTy).Contents (Elt F) → (⟨S1x1024, .f32⟩ : BufTy).Contents (Elt F)),
    reshape main_v96 main_v97 rfl shapeCasts_S1x1024_S1024,
    unary main_v97 main_v98 (broadcastInDim S1x1024 ![1] bcast_S1024_S1x1024_1 : (⟨S1024, .f32⟩ : BufTy).Contents (Elt F) → (⟨S1x1024, .f32⟩ : BufTy).Contents (Elt F)),
    unary main_v98 main_v99 (broadcastInDim S8192x1024 ![0, 1] bcast_S1x1024_S8192x1024_0_1 : (⟨S1x1024, .f32⟩ : BufTy).Contents (Elt F) → (⟨S8192x1024, .f32⟩ : BufTy).Contents (Elt F)),
    binary main_v95 main_v99 main_v100 (addf : (⟨S8192x1024, .f32⟩ : BufTy).Contents (Elt F) → (⟨S8192x1024, .f32⟩ : BufTy).Contents (Elt F) → (⟨S8192x1024, .f32⟩ : BufTy).Contents (Elt F)),
    unary main_v83 main_v101 (broadcastInDim S8192x1 ![0] bcast_S8192_S8192x1_0 : (⟨S8192, .f32⟩ : BufTy).Contents (Elt F) → (⟨S8192x1, .f32⟩ : BufTy).Contents (Elt F)),
    unary main_v101 main_v102 (broadcastInDim S8192x1024 ![0, 1] bcast_S8192x1_S8192x1024_0_1 : (⟨S8192x1, .f32⟩ : BufTy).Contents (Elt F) → (⟨S8192x1024, .f32⟩ : BufTy).Contents (Elt F)),
    binary main_v102 main_v100 main_v103 (mulf : (⟨S8192x1024, .f32⟩ : BufTy).Contents (Elt F) → (⟨S8192x1024, .f32⟩ : BufTy).Contents (Elt F) → (⟨S8192x1024, .f32⟩ : BufTy).Contents (Elt F)),
    binary main_v78 main_v103 main_v104 (addf : (⟨S8192x1024, .f32⟩ : BufTy).Contents (Elt F) → (⟨S8192x1024, .f32⟩ : BufTy).Contents (Elt F) → (⟨S8192x1024, .f32⟩ : BufTy).Contents (Elt F)) ]

/-- The buffers they write. -/
abbrev part4_W : List (Ref sig .tc) := [main_c_5, main_v79, main_v80, main_v81, main_v82, main_cst_6, main_v83, main_v84, main_v85, main_v86, main_v87, main_v88, main_v89, main_v90, main_v91, main_call3_cst, main_call3_v0, main_v92, main_v93, main_v94, main_v95, main_v96, main_v97, main_v98, main_v99, main_v100, main_v101, main_v102, main_v103, main_v104]

set_option maxRecDepth 8192 in
set_option maxHeartbeats 8000000 in
theorem part4_sub : (part4 : List (HloOp τ sig (Elt F))).Forall fun op => op.bufs ⊆ tcRefs τ sig :=
  ⟨nullary_bufs_sub .., unary_bufs_sub .., binary_bufs_sub .., unary_bufs_sub .., binary_bufs_sub .., nullary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., binary_bufs_sub .., binary_bufs_sub ..⟩

set_option maxRecDepth 8192 in
set_option maxHeartbeats 8000000 in
theorem part4_fresh : ∀ op ∈ (part4 : List (HloOp τ sig (Elt F))), op.fresh = ∅ := by
  intro _ h; (repeat (cases h with | head => rfl | tail _ h => ?_)); exact nomatch h

set_option maxRecDepth 8192 in
set_option maxHeartbeats 8000000 in
theorem part4_writes : (part4 : List (HloOp τ sig (Elt F))).Forall fun op =>
    op.writes ⊆ (part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keep4 (W : Valuation τ sig (Elt F)) (r : Ref sig .tc) (h : r ∉ part4_W) :
    after part4 W (Proc.devRef .tc r) = W (Proc.devRef .tc r) :=
  after_of_writes_sub part4 _ part4_writes h

set_option maxRecDepth 8192 in
set_option maxHeartbeats 8000000 in
/-- The running sum after these operations. -/
theorem sum4 (W : Valuation τ sig (Elt F)) :
    after part4 W (Proc.devRef .tc main_v104) = addf (W (Proc.devRef .tc main_v78)) (expertTerm3 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6))) := by
  unfold expertTerm3
  after_results_simp
  all_goals rfl

end Cert.ReferenceIdeal.HandRun

end
-- ==== Proof.RefWin5.lean ====
/-
  The reference's operations for expert 4, run from any
  contents of the buffers: the running sum's buffer ends at the sum so far plus the expert's term of the arguments, and
  a buffer these operations do not write keeps its contents.
-/
import proofs.«141319_j14516989460789_2_alg».proof.Proof.RefTerms
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The operations, in program order. -/
abbrev part5 : List (HloOp τ sig (Elt F)) :=
  [ nullary main_c_7 (constantI S_ 32 4#32),
    unary main_c_7 main_v105 (broadcastInDim S8192x2 ![] bcast_S_S8192x2 : (⟨S_, .i32⟩ : BufTy).Contents (Elt F) → (⟨S8192x2, .i32⟩ : BufTy).Contents (Elt F)),
    binary main_arg1 main_v105 main_v106 (cmpi .eq : (⟨S8192x2, .i32⟩ : BufTy).Contents (Elt F) → (⟨S8192x2, .i32⟩ : BufTy).Contents (Elt F) → (⟨S8192x2, .i1⟩ : BufTy).Contents (Elt F)),
    unary main_v106 main_v107 (uitofp .f32 : (⟨S8192x2, .i1⟩ : BufTy).Contents (Elt F) → (⟨S8192x2, .f32⟩ : BufTy).Contents (Elt F)),
    binary main_arg2 main_v107 main_v108 (mulf : (⟨S8192x2, .f32⟩ : BufTy).Contents (Elt F) → (⟨S8192x2, .f32⟩ : BufTy).Contents (Elt F) → (⟨S8192x2, .f32⟩ : BufTy).Contents (Elt F)),
    nullary main_cst_8 (constant S_ .f32 0x00000000#32),
    binary main_v108 main_cst_8 main_v109 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_arg3 main_v110 ((extractStridedSlice S1x1024x4096 ![4, 0, 0] · slices_S8x1024x4096_S1x1024x4096_4_0_0) : (⟨S8x1024x4096, .f32⟩ : BufTy).Contents (Elt F) → (⟨S1x1024x4096, .f32⟩ : BufTy).Contents (Elt F)),
    reshape main_v110 main_v111 rfl shapeCasts_S1x1024x4096_S1024x4096,
    binary main_arg0 main_v111 main_v112 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    unary main_arg4 main_v113 ((extractStridedSlice S1x4096 ![4, 0] · slices_S8x4096_S1x4096_4_0) : (⟨S8x4096, .f32⟩ : BufTy).Contents (Elt F) → (⟨S1x4096, .f32⟩ : BufTy).Contents (Elt F)),
    reshape main_v113 main_v114 rfl shapeCasts_S1x4096_S4096,
    unary main_v114 main_v115 (broadcastInDim S1x4096 ![1] bcast_S4096_S1x4096_1 : (⟨S4096, .f32⟩ : BufTy).Contents (Elt F) → (⟨S1x4096, .f32⟩ : BufTy).Contents (Elt F)),
    unary main_v115 main_v116 (broadcastInDim S8192x4096 ![0, 1] bcast_S1x4096_S8192x4096_0_1 : (⟨S1x4096, .f32⟩ : BufTy).Contents (Elt F) → (⟨S8192x4096, .f32⟩ : BufTy).Contents (Elt F)),
    binary main_v112 main_v116 main_v117 (addf : (⟨S8192x4096, .f32⟩ : BufTy).Contents (Elt F) → (⟨S8192x4096, .f32⟩ : BufTy).Contents (Elt F) → (⟨S8192x4096, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S8192x4096, .f32⟩) main_call4_v0) (broadcastInDim S8192x4096 ![] bcast_S_S8192x4096),
    TRef.binary (TRef.of (T := ⟨S8192x4096, .f32⟩) main_v117) (TRef.of (T := ⟨S8192x4096, .f32⟩) main_call4_v0) (TRef.of (T := ⟨S8192x4096, .f32⟩) main_v118) maximumf,
    unary main_arg5 main_v119 ((extractStridedSlice S1x4096x1024 ![4, 0, 0] · slices_S8x4096x1024_S1x4096x1024_4_0_0) : (⟨S8x4096x1024, .f32⟩ : BufTy).Contents (Elt F) → (⟨S1x4096x1024, .f32⟩ : BufTy).Contents (Elt F)),
    reshape main_v119 main_v120 rfl shapeCasts_S1x4096x1024_S4096x1024,
    binary main_v118 main_v120 main_v121 ((fun l r => Host.dotGeneral dot_S8192x4096_S4096x1024_S8192x1024_1_0_0_1_n_n none l r) : (⟨S8192x4096, .f32⟩ : BufTy).Contents (Elt F) → (⟨S4096x1024, .f32⟩ : BufTy).Contents (Elt F) → (⟨S8192x1024, .f32⟩ : BufTy).Contents (Elt F)),
    unary main_arg6 main_v122 ((extractStridedSlice S1x1024 ![4, 0] · slices_S8x1024_S1x1024_4_0) : (⟨S8x1024, .f32⟩ : BufTy).Contents (Elt F) → (⟨S1x1024, .f32⟩ : BufTy).Contents (Elt F)),
    reshape main_v122 main_v123 rfl shapeCasts_S1x1024_S1024,
    unary main_v123 main_v124 (broadcastInDim S1x1024 ![1] bcast_S1024_S1x1024_1 : (⟨S1024, .f32⟩ : BufTy).Contents (Elt F) → (⟨S1x1024, .f32⟩ : BufTy).Contents (Elt F)),
    unary main_v124 main_v125 (broadcastInDim S8192x1024 ![0, 1] bcast_S1x1024_S8192x1024_0_1 : (⟨S1x1024, .f32⟩ : BufTy).Contents (Elt F) → (⟨S8192x1024, .f32⟩ : BufTy).Contents (Elt F)),
    binary main_v121 main_v125 main_v126 (addf : (⟨S8192x1024, .f32⟩ : BufTy).Contents (Elt F) → (⟨S8192x1024, .f32⟩ : BufTy).Contents (Elt F) → (⟨S8192x1024, .f32⟩ : BufTy).Contents (Elt F)),
    unary main_v109 main_v127 (broadcastInDim S8192x1 ![0] bcast_S8192_S8192x1_0 : (⟨S8192, .f32⟩ : BufTy).Contents (Elt F) → (⟨S8192x1, .f32⟩ : BufTy).Contents (Elt F)),
    unary main_v127 main_v128 (broadcastInDim S8192x1024 ![0, 1] bcast_S8192x1_S8192x1024_0_1 : (⟨S8192x1, .f32⟩ : BufTy).Contents (Elt F) → (⟨S8192x1024, .f32⟩ : BufTy).Contents (Elt F)),
    binary main_v128 main_v126 main_v129 (mulf : (⟨S8192x1024, .f32⟩ : BufTy).Contents (Elt F) → (⟨S8192x1024, .f32⟩ : BufTy).Contents (Elt F) → (⟨S8192x1024, .f32⟩ : BufTy).Contents (Elt F)),
    binary main_v104 main_v129 main_v130 (addf : (⟨S8192x1024, .f32⟩ : BufTy).Contents (Elt F) → (⟨S8192x1024, .f32⟩ : BufTy).Contents (Elt F) → (⟨S8192x1024, .f32⟩ : BufTy).Contents (Elt F)) ]

/-- The buffers they write. -/
abbrev part5_W : List (Ref sig .tc) := [main_c_7, main_v105, main_v106, main_v107, main_v108, main_cst_8, main_v109, main_v110, main_v111, main_v112, main_v113, main_v114, main_v115, main_v116, main_v117, main_call4_cst, main_call4_v0, main_v118, main_v119, main_v120, main_v121, main_v122, main_v123, main_v124, main_v125, main_v126, main_v127, main_v128, main_v129, main_v130]

set_option maxRecDepth 8192 in
set_option maxHeartbeats 8000000 in
theorem part5_sub : (part5 : List (HloOp τ sig (Elt F))).Forall fun op => op.bufs ⊆ tcRefs τ sig :=
  ⟨nullary_bufs_sub .., unary_bufs_sub .., binary_bufs_sub .., unary_bufs_sub .., binary_bufs_sub .., nullary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., binary_bufs_sub .., binary_bufs_sub ..⟩

set_option maxRecDepth 8192 in
set_option maxHeartbeats 8000000 in
theorem part5_fresh : ∀ op ∈ (part5 : List (HloOp τ sig (Elt F))), op.fresh = ∅ := by
  intro _ h; (repeat (cases h with | head => rfl | tail _ h => ?_)); exact nomatch h

set_option maxRecDepth 8192 in
set_option maxHeartbeats 8000000 in
theorem part5_writes : (part5 : List (HloOp τ sig (Elt F))).Forall fun op =>
    op.writes ⊆ (part5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keep5 (W : Valuation τ sig (Elt F)) (r : Ref sig .tc) (h : r ∉ part5_W) :
    after part5 W (Proc.devRef .tc r) = W (Proc.devRef .tc r) :=
  after_of_writes_sub part5 _ part5_writes h

set_option maxRecDepth 8192 in
set_option maxHeartbeats 8000000 in
/-- The running sum after these operations. -/
theorem sum5 (W : Valuation τ sig (Elt F)) :
    after part5 W (Proc.devRef .tc main_v130) = addf (W (Proc.devRef .tc main_v104)) (expertTerm4 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6))) := by
  unfold expertTerm4
  after_results_simp
  all_goals rfl

end Cert.ReferenceIdeal.HandRun

end
-- ==== Proof.RefWin6.lean ====
/-
  The reference's operations for expert 5, run from any
  contents of the buffers: the running sum's buffer ends at the sum so far plus the expert's term of the arguments, and
  a buffer these operations do not write keeps its contents.
-/
import proofs.«141319_j14516989460789_2_alg».proof.Proof.RefTerms
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The operations, in program order. -/
abbrev part6 : List (HloOp τ sig (Elt F)) :=
  [ nullary main_c_9 (constantI S_ 32 5#32),
    unary main_c_9 main_v131 (broadcastInDim S8192x2 ![] bcast_S_S8192x2 : (⟨S_, .i32⟩ : BufTy).Contents (Elt F) → (⟨S8192x2, .i32⟩ : BufTy).Contents (Elt F)),
    binary main_arg1 main_v131 main_v132 (cmpi .eq : (⟨S8192x2, .i32⟩ : BufTy).Contents (Elt F) → (⟨S8192x2, .i32⟩ : BufTy).Contents (Elt F) → (⟨S8192x2, .i1⟩ : BufTy).Contents (Elt F)),
    unary main_v132 main_v133 (uitofp .f32 : (⟨S8192x2, .i1⟩ : BufTy).Contents (Elt F) → (⟨S8192x2, .f32⟩ : BufTy).Contents (Elt F)),
    binary main_arg2 main_v133 main_v134 (mulf : (⟨S8192x2, .f32⟩ : BufTy).Contents (Elt F) → (⟨S8192x2, .f32⟩ : BufTy).Contents (Elt F) → (⟨S8192x2, .f32⟩ : BufTy).Contents (Elt F)),
    nullary main_cst_10 (constant S_ .f32 0x00000000#32),
    binary main_v134 main_cst_10 main_v135 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_arg3 main_v136 ((extractStridedSlice S1x1024x4096 ![5, 0, 0] · slices_S8x1024x4096_S1x1024x4096_5_0_0) : (⟨S8x1024x4096, .f32⟩ : BufTy).Contents (Elt F) → (⟨S1x1024x4096, .f32⟩ : BufTy).Contents (Elt F)),
    reshape main_v136 main_v137 rfl shapeCasts_S1x1024x4096_S1024x4096,
    binary main_arg0 main_v137 main_v138 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    unary main_arg4 main_v139 ((extractStridedSlice S1x4096 ![5, 0] · slices_S8x4096_S1x4096_5_0) : (⟨S8x4096, .f32⟩ : BufTy).Contents (Elt F) → (⟨S1x4096, .f32⟩ : BufTy).Contents (Elt F)),
    reshape main_v139 main_v140 rfl shapeCasts_S1x4096_S4096,
    unary main_v140 main_v141 (broadcastInDim S1x4096 ![1] bcast_S4096_S1x4096_1 : (⟨S4096, .f32⟩ : BufTy).Contents (Elt F) → (⟨S1x4096, .f32⟩ : BufTy).Contents (Elt F)),
    unary main_v141 main_v142 (broadcastInDim S8192x4096 ![0, 1] bcast_S1x4096_S8192x4096_0_1 : (⟨S1x4096, .f32⟩ : BufTy).Contents (Elt F) → (⟨S8192x4096, .f32⟩ : BufTy).Contents (Elt F)),
    binary main_v138 main_v142 main_v143 (addf : (⟨S8192x4096, .f32⟩ : BufTy).Contents (Elt F) → (⟨S8192x4096, .f32⟩ : BufTy).Contents (Elt F) → (⟨S8192x4096, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S8192x4096, .f32⟩) main_call5_v0) (broadcastInDim S8192x4096 ![] bcast_S_S8192x4096),
    TRef.binary (TRef.of (T := ⟨S8192x4096, .f32⟩) main_v143) (TRef.of (T := ⟨S8192x4096, .f32⟩) main_call5_v0) (TRef.of (T := ⟨S8192x4096, .f32⟩) main_v144) maximumf,
    unary main_arg5 main_v145 ((extractStridedSlice S1x4096x1024 ![5, 0, 0] · slices_S8x4096x1024_S1x4096x1024_5_0_0) : (⟨S8x4096x1024, .f32⟩ : BufTy).Contents (Elt F) → (⟨S1x4096x1024, .f32⟩ : BufTy).Contents (Elt F)),
    reshape main_v145 main_v146 rfl shapeCasts_S1x4096x1024_S4096x1024,
    binary main_v144 main_v146 main_v147 ((fun l r => Host.dotGeneral dot_S8192x4096_S4096x1024_S8192x1024_1_0_0_1_n_n none l r) : (⟨S8192x4096, .f32⟩ : BufTy).Contents (Elt F) → (⟨S4096x1024, .f32⟩ : BufTy).Contents (Elt F) → (⟨S8192x1024, .f32⟩ : BufTy).Contents (Elt F)),
    unary main_arg6 main_v148 ((extractStridedSlice S1x1024 ![5, 0] · slices_S8x1024_S1x1024_5_0) : (⟨S8x1024, .f32⟩ : BufTy).Contents (Elt F) → (⟨S1x1024, .f32⟩ : BufTy).Contents (Elt F)),
    reshape main_v148 main_v149 rfl shapeCasts_S1x1024_S1024,
    unary main_v149 main_v150 (broadcastInDim S1x1024 ![1] bcast_S1024_S1x1024_1 : (⟨S1024, .f32⟩ : BufTy).Contents (Elt F) → (⟨S1x1024, .f32⟩ : BufTy).Contents (Elt F)),
    unary main_v150 main_v151 (broadcastInDim S8192x1024 ![0, 1] bcast_S1x1024_S8192x1024_0_1 : (⟨S1x1024, .f32⟩ : BufTy).Contents (Elt F) → (⟨S8192x1024, .f32⟩ : BufTy).Contents (Elt F)),
    binary main_v147 main_v151 main_v152 (addf : (⟨S8192x1024, .f32⟩ : BufTy).Contents (Elt F) → (⟨S8192x1024, .f32⟩ : BufTy).Contents (Elt F) → (⟨S8192x1024, .f32⟩ : BufTy).Contents (Elt F)),
    unary main_v135 main_v153 (broadcastInDim S8192x1 ![0] bcast_S8192_S8192x1_0 : (⟨S8192, .f32⟩ : BufTy).Contents (Elt F) → (⟨S8192x1, .f32⟩ : BufTy).Contents (Elt F)),
    unary main_v153 main_v154 (broadcastInDim S8192x1024 ![0, 1] bcast_S8192x1_S8192x1024_0_1 : (⟨S8192x1, .f32⟩ : BufTy).Contents (Elt F) → (⟨S8192x1024, .f32⟩ : BufTy).Contents (Elt F)),
    binary main_v154 main_v152 main_v155 (mulf : (⟨S8192x1024, .f32⟩ : BufTy).Contents (Elt F) → (⟨S8192x1024, .f32⟩ : BufTy).Contents (Elt F) → (⟨S8192x1024, .f32⟩ : BufTy).Contents (Elt F)),
    binary main_v130 main_v155 main_v156 (addf : (⟨S8192x1024, .f32⟩ : BufTy).Contents (Elt F) → (⟨S8192x1024, .f32⟩ : BufTy).Contents (Elt F) → (⟨S8192x1024, .f32⟩ : BufTy).Contents (Elt F)) ]

/-- The buffers they write. -/
abbrev part6_W : List (Ref sig .tc) := [main_c_9, main_v131, main_v132, main_v133, main_v134, main_cst_10, main_v135, main_v136, main_v137, main_v138, main_v139, main_v140, main_v141, main_v142, main_v143, main_call5_cst, main_call5_v0, main_v144, main_v145, main_v146, main_v147, main_v148, main_v149, main_v150, main_v151, main_v152, main_v153, main_v154, main_v155, main_v156]

set_option maxRecDepth 8192 in
set_option maxHeartbeats 8000000 in
theorem part6_sub : (part6 : List (HloOp τ sig (Elt F))).Forall fun op => op.bufs ⊆ tcRefs τ sig :=
  ⟨nullary_bufs_sub .., unary_bufs_sub .., binary_bufs_sub .., unary_bufs_sub .., binary_bufs_sub .., nullary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., binary_bufs_sub .., binary_bufs_sub ..⟩

set_option maxRecDepth 8192 in
set_option maxHeartbeats 8000000 in
theorem part6_fresh : ∀ op ∈ (part6 : List (HloOp τ sig (Elt F))), op.fresh = ∅ := by
  intro _ h; (repeat (cases h with | head => rfl | tail _ h => ?_)); exact nomatch h

set_option maxRecDepth 8192 in
set_option maxHeartbeats 8000000 in
theorem part6_writes : (part6 : List (HloOp τ sig (Elt F))).Forall fun op =>
    op.writes ⊆ (part6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keep6 (W : Valuation τ sig (Elt F)) (r : Ref sig .tc) (h : r ∉ part6_W) :
    after part6 W (Proc.devRef .tc r) = W (Proc.devRef .tc r) :=
  after_of_writes_sub part6 _ part6_writes h

set_option maxRecDepth 8192 in
set_option maxHeartbeats 8000000 in
/-- The running sum after these operations. -/
theorem sum6 (W : Valuation τ sig (Elt F)) :
    after part6 W (Proc.devRef .tc main_v156) = addf (W (Proc.devRef .tc main_v130)) (expertTerm5 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6))) := by
  unfold expertTerm5
  after_results_simp
  all_goals rfl

end Cert.ReferenceIdeal.HandRun

end
-- ==== Proof.RefWin7.lean ====
/-
  The reference's operations for expert 6, run from any
  contents of the buffers: the running sum's buffer ends at the sum so far plus the expert's term of the arguments, and
  a buffer these operations do not write keeps its contents.
-/
import proofs.«141319_j14516989460789_2_alg».proof.Proof.RefTerms
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The operations, in program order. -/
abbrev part7 : List (HloOp τ sig (Elt F)) :=
  [ nullary main_c_11 (constantI S_ 32 6#32),
    unary main_c_11 main_v157 (broadcastInDim S8192x2 ![] bcast_S_S8192x2 : (⟨S_, .i32⟩ : BufTy).Contents (Elt F) → (⟨S8192x2, .i32⟩ : BufTy).Contents (Elt F)),
    binary main_arg1 main_v157 main_v158 (cmpi .eq : (⟨S8192x2, .i32⟩ : BufTy).Contents (Elt F) → (⟨S8192x2, .i32⟩ : BufTy).Contents (Elt F) → (⟨S8192x2, .i1⟩ : BufTy).Contents (Elt F)),
    unary main_v158 main_v159 (uitofp .f32 : (⟨S8192x2, .i1⟩ : BufTy).Contents (Elt F) → (⟨S8192x2, .f32⟩ : BufTy).Contents (Elt F)),
    binary main_arg2 main_v159 main_v160 (mulf : (⟨S8192x2, .f32⟩ : BufTy).Contents (Elt F) → (⟨S8192x2, .f32⟩ : BufTy).Contents (Elt F) → (⟨S8192x2, .f32⟩ : BufTy).Contents (Elt F)),
    nullary main_cst_12 (constant S_ .f32 0x00000000#32),
    binary main_v160 main_cst_12 main_v161 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_arg3 main_v162 ((extractStridedSlice S1x1024x4096 ![6, 0, 0] · slices_S8x1024x4096_S1x1024x4096_6_0_0) : (⟨S8x1024x4096, .f32⟩ : BufTy).Contents (Elt F) → (⟨S1x1024x4096, .f32⟩ : BufTy).Contents (Elt F)),
    reshape main_v162 main_v163 rfl shapeCasts_S1x1024x4096_S1024x4096,
    binary main_arg0 main_v163 main_v164 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    unary main_arg4 main_v165 ((extractStridedSlice S1x4096 ![6, 0] · slices_S8x4096_S1x4096_6_0) : (⟨S8x4096, .f32⟩ : BufTy).Contents (Elt F) → (⟨S1x4096, .f32⟩ : BufTy).Contents (Elt F)),
    reshape main_v165 main_v166 rfl shapeCasts_S1x4096_S4096,
    unary main_v166 main_v167 (broadcastInDim S1x4096 ![1] bcast_S4096_S1x4096_1 : (⟨S4096, .f32⟩ : BufTy).Contents (Elt F) → (⟨S1x4096, .f32⟩ : BufTy).Contents (Elt F)),
    unary main_v167 main_v168 (broadcastInDim S8192x4096 ![0, 1] bcast_S1x4096_S8192x4096_0_1 : (⟨S1x4096, .f32⟩ : BufTy).Contents (Elt F) → (⟨S8192x4096, .f32⟩ : BufTy).Contents (Elt F)),
    binary main_v164 main_v168 main_v169 (addf : (⟨S8192x4096, .f32⟩ : BufTy).Contents (Elt F) → (⟨S8192x4096, .f32⟩ : BufTy).Contents (Elt F) → (⟨S8192x4096, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S8192x4096, .f32⟩) main_call6_v0) (broadcastInDim S8192x4096 ![] bcast_S_S8192x4096),
    TRef.binary (TRef.of (T := ⟨S8192x4096, .f32⟩) main_v169) (TRef.of (T := ⟨S8192x4096, .f32⟩) main_call6_v0) (TRef.of (T := ⟨S8192x4096, .f32⟩) main_v170) maximumf,
    unary main_arg5 main_v171 ((extractStridedSlice S1x4096x1024 ![6, 0, 0] · slices_S8x4096x1024_S1x4096x1024_6_0_0) : (⟨S8x4096x1024, .f32⟩ : BufTy).Contents (Elt F) → (⟨S1x4096x1024, .f32⟩ : BufTy).Contents (Elt F)),
    reshape main_v171 main_v172 rfl shapeCasts_S1x4096x1024_S4096x1024,
    binary main_v170 main_v172 main_v173 ((fun l r => Host.dotGeneral dot_S8192x4096_S4096x1024_S8192x1024_1_0_0_1_n_n none l r) : (⟨S8192x4096, .f32⟩ : BufTy).Contents (Elt F) → (⟨S4096x1024, .f32⟩ : BufTy).Contents (Elt F) → (⟨S8192x1024, .f32⟩ : BufTy).Contents (Elt F)),
    unary main_arg6 main_v174 ((extractStridedSlice S1x1024 ![6, 0] · slices_S8x1024_S1x1024_6_0) : (⟨S8x1024, .f32⟩ : BufTy).Contents (Elt F) → (⟨S1x1024, .f32⟩ : BufTy).Contents (Elt F)),
    reshape main_v174 main_v175 rfl shapeCasts_S1x1024_S1024,
    unary main_v175 main_v176 (broadcastInDim S1x1024 ![1] bcast_S1024_S1x1024_1 : (⟨S1024, .f32⟩ : BufTy).Contents (Elt F) → (⟨S1x1024, .f32⟩ : BufTy).Contents (Elt F)),
    unary main_v176 main_v177 (broadcastInDim S8192x1024 ![0, 1] bcast_S1x1024_S8192x1024_0_1 : (⟨S1x1024, .f32⟩ : BufTy).Contents (Elt F) → (⟨S8192x1024, .f32⟩ : BufTy).Contents (Elt F)),
    binary main_v173 main_v177 main_v178 (addf : (⟨S8192x1024, .f32⟩ : BufTy).Contents (Elt F) → (⟨S8192x1024, .f32⟩ : BufTy).Contents (Elt F) → (⟨S8192x1024, .f32⟩ : BufTy).Contents (Elt F)),
    unary main_v161 main_v179 (broadcastInDim S8192x1 ![0] bcast_S8192_S8192x1_0 : (⟨S8192, .f32⟩ : BufTy).Contents (Elt F) → (⟨S8192x1, .f32⟩ : BufTy).Contents (Elt F)),
    unary main_v179 main_v180 (broadcastInDim S8192x1024 ![0, 1] bcast_S8192x1_S8192x1024_0_1 : (⟨S8192x1, .f32⟩ : BufTy).Contents (Elt F) → (⟨S8192x1024, .f32⟩ : BufTy).Contents (Elt F)),
    binary main_v180 main_v178 main_v181 (mulf : (⟨S8192x1024, .f32⟩ : BufTy).Contents (Elt F) → (⟨S8192x1024, .f32⟩ : BufTy).Contents (Elt F) → (⟨S8192x1024, .f32⟩ : BufTy).Contents (Elt F)),
    binary main_v156 main_v181 main_v182 (addf : (⟨S8192x1024, .f32⟩ : BufTy).Contents (Elt F) → (⟨S8192x1024, .f32⟩ : BufTy).Contents (Elt F) → (⟨S8192x1024, .f32⟩ : BufTy).Contents (Elt F)) ]

/-- The buffers they write. -/
abbrev part7_W : List (Ref sig .tc) := [main_c_11, main_v157, main_v158, main_v159, main_v160, main_cst_12, main_v161, main_v162, main_v163, main_v164, main_v165, main_v166, main_v167, main_v168, main_v169, main_call6_cst, main_call6_v0, main_v170, main_v171, main_v172, main_v173, main_v174, main_v175, main_v176, main_v177, main_v178, main_v179, main_v180, main_v181, main_v182]

set_option maxRecDepth 8192 in
set_option maxHeartbeats 8000000 in
theorem part7_sub : (part7 : List (HloOp τ sig (Elt F))).Forall fun op => op.bufs ⊆ tcRefs τ sig :=
  ⟨nullary_bufs_sub .., unary_bufs_sub .., binary_bufs_sub .., unary_bufs_sub .., binary_bufs_sub .., nullary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., binary_bufs_sub .., binary_bufs_sub ..⟩

set_option maxRecDepth 8192 in
set_option maxHeartbeats 8000000 in
theorem part7_fresh : ∀ op ∈ (part7 : List (HloOp τ sig (Elt F))), op.fresh = ∅ := by
  intro _ h; (repeat (cases h with | head => rfl | tail _ h => ?_)); exact nomatch h

set_option maxRecDepth 8192 in
set_option maxHeartbeats 8000000 in
theorem part7_writes : (part7 : List (HloOp τ sig (Elt F))).Forall fun op =>
    op.writes ⊆ (part7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keep7 (W : Valuation τ sig (Elt F)) (r : Ref sig .tc) (h : r ∉ part7_W) :
    after part7 W (Proc.devRef .tc r) = W (Proc.devRef .tc r) :=
  after_of_writes_sub part7 _ part7_writes h

set_option maxRecDepth 8192 in
set_option maxHeartbeats 8000000 in
/-- The running sum after these operations. -/
theorem sum7 (W : Valuation τ sig (Elt F)) :
    after part7 W (Proc.devRef .tc main_v182) = addf (W (Proc.devRef .tc main_v156)) (expertTerm6 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6))) := by
  unfold expertTerm6
  after_results_simp
  all_goals rfl

end Cert.ReferenceIdeal.HandRun

end
-- ==== Proof.RefWin8.lean ====
/-
  The reference's operations for expert 7, run from any
  contents of the buffers: the running sum's buffer ends at the sum so far plus the expert's term of the arguments, and
  a buffer these operations do not write keeps its contents.
-/
import proofs.«141319_j14516989460789_2_alg».proof.Proof.RefTerms
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The operations, in program order. -/
abbrev part8 : List (HloOp τ sig (Elt F)) :=
  [ nullary main_c_13 (constantI S_ 32 7#32),
    unary main_c_13 main_v183 (broadcastInDim S8192x2 ![] bcast_S_S8192x2 : (⟨S_, .i32⟩ : BufTy).Contents (Elt F) → (⟨S8192x2, .i32⟩ : BufTy).Contents (Elt F)),
    binary main_arg1 main_v183 main_v184 (cmpi .eq : (⟨S8192x2, .i32⟩ : BufTy).Contents (Elt F) → (⟨S8192x2, .i32⟩ : BufTy).Contents (Elt F) → (⟨S8192x2, .i1⟩ : BufTy).Contents (Elt F)),
    unary main_v184 main_v185 (uitofp .f32 : (⟨S8192x2, .i1⟩ : BufTy).Contents (Elt F) → (⟨S8192x2, .f32⟩ : BufTy).Contents (Elt F)),
    binary main_arg2 main_v185 main_v186 (mulf : (⟨S8192x2, .f32⟩ : BufTy).Contents (Elt F) → (⟨S8192x2, .f32⟩ : BufTy).Contents (Elt F) → (⟨S8192x2, .f32⟩ : BufTy).Contents (Elt F)),
    nullary main_cst_14 (constant S_ .f32 0x00000000#32),
    binary main_v186 main_cst_14 main_v187 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_arg3 main_v188 ((extractStridedSlice S1x1024x4096 ![7, 0, 0] · slices_S8x1024x4096_S1x1024x4096_7_0_0) : (⟨S8x1024x4096, .f32⟩ : BufTy).Contents (Elt F) → (⟨S1x1024x4096, .f32⟩ : BufTy).Contents (Elt F)),
    reshape main_v188 main_v189 rfl shapeCasts_S1x1024x4096_S1024x4096,
    binary main_arg0 main_v189 main_v190 ((fun l r => Host.dotGeneral dot_S8192x1024_S1024x4096_S8192x4096_1_0_0_1_n_n none l r) : (⟨S8192x1024, .f32⟩ : BufTy).Contents (Elt F) → (⟨S1024x4096, .f32⟩ : BufTy).Contents (Elt F) → (⟨S8192x4096, .f32⟩ : BufTy).Contents (Elt F)),
    unary main_arg4 main_v191 ((extractStridedSlice S1x4096 ![7, 0] · slices_S8x4096_S1x4096_7_0) : (⟨S8x4096, .f32⟩ : BufTy).Contents (Elt F) → (⟨S1x4096, .f32⟩ : BufTy).Contents (Elt F)),
    reshape main_v191 main_v192 rfl shapeCasts_S1x4096_S4096,
    unary main_v192 main_v193 (broadcastInDim S1x4096 ![1] bcast_S4096_S1x4096_1 : (⟨S4096, .f32⟩ : BufTy).Contents (Elt F) → (⟨S1x4096, .f32⟩ : BufTy).Contents (Elt F)),
    unary main_v193 main_v194 (broadcastInDim S8192x4096 ![0, 1] bcast_S1x4096_S8192x4096_0_1 : (⟨S1x4096, .f32⟩ : BufTy).Contents (Elt F) → (⟨S8192x4096, .f32⟩ : BufTy).Contents (Elt F)),
    binary main_v190 main_v194 main_v195 (addf : (⟨S8192x4096, .f32⟩ : BufTy).Contents (Elt F) → (⟨S8192x4096, .f32⟩ : BufTy).Contents (Elt F) → (⟨S8192x4096, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S8192x4096, .f32⟩) main_call7_v0) (broadcastInDim S8192x4096 ![] bcast_S_S8192x4096),
    TRef.binary (TRef.of (T := ⟨S8192x4096, .f32⟩) main_v195) (TRef.of (T := ⟨S8192x4096, .f32⟩) main_call7_v0) (TRef.of (T := ⟨S8192x4096, .f32⟩) main_v196) maximumf,
    unary main_arg5 main_v197 ((extractStridedSlice S1x4096x1024 ![7, 0, 0] · slices_S8x4096x1024_S1x4096x1024_7_0_0) : (⟨S8x4096x1024, .f32⟩ : BufTy).Contents (Elt F) → (⟨S1x4096x1024, .f32⟩ : BufTy).Contents (Elt F)),
    reshape main_v197 main_v198 rfl shapeCasts_S1x4096x1024_S4096x1024,
    binary main_v196 main_v198 main_v199 ((fun l r => Host.dotGeneral dot_S8192x4096_S4096x1024_S8192x1024_1_0_0_1_n_n none l r) : (⟨S8192x4096, .f32⟩ : BufTy).Contents (Elt F) → (⟨S4096x1024, .f32⟩ : BufTy).Contents (Elt F) → (⟨S8192x1024, .f32⟩ : BufTy).Contents (Elt F)),
    unary main_arg6 main_v200 ((extractStridedSlice S1x1024 ![7, 0] · slices_S8x1024_S1x1024_7_0) : (⟨S8x1024, .f32⟩ : BufTy).Contents (Elt F) → (⟨S1x1024, .f32⟩ : BufTy).Contents (Elt F)),
    reshape main_v200 main_v201 rfl shapeCasts_S1x1024_S1024,
    unary main_v201 main_v202 (broadcastInDim S1x1024 ![1] bcast_S1024_S1x1024_1 : (⟨S1024, .f32⟩ : BufTy).Contents (Elt F) → (⟨S1x1024, .f32⟩ : BufTy).Contents (Elt F)),
    unary main_v202 main_v203 (broadcastInDim S8192x1024 ![0, 1] bcast_S1x1024_S8192x1024_0_1 : (⟨S1x1024, .f32⟩ : BufTy).Contents (Elt F) → (⟨S8192x1024, .f32⟩ : BufTy).Contents (Elt F)),
    binary main_v199 main_v203 main_v204 (addf : (⟨S8192x1024, .f32⟩ : BufTy).Contents (Elt F) → (⟨S8192x1024, .f32⟩ : BufTy).Contents (Elt F) → (⟨S8192x1024, .f32⟩ : BufTy).Contents (Elt F)),
    unary main_v187 main_v205 (broadcastInDim S8192x1 ![0] bcast_S8192_S8192x1_0 : (⟨S8192, .f32⟩ : BufTy).Contents (Elt F) → (⟨S8192x1, .f32⟩ : BufTy).Contents (Elt F)),
    unary main_v205 main_v206 (broadcastInDim S8192x1024 ![0, 1] bcast_S8192x1_S8192x1024_0_1 : (⟨S8192x1, .f32⟩ : BufTy).Contents (Elt F) → (⟨S8192x1024, .f32⟩ : BufTy).Contents (Elt F)),
    binary main_v206 main_v204 main_v207 (mulf : (⟨S8192x1024, .f32⟩ : BufTy).Contents (Elt F) → (⟨S8192x1024, .f32⟩ : BufTy).Contents (Elt F) → (⟨S8192x1024, .f32⟩ : BufTy).Contents (Elt F)),
    binary main_v182 main_v207 main_v208 (addf : (⟨S8192x1024, .f32⟩ : BufTy).Contents (Elt F) → (⟨S8192x1024, .f32⟩ : BufTy).Contents (Elt F) → (⟨S8192x1024, .f32⟩ : BufTy).Contents (Elt F)) ]

/-- The buffers they write. -/
abbrev part8_W : List (Ref sig .tc) := [main_c_13, main_v183, main_v184, main_v185, main_v186, main_cst_14, main_v187, main_v188, main_v189, main_v190, main_v191, main_v192, main_v193, main_v194, main_v195, main_call7_cst, main_call7_v0, main_v196, main_v197, main_v198, main_v199, main_v200, main_v201, main_v202, main_v203, main_v204, main_v205, main_v206, main_v207, main_v208]

set_option maxRecDepth 8192 in
set_option maxHeartbeats 8000000 in
theorem part8_sub : (part8 : List (HloOp τ sig (Elt F))).Forall fun op => op.bufs ⊆ tcRefs τ sig :=
  ⟨nullary_bufs_sub .., unary_bufs_sub .., binary_bufs_sub .., unary_bufs_sub .., binary_bufs_sub .., nullary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., binary_bufs_sub .., binary_bufs_sub ..⟩

set_option maxRecDepth 8192 in
set_option maxHeartbeats 8000000 in
theorem part8_fresh : ∀ op ∈ (part8 : List (HloOp τ sig (Elt F))), op.fresh = ∅ := by
  intro _ h; (repeat (cases h with | head => rfl | tail _ h => ?_)); exact nomatch h

set_option maxRecDepth 8192 in
set_option maxHeartbeats 8000000 in
theorem part8_writes : (part8 : List (HloOp τ sig (Elt F))).Forall fun op =>
    op.writes ⊆ (part8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer these operations do not write keeps its contents through them. -/
theorem keep8 (W : Valuation τ sig (Elt F)) (r : Ref sig .tc) (h : r ∉ part8_W) :
    after part8 W (Proc.devRef .tc r) = W (Proc.devRef .tc r) :=
  after_of_writes_sub part8 _ part8_writes h

set_option maxRecDepth 8192 in
set_option maxHeartbeats 8000000 in
/-- The running sum after these operations. -/
theorem sum8 (W : Valuation τ sig (Elt F)) :
    after part8 W (Proc.devRef .tc main_v208) = addf (W (Proc.devRef .tc main_v182)) (expertTerm7 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6))) := by
  unfold expertTerm7
  after_results_simp
  all_goals rfl

end Cert.ReferenceIdeal.HandRun

end
-- ==== Proof.RefRun.lean ====
/-
  The reference's run: its 242 operations are eight groups, one per expert, in order; from any memory every weakly
  fair execution terminates with the result buffer at the running sum after the eighth expert — a function of the
  seven argument arrays — and the arguments unchanged. Each group is run from arbitrary buffer contents in its own
  module; here they are chained.
-/
import proofs.«141319_j14516989460789_2_alg».proof.Proof.RefWin1
import proofs.«141319_j14516989460789_2_alg».proof.Proof.RefWin2
import proofs.«141319_j14516989460789_2_alg».proof.Proof.RefWin3
import proofs.«141319_j14516989460789_2_alg».proof.Proof.RefWin4
import proofs.«141319_j14516989460789_2_alg».proof.Proof.RefWin5
import proofs.«141319_j14516989460789_2_alg».proof.Proof.RefWin6
import proofs.«141319_j14516989460789_2_alg».proof.Proof.RefWin7
import proofs.«141319_j14516989460789_2_alg».proof.Proof.RefWin8
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- All the operations, in program order. -/
abbrev ops : List (HloOp τ sig (Elt F)) := part1 ++ (part2 ++ (part3 ++ (part4 ++ (part5 ++ (part6 ++ (part7 ++ part8))))))

set_option maxRecDepth 16384 in
set_option maxHeartbeats 16000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem mem_ops {op : HloOp τ sig (Elt F)} (h : op ∈ (ops : List (HloOp τ sig (Elt F)))) :
    op ∈ (part1 : List (HloOp τ sig (Elt F))) ∨ op ∈ (part2 : List (HloOp τ sig (Elt F))) ∨ op ∈ (part3 : List (HloOp τ sig (Elt F)))
    ∨ op ∈ (part4 : List (HloOp τ sig (Elt F))) ∨ op ∈ (part5 : List (HloOp τ sig (Elt F))) ∨ op ∈ (part6 : List (HloOp τ sig (Elt F)))
    ∨ op ∈ (part7 : List (HloOp τ sig (Elt F))) ∨ op ∈ (part8 : List (HloOp τ sig (Elt F))) := by
  simpa only [ops, List.mem_append] using h

theorem ops_sub : (ops : List (HloOp τ sig (Elt F))).Forall fun op => op.bufs ⊆ tcRefs τ sig :=
  List.forall_iff_forall_mem.mpr fun op h => by
    rcases mem_ops h with h | h | h | h | h | h | h | h
    · exact List.forall_iff_forall_mem.mp part1_sub op h
    · exact List.forall_iff_forall_mem.mp part2_sub op h
    · exact List.forall_iff_forall_mem.mp part3_sub op h
    · exact List.forall_iff_forall_mem.mp part4_sub op h
    · exact List.forall_iff_forall_mem.mp part5_sub op h
    · exact List.forall_iff_forall_mem.mp part6_sub op h
    · exact List.forall_iff_forall_mem.mp part7_sub op h
    · exact List.forall_iff_forall_mem.mp part8_sub op h

theorem ops_fresh : ∀ op ∈ (ops : List (HloOp τ sig (Elt F))), op.fresh = ∅ := fun op h => by
  rcases mem_ops h with h | h | h | h | h | h | h | h
  · exact part1_fresh op h
  · exact part2_fresh op h
  · exact part3_fresh op h
  · exact part4_fresh op h
  · exact part5_fresh op h
  · exact part6_fresh op h
  · exact part7_fresh op h
  · exact part8_fresh op h

/-- The buffers after the first 1 group of operations. -/
def vals1 (V0 : Valuation τ sig (Elt F)) : Valuation τ sig (Elt F) := after part1 V0
theorem vals1_arg0 (V0 : Valuation τ sig (Elt F)) : vals1 V0 (Proc.devRef .tc main_arg0) = V0 (Proc.devRef .tc main_arg0) :=
  (keep1 _ main_arg0 (by decide)).trans rfl
theorem vals1_arg1 (V0 : Valuation τ sig (Elt F)) : vals1 V0 (Proc.devRef .tc main_arg1) = V0 (Proc.devRef .tc main_arg1) :=
  (keep1 _ main_arg1 (by decide)).trans rfl
theorem vals1_arg2 (V0 : Valuation τ sig (Elt F)) : vals1 V0 (Proc.devRef .tc main_arg2) = V0 (Proc.devRef .tc main_arg2) :=
  (keep1 _ main_arg2 (by decide)).trans rfl
theorem vals1_arg3 (V0 : Valuation τ sig (Elt F)) : vals1 V0 (Proc.devRef .tc main_arg3) = V0 (Proc.devRef .tc main_arg3) :=
  (keep1 _ main_arg3 (by decide)).trans rfl
theorem vals1_arg4 (V0 : Valuation τ sig (Elt F)) : vals1 V0 (Proc.devRef .tc main_arg4) = V0 (Proc.devRef .tc main_arg4) :=
  (keep1 _ main_arg4 (by decide)).trans rfl
theorem vals1_arg5 (V0 : Valuation τ sig (Elt F)) : vals1 V0 (Proc.devRef .tc main_arg5) = V0 (Proc.devRef .tc main_arg5) :=
  (keep1 _ main_arg5 (by decide)).trans rfl
theorem vals1_arg6 (V0 : Valuation τ sig (Elt F)) : vals1 V0 (Proc.devRef .tc main_arg6) = V0 (Proc.devRef .tc main_arg6) :=
  (keep1 _ main_arg6 (by decide)).trans rfl
theorem vals1_sum (V0 : Valuation τ sig (Elt F)) :
    vals1 V0 (Proc.devRef .tc main_v26) = acc0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold vals1 acc0
  rw [sum1]

/-- The buffers after the first 2 groups of operations. -/
def vals2 (V0 : Valuation τ sig (Elt F)) : Valuation τ sig (Elt F) := after part2 (vals1 V0)
theorem vals2_arg0 (V0 : Valuation τ sig (Elt F)) : vals2 V0 (Proc.devRef .tc main_arg0) = V0 (Proc.devRef .tc main_arg0) :=
  (keep2 _ main_arg0 (by decide)).trans (vals1_arg0 V0)
theorem vals2_arg1 (V0 : Valuation τ sig (Elt F)) : vals2 V0 (Proc.devRef .tc main_arg1) = V0 (Proc.devRef .tc main_arg1) :=
  (keep2 _ main_arg1 (by decide)).trans (vals1_arg1 V0)
theorem vals2_arg2 (V0 : Valuation τ sig (Elt F)) : vals2 V0 (Proc.devRef .tc main_arg2) = V0 (Proc.devRef .tc main_arg2) :=
  (keep2 _ main_arg2 (by decide)).trans (vals1_arg2 V0)
theorem vals2_arg3 (V0 : Valuation τ sig (Elt F)) : vals2 V0 (Proc.devRef .tc main_arg3) = V0 (Proc.devRef .tc main_arg3) :=
  (keep2 _ main_arg3 (by decide)).trans (vals1_arg3 V0)
theorem vals2_arg4 (V0 : Valuation τ sig (Elt F)) : vals2 V0 (Proc.devRef .tc main_arg4) = V0 (Proc.devRef .tc main_arg4) :=
  (keep2 _ main_arg4 (by decide)).trans (vals1_arg4 V0)
theorem vals2_arg5 (V0 : Valuation τ sig (Elt F)) : vals2 V0 (Proc.devRef .tc main_arg5) = V0 (Proc.devRef .tc main_arg5) :=
  (keep2 _ main_arg5 (by decide)).trans (vals1_arg5 V0)
theorem vals2_arg6 (V0 : Valuation τ sig (Elt F)) : vals2 V0 (Proc.devRef .tc main_arg6) = V0 (Proc.devRef .tc main_arg6) :=
  (keep2 _ main_arg6 (by decide)).trans (vals1_arg6 V0)
theorem vals2_sum (V0 : Valuation τ sig (Elt F)) :
    vals2 V0 (Proc.devRef .tc main_v52) = acc1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold vals2 acc1
  rw [sum2, vals1_sum, vals1_arg0, vals1_arg1, vals1_arg2, vals1_arg3, vals1_arg4, vals1_arg5, vals1_arg6]

/-- The buffers after the first 3 groups of operations. -/
def vals3 (V0 : Valuation τ sig (Elt F)) : Valuation τ sig (Elt F) := after part3 (vals2 V0)
theorem vals3_arg0 (V0 : Valuation τ sig (Elt F)) : vals3 V0 (Proc.devRef .tc main_arg0) = V0 (Proc.devRef .tc main_arg0) :=
  (keep3 _ main_arg0 (by decide)).trans (vals2_arg0 V0)
theorem vals3_arg1 (V0 : Valuation τ sig (Elt F)) : vals3 V0 (Proc.devRef .tc main_arg1) = V0 (Proc.devRef .tc main_arg1) :=
  (keep3 _ main_arg1 (by decide)).trans (vals2_arg1 V0)
theorem vals3_arg2 (V0 : Valuation τ sig (Elt F)) : vals3 V0 (Proc.devRef .tc main_arg2) = V0 (Proc.devRef .tc main_arg2) :=
  (keep3 _ main_arg2 (by decide)).trans (vals2_arg2 V0)
theorem vals3_arg3 (V0 : Valuation τ sig (Elt F)) : vals3 V0 (Proc.devRef .tc main_arg3) = V0 (Proc.devRef .tc main_arg3) :=
  (keep3 _ main_arg3 (by decide)).trans (vals2_arg3 V0)
theorem vals3_arg4 (V0 : Valuation τ sig (Elt F)) : vals3 V0 (Proc.devRef .tc main_arg4) = V0 (Proc.devRef .tc main_arg4) :=
  (keep3 _ main_arg4 (by decide)).trans (vals2_arg4 V0)
theorem vals3_arg5 (V0 : Valuation τ sig (Elt F)) : vals3 V0 (Proc.devRef .tc main_arg5) = V0 (Proc.devRef .tc main_arg5) :=
  (keep3 _ main_arg5 (by decide)).trans (vals2_arg5 V0)
theorem vals3_arg6 (V0 : Valuation τ sig (Elt F)) : vals3 V0 (Proc.devRef .tc main_arg6) = V0 (Proc.devRef .tc main_arg6) :=
  (keep3 _ main_arg6 (by decide)).trans (vals2_arg6 V0)
theorem vals3_sum (V0 : Valuation τ sig (Elt F)) :
    vals3 V0 (Proc.devRef .tc main_v78) = acc2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold vals3 acc2
  rw [sum3, vals2_sum, vals2_arg0, vals2_arg1, vals2_arg2, vals2_arg3, vals2_arg4, vals2_arg5, vals2_arg6]

/-- The buffers after the first 4 groups of operations. -/
def vals4 (V0 : Valuation τ sig (Elt F)) : Valuation τ sig (Elt F) := after part4 (vals3 V0)
theorem vals4_arg0 (V0 : Valuation τ sig (Elt F)) : vals4 V0 (Proc.devRef .tc main_arg0) = V0 (Proc.devRef .tc main_arg0) :=
  (keep4 _ main_arg0 (by decide)).trans (vals3_arg0 V0)
theorem vals4_arg1 (V0 : Valuation τ sig (Elt F)) : vals4 V0 (Proc.devRef .tc main_arg1) = V0 (Proc.devRef .tc main_arg1) :=
  (keep4 _ main_arg1 (by decide)).trans (vals3_arg1 V0)
theorem vals4_arg2 (V0 : Valuation τ sig (Elt F)) : vals4 V0 (Proc.devRef .tc main_arg2) = V0 (Proc.devRef .tc main_arg2) :=
  (keep4 _ main_arg2 (by decide)).trans (vals3_arg2 V0)
theorem vals4_arg3 (V0 : Valuation τ sig (Elt F)) : vals4 V0 (Proc.devRef .tc main_arg3) = V0 (Proc.devRef .tc main_arg3) :=
  (keep4 _ main_arg3 (by decide)).trans (vals3_arg3 V0)
theorem vals4_arg4 (V0 : Valuation τ sig (Elt F)) : vals4 V0 (Proc.devRef .tc main_arg4) = V0 (Proc.devRef .tc main_arg4) :=
  (keep4 _ main_arg4 (by decide)).trans (vals3_arg4 V0)
theorem vals4_arg5 (V0 : Valuation τ sig (Elt F)) : vals4 V0 (Proc.devRef .tc main_arg5) = V0 (Proc.devRef .tc main_arg5) :=
  (keep4 _ main_arg5 (by decide)).trans (vals3_arg5 V0)
theorem vals4_arg6 (V0 : Valuation τ sig (Elt F)) : vals4 V0 (Proc.devRef .tc main_arg6) = V0 (Proc.devRef .tc main_arg6) :=
  (keep4 _ main_arg6 (by decide)).trans (vals3_arg6 V0)
theorem vals4_sum (V0 : Valuation τ sig (Elt F)) :
    vals4 V0 (Proc.devRef .tc main_v104) = acc3 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold vals4 acc3
  rw [sum4, vals3_sum, vals3_arg0, vals3_arg1, vals3_arg2, vals3_arg3, vals3_arg4, vals3_arg5, vals3_arg6]

/-- The buffers after the first 5 groups of operations. -/
def vals5 (V0 : Valuation τ sig (Elt F)) : Valuation τ sig (Elt F) := after part5 (vals4 V0)
theorem vals5_arg0 (V0 : Valuation τ sig (Elt F)) : vals5 V0 (Proc.devRef .tc main_arg0) = V0 (Proc.devRef .tc main_arg0) :=
  (keep5 _ main_arg0 (by decide)).trans (vals4_arg0 V0)
theorem vals5_arg1 (V0 : Valuation τ sig (Elt F)) : vals5 V0 (Proc.devRef .tc main_arg1) = V0 (Proc.devRef .tc main_arg1) :=
  (keep5 _ main_arg1 (by decide)).trans (vals4_arg1 V0)
theorem vals5_arg2 (V0 : Valuation τ sig (Elt F)) : vals5 V0 (Proc.devRef .tc main_arg2) = V0 (Proc.devRef .tc main_arg2) :=
  (keep5 _ main_arg2 (by decide)).trans (vals4_arg2 V0)
theorem vals5_arg3 (V0 : Valuation τ sig (Elt F)) : vals5 V0 (Proc.devRef .tc main_arg3) = V0 (Proc.devRef .tc main_arg3) :=
  (keep5 _ main_arg3 (by decide)).trans (vals4_arg3 V0)
theorem vals5_arg4 (V0 : Valuation τ sig (Elt F)) : vals5 V0 (Proc.devRef .tc main_arg4) = V0 (Proc.devRef .tc main_arg4) :=
  (keep5 _ main_arg4 (by decide)).trans (vals4_arg4 V0)
theorem vals5_arg5 (V0 : Valuation τ sig (Elt F)) : vals5 V0 (Proc.devRef .tc main_arg5) = V0 (Proc.devRef .tc main_arg5) :=
  (keep5 _ main_arg5 (by decide)).trans (vals4_arg5 V0)
theorem vals5_arg6 (V0 : Valuation τ sig (Elt F)) : vals5 V0 (Proc.devRef .tc main_arg6) = V0 (Proc.devRef .tc main_arg6) :=
  (keep5 _ main_arg6 (by decide)).trans (vals4_arg6 V0)
theorem vals5_sum (V0 : Valuation τ sig (Elt F)) :
    vals5 V0 (Proc.devRef .tc main_v130) = acc4 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold vals5 acc4
  rw [sum5, vals4_sum, vals4_arg0, vals4_arg1, vals4_arg2, vals4_arg3, vals4_arg4, vals4_arg5, vals4_arg6]

/-- The buffers after the first 6 groups of operations. -/
def vals6 (V0 : Valuation τ sig (Elt F)) : Valuation τ sig (Elt F) := after part6 (vals5 V0)
theorem vals6_arg0 (V0 : Valuation τ sig (Elt F)) : vals6 V0 (Proc.devRef .tc main_arg0) = V0 (Proc.devRef .tc main_arg0) :=
  (keep6 _ main_arg0 (by decide)).trans (vals5_arg0 V0)
theorem vals6_arg1 (V0 : Valuation τ sig (Elt F)) : vals6 V0 (Proc.devRef .tc main_arg1) = V0 (Proc.devRef .tc main_arg1) :=
  (keep6 _ main_arg1 (by decide)).trans (vals5_arg1 V0)
theorem vals6_arg2 (V0 : Valuation τ sig (Elt F)) : vals6 V0 (Proc.devRef .tc main_arg2) = V0 (Proc.devRef .tc main_arg2) :=
  (keep6 _ main_arg2 (by decide)).trans (vals5_arg2 V0)
theorem vals6_arg3 (V0 : Valuation τ sig (Elt F)) : vals6 V0 (Proc.devRef .tc main_arg3) = V0 (Proc.devRef .tc main_arg3) :=
  (keep6 _ main_arg3 (by decide)).trans (vals5_arg3 V0)
theorem vals6_arg4 (V0 : Valuation τ sig (Elt F)) : vals6 V0 (Proc.devRef .tc main_arg4) = V0 (Proc.devRef .tc main_arg4) :=
  (keep6 _ main_arg4 (by decide)).trans (vals5_arg4 V0)
theorem vals6_arg5 (V0 : Valuation τ sig (Elt F)) : vals6 V0 (Proc.devRef .tc main_arg5) = V0 (Proc.devRef .tc main_arg5) :=
  (keep6 _ main_arg5 (by decide)).trans (vals5_arg5 V0)
theorem vals6_arg6 (V0 : Valuation τ sig (Elt F)) : vals6 V0 (Proc.devRef .tc main_arg6) = V0 (Proc.devRef .tc main_arg6) :=
  (keep6 _ main_arg6 (by decide)).trans (vals5_arg6 V0)
theorem vals6_sum (V0 : Valuation τ sig (Elt F)) :
    vals6 V0 (Proc.devRef .tc main_v156) = acc5 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold vals6 acc5
  rw [sum6, vals5_sum, vals5_arg0, vals5_arg1, vals5_arg2, vals5_arg3, vals5_arg4, vals5_arg5, vals5_arg6]

/-- The buffers after the first 7 groups of operations. -/
def vals7 (V0 : Valuation τ sig (Elt F)) : Valuation τ sig (Elt F) := after part7 (vals6 V0)
theorem vals7_arg0 (V0 : Valuation τ sig (Elt F)) : vals7 V0 (Proc.devRef .tc main_arg0) = V0 (Proc.devRef .tc main_arg0) :=
  (keep7 _ main_arg0 (by decide)).trans (vals6_arg0 V0)
theorem vals7_arg1 (V0 : Valuation τ sig (Elt F)) : vals7 V0 (Proc.devRef .tc main_arg1) = V0 (Proc.devRef .tc main_arg1) :=
  (keep7 _ main_arg1 (by decide)).trans (vals6_arg1 V0)
theorem vals7_arg2 (V0 : Valuation τ sig (Elt F)) : vals7 V0 (Proc.devRef .tc main_arg2) = V0 (Proc.devRef .tc main_arg2) :=
  (keep7 _ main_arg2 (by decide)).trans (vals6_arg2 V0)
theorem vals7_arg3 (V0 : Valuation τ sig (Elt F)) : vals7 V0 (Proc.devRef .tc main_arg3) = V0 (Proc.devRef .tc main_arg3) :=
  (keep7 _ main_arg3 (by decide)).trans (vals6_arg3 V0)
theorem vals7_arg4 (V0 : Valuation τ sig (Elt F)) : vals7 V0 (Proc.devRef .tc main_arg4) = V0 (Proc.devRef .tc main_arg4) :=
  (keep7 _ main_arg4 (by decide)).trans (vals6_arg4 V0)
theorem vals7_arg5 (V0 : Valuation τ sig (Elt F)) : vals7 V0 (Proc.devRef .tc main_arg5) = V0 (Proc.devRef .tc main_arg5) :=
  (keep7 _ main_arg5 (by decide)).trans (vals6_arg5 V0)
theorem vals7_arg6 (V0 : Valuation τ sig (Elt F)) : vals7 V0 (Proc.devRef .tc main_arg6) = V0 (Proc.devRef .tc main_arg6) :=
  (keep7 _ main_arg6 (by decide)).trans (vals6_arg6 V0)
theorem vals7_sum (V0 : Valuation τ sig (Elt F)) :
    vals7 V0 (Proc.devRef .tc main_v182) = acc6 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold vals7 acc6
  rw [sum7, vals6_sum, vals6_arg0, vals6_arg1, vals6_arg2, vals6_arg3, vals6_arg4, vals6_arg5, vals6_arg6]

/-- The buffers after the first 8 groups of operations. -/
def vals8 (V0 : Valuation τ sig (Elt F)) : Valuation τ sig (Elt F) := after part8 (vals7 V0)
theorem vals8_arg0 (V0 : Valuation τ sig (Elt F)) : vals8 V0 (Proc.devRef .tc main_arg0) = V0 (Proc.devRef .tc main_arg0) :=
  (keep8 _ main_arg0 (by decide)).trans (vals7_arg0 V0)
theorem vals8_arg1 (V0 : Valuation τ sig (Elt F)) : vals8 V0 (Proc.devRef .tc main_arg1) = V0 (Proc.devRef .tc main_arg1) :=
  (keep8 _ main_arg1 (by decide)).trans (vals7_arg1 V0)
theorem vals8_arg2 (V0 : Valuation τ sig (Elt F)) : vals8 V0 (Proc.devRef .tc main_arg2) = V0 (Proc.devRef .tc main_arg2) :=
  (keep8 _ main_arg2 (by decide)).trans (vals7_arg2 V0)
theorem vals8_arg3 (V0 : Valuation τ sig (Elt F)) : vals8 V0 (Proc.devRef .tc main_arg3) = V0 (Proc.devRef .tc main_arg3) :=
  (keep8 _ main_arg3 (by decide)).trans (vals7_arg3 V0)
theorem vals8_arg4 (V0 : Valuation τ sig (Elt F)) : vals8 V0 (Proc.devRef .tc main_arg4) = V0 (Proc.devRef .tc main_arg4) :=
  (keep8 _ main_arg4 (by decide)).trans (vals7_arg4 V0)
theorem vals8_arg5 (V0 : Valuation τ sig (Elt F)) : vals8 V0 (Proc.devRef .tc main_arg5) = V0 (Proc.devRef .tc main_arg5) :=
  (keep8 _ main_arg5 (by decide)).trans (vals7_arg5 V0)
theorem vals8_arg6 (V0 : Valuation τ sig (Elt F)) : vals8 V0 (Proc.devRef .tc main_arg6) = V0 (Proc.devRef .tc main_arg6) :=
  (keep8 _ main_arg6 (by decide)).trans (vals7_arg6 V0)
theorem vals8_sum (V0 : Valuation τ sig (Elt F)) :
    vals8 V0 (Proc.devRef .tc main_v208) = acc7 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold vals8 acc7
  rw [sum8, vals7_sum, vals7_arg0, vals7_arg1, vals7_arg2, vals7_arg3, vals7_arg4, vals7_arg5, vals7_arg6]

theorem after_ops (V0 : Valuation τ sig (Elt F)) : after ops V0 = vals8 V0 := by
  simp only [ops, StableHlo.after_append]
  rfl

/-- On every device, from any memory with zero counters: every weakly fair execution of the reference terminates with
    the result at the running sum after the eighth expert, of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v208) = acc7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v208).trans (by rw [after_ops]; exact vals8_sum (launchContents m c)),
      (h c main_arg0).trans (by rw [after_ops]; exact vals8_arg0 (launchContents m c)),
      (h c main_arg1).trans (by rw [after_ops]; exact vals8_arg1 (launchContents m c)),
      (h c main_arg2).trans (by rw [after_ops]; exact vals8_arg2 (launchContents m c)),
      (h c main_arg3).trans (by rw [after_ops]; exact vals8_arg3 (launchContents m c)),
      (h c main_arg4).trans (by rw [after_ops]; exact vals8_arg4 (launchContents m c)),
      (h c main_arg5).trans (by rw [after_ops]; exact vals8_arg5 (launchContents m c)),
      (h c main_arg6).trans (by rw [after_ops]; exact vals8_arg6 (launchContents m c))⟩)
    (run_seq scopedRefs_eq scopedSems_eq defs main (fun _ => ops) main_eq (fun _ => ops_sub) m ρ (fun _ => ops_fresh))

end Cert.ReferenceIdeal.HandRun

end
-- ==== Proof.KPieces.lean ====
/-
  What each control case of the body leaves in the two buffers it carries from grid point to grid point, and in the
  output block at the last point of a row block, as the body's arithmetic applied to the blocks it loads: the first
  buffer (the result accumulated over the experts) is reset to zeros, kept, or updated with one expert's gated
  output; the second (one expert's products accumulated over the hidden chunks) is reset to zeros and given the first
  chunk, or given the next chunk; the output block is the first buffer after the last expert's update.
-/
import proofs.«141319_j14516989460789_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KVal

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point of a row block: the result buffer is reset to zeros. -/
theorem acc_A (c : Dev nD) (i : grid0.Coords) (arg3 : Memref sig .tc .vmem S1024x1024 .bf16) (harg3 : arg3.IsWhole) (arg4 : Memref sig .tc .vmem S1x1024x512 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1x1024 .f32) (harg7 : arg7.IsWhole) (arg8 : Memref sig .tc .vmem S1024x8 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (hc0 : cond0_0 i) (hc1 : cond0_1 i) (hc2 : ¬cond0_2 i) (hc3 : ¬cond0_3 i)
    (x0 : Vec F S1024x1024 .bf16) (x1 : Vec F S1x1024x512 .bf16) (x2 : Vec F S1x1x512 .f32) (x3 : Vec F S1x512x1024 .bf16) (x4 : Vec F S1x1x1024 .f32) (x5 : Vec F S1024x8 .f32) :
    sout0_A_0 c i arg3 harg3 arg4 harg4 arg5 harg5 arg6 harg6 arg7 harg7 arg8 harg8 arg9 harg9 arg10 harg10 arg11 harg11 hc0 hc1 hc2 hc3 x0 x1 x2 x3 x4 x5 = k0_pay2 := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 hc2 hc3 x0 x1 x2 x3 x4 x5)]
  unfold kernelRun0_A
  dsimp only
  try sl_unfold_words
  simp only [View.canon_unit_zero (S := S1024x1024) hz2, View.canon_cons_unit_zero (S := S1024x1024) hz2,
    View.readCov_unit_zero (S := S1024x1024) _ hz2, View.readAt_eq_ld, harg3.read_unread, harg4.read_unread,
    harg5.read_unread, harg6.read_unread, harg7.read_unread, harg8.read_unread, harg9.read_unread, harg10.read_unread,
    harg11.read_unread, View.ld_unit_zero (S := S1024x1024) hz2, View.ld_unit_zero (S := S1x1024x512) hz3,
    View.ld_unit_zero (S := S1x1x512) hz3, View.ld_unit_zero (S := S1x512x1024) hz3,
    View.ld_unit_zero (S := S1x1x1024) hz3, View.ld_unit_zero (S := S1024x8) hz2]

/-- First point of a row block: the products buffer is reset and given the first chunk. -/
theorem inner_A (c : Dev nD) (i : grid0.Coords) (arg3 : Memref sig .tc .vmem S1024x1024 .bf16) (harg3 : arg3.IsWhole) (arg4 : Memref sig .tc .vmem S1x1024x512 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1x1024 .f32) (harg7 : arg7.IsWhole) (arg8 : Memref sig .tc .vmem S1024x8 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (hc0 : cond0_0 i) (hc1 : cond0_1 i) (hc2 : ¬cond0_2 i) (hc3 : ¬cond0_3 i)
    (x0 : Vec F S1024x1024 .bf16) (x1 : Vec F S1x1024x512 .bf16) (x2 : Vec F S1x1x512 .f32) (x3 : Vec F S1x512x1024 .bf16) (x4 : Vec F S1x1x1024 .f32) (x5 : Vec F S1024x8 .f32) :
    sout0_A_1 c i arg3 harg3 arg4 harg4 arg5 harg5 arg6 harg6 arg7 harg7 arg8 harg8 arg9 harg9 arg10 harg10 arg11 harg11 hc0 hc1 hc2 hc3 x0 x1 x2 x3 x4 x5 = k0_pay4 x0 x1 x2 x3 k0_pay3 := by
  unfold sout0_A_1
  rw [View.read_writes_eq_canon _ _ _ (scover0_A_1 c i arg3 harg3 arg4 harg4 arg5 harg5 arg6 harg6 arg7 harg7 arg8 harg8 arg9 harg9 arg10 harg10 arg11 harg11 hc0 hc1 hc2 hc3 x0 x1 x2 x3 x4 x5)]
  unfold kernelRun0_A
  dsimp only
  try sl_unfold_words
  simp only [View.canon_unit_zero (S := S1024x1024) hz2, View.canon_cons_unit_zero (S := S1024x1024) hz2,
    View.readCov_unit_zero (S := S1024x1024) _ hz2, View.readAt_eq_ld, harg3.read_unread, harg4.read_unread,
    harg5.read_unread, harg6.read_unread, harg7.read_unread, harg8.read_unread, harg9.read_unread, harg10.read_unread,
    harg11.read_unread, View.ld_unit_zero (S := S1024x1024) hz2, View.ld_unit_zero (S := S1x1024x512) hz3,
    View.ld_unit_zero (S := S1x1x512) hz3, View.ld_unit_zero (S := S1x512x1024) hz3,
    View.ld_unit_zero (S := S1x1x1024) hz3, View.ld_unit_zero (S := S1024x8) hz2]

/-- A middle chunk: the products buffer is given the next chunk. -/
theorem inner_B (c : Dev nD) (i : grid0.Coords) (arg3 : Memref sig .tc .vmem S1024x1024 .bf16) (harg3 : arg3.IsWhole) (arg4 : Memref sig .tc .vmem S1x1024x512 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1x1024 .f32) (harg7 : arg7.IsWhole) (arg8 : Memref sig .tc .vmem S1024x8 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : ¬cond0_1 i) (hc2 : ¬cond0_2 i) (hc3 : ¬cond0_3 i)
    (x0 : Vec F S1024x1024 .bf16) (x1 : Vec F S1x1024x512 .bf16) (x2 : Vec F S1x1x512 .f32) (x3 : Vec F S1x512x1024 .bf16) (x4 : Vec F S1x1x1024 .f32) (x5 : Vec F S1024x8 .f32) (xs0 xs1 : Vec F S1024x1024 .f32) :
    sout0_B_1 c i arg3 harg3 arg4 harg4 arg5 harg5 arg6 harg6 arg7 harg7 arg8 harg8 arg9 harg9 arg10 harg10 arg11 harg11 hc0 hc1 hc2 hc3 x0 x1 x2 x3 x4 x5 xs0 xs1 = k0_pay4 x0 x1 x2 x3 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 hc0 hc1 hc2 hc3 x0 x1 x2 x3 x4 x5 xs0 xs1)]
  unfold kernelRun0_B
  dsimp only
  try sl_unfold_words
  simp only [View.canon_unit_zero (S := S1024x1024) hz2, View.canon_cons_unit_zero (S := S1024x1024) hz2,
    View.readCov_unit_zero (S := S1024x1024) _ hz2, View.readAt_eq_ld, harg3.read_unread, harg4.read_unread,
    harg5.read_unread, harg6.read_unread, harg7.read_unread, harg8.read_unread, harg9.read_unread, harg10.read_unread,
    harg11.read_unread, View.ld_unit_zero (S := S1024x1024) hz2, View.ld_unit_zero (S := S1x1024x512) hz3,
    View.ld_unit_zero (S := S1x1x512) hz3, View.ld_unit_zero (S := S1x512x1024) hz3,
    View.ld_unit_zero (S := S1x1x1024) hz3, View.ld_unit_zero (S := S1024x8) hz2]

/-- The last chunk of an expert: the products buffer is given the last chunk, -/
theorem inner_C (c : Dev nD) (i : grid0.Coords) (arg3 : Memref sig .tc .vmem S1024x1024 .bf16) (harg3 : arg3.IsWhole) (arg4 : Memref sig .tc .vmem S1x1024x512 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1x1024 .f32) (harg7 : arg7.IsWhole) (arg8 : Memref sig .tc .vmem S1024x8 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : ¬cond0_1 i) (hc2 : cond0_2 i) (hc3 : ¬cond0_3 i)
    (x0 : Vec F S1024x1024 .bf16) (x1 : Vec F S1x1024x512 .bf16) (x2 : Vec F S1x1x512 .f32) (x3 : Vec F S1x512x1024 .bf16) (x4 : Vec F S1x1x1024 .f32) (x5 : Vec F S1024x8 .f32) (xs0 xs1 : Vec F S1024x1024 .f32) :
    sout0_C_1 c i arg3 harg3 arg4 harg4 arg5 harg5 arg6 harg6 arg7 harg7 arg8 harg8 arg9 harg9 arg10 harg10 arg11 harg11 hc0 hc1 hc2 hc3 x0 x1 x2 x3 x4 x5 xs0 xs1 = k0_pay4 x0 x1 x2 x3 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 hc0 hc1 hc2 hc3 x0 x1 x2 x3 x4 x5 xs0 xs1)]
  unfold kernelRun0_C
  dsimp only
  try sl_unfold_words
  simp only [View.canon_unit_zero (S := S1024x1024) hz2, View.canon_cons_unit_zero (S := S1024x1024) hz2,
    View.readCov_unit_zero (S := S1024x1024) _ hz2, View.readAt_eq_ld, harg3.read_unread, harg4.read_unread,
    harg5.read_unread, harg6.read_unread, harg7.read_unread, harg8.read_unread, harg9.read_unread, harg10.read_unread,
    harg11.read_unread, View.ld_unit_zero (S := S1024x1024) hz2, View.ld_unit_zero (S := S1x1024x512) hz3,
    View.ld_unit_zero (S := S1x1x512) hz3, View.ld_unit_zero (S := S1x512x1024) hz3,
    View.ld_unit_zero (S := S1x1x1024) hz3, View.ld_unit_zero (S := S1024x8) hz2]

/-- and the result buffer is updated with the expert's gated output. -/
theorem acc_C (c : Dev nD) (i : grid0.Coords) (arg3 : Memref sig .tc .vmem S1024x1024 .bf16) (harg3 : arg3.IsWhole) (arg4 : Memref sig .tc .vmem S1x1024x512 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1x1024 .f32) (harg7 : arg7.IsWhole) (arg8 : Memref sig .tc .vmem S1024x8 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : ¬cond0_1 i) (hc2 : cond0_2 i) (hc3 : ¬cond0_3 i)
    (x0 : Vec F S1024x1024 .bf16) (x1 : Vec F S1x1024x512 .bf16) (x2 : Vec F S1x1x512 .f32) (x3 : Vec F S1x512x1024 .bf16) (x4 : Vec F S1x1x1024 .f32) (x5 : Vec F S1024x8 .f32) (xs0 xs1 : Vec F S1024x1024 .f32) :
    sout0_C_0 c i arg3 harg3 arg4 harg4 arg5 harg5 arg6 harg6 arg7 harg7 arg8 harg8 arg9 harg9 arg10 harg10 arg11 harg11 hc0 hc1 hc2 hc3 x0 x1 x2 x3 x4 x5 xs0 xs1 = k0_pay1 (BitVec.ofNat 32 (i 1).val) x5 x4 xs0 (k0_pay4 x0 x1 x2 x3 xs1) := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 hc2 hc3 x0 x1 x2 x3 x4 x5 xs0 xs1)]
  unfold kernelRun0_C
  dsimp only
  try sl_unfold_words
  simp only [View.canon_unit_zero (S := S1024x1024) hz2, View.canon_cons_unit_zero (S := S1024x1024) hz2,
    View.readCov_unit_zero (S := S1024x1024) _ hz2, View.readAt_eq_ld, harg3.read_unread, harg4.read_unread,
    harg5.read_unread, harg6.read_unread, harg7.read_unread, harg8.read_unread, harg9.read_unread, harg10.read_unread,
    harg11.read_unread, View.ld_unit_zero (S := S1024x1024) hz2, View.ld_unit_zero (S := S1x1024x512) hz3,
    View.ld_unit_zero (S := S1x1x512) hz3, View.ld_unit_zero (S := S1x512x1024) hz3,
    View.ld_unit_zero (S := S1x1x1024) hz3, View.ld_unit_zero (S := S1024x8) hz2]

/-- The first chunk of a later expert: the products buffer is reset and given the first chunk. -/
theorem inner_D (c : Dev nD) (i : grid0.Coords) (arg3 : Memref sig .tc .vmem S1024x1024 .bf16) (harg3 : arg3.IsWhole) (arg4 : Memref sig .tc .vmem S1x1024x512 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1x1024 .f32) (harg7 : arg7.IsWhole) (arg8 : Memref sig .tc .vmem S1024x8 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : cond0_1 i) (hc2 : ¬cond0_2 i) (hc3 : ¬cond0_3 i)
    (x0 : Vec F S1024x1024 .bf16) (x1 : Vec F S1x1024x512 .bf16) (x2 : Vec F S1x1x512 .f32) (x3 : Vec F S1x512x1024 .bf16) (x4 : Vec F S1x1x1024 .f32) (x5 : Vec F S1024x8 .f32) (xs0 : Vec F S1024x1024 .f32) :
    sout0_D_1 c i arg3 harg3 arg4 harg4 arg5 harg5 arg6 harg6 arg7 harg7 arg8 harg8 arg9 harg9 arg10 harg10 arg11 harg11 hc0 hc1 hc2 hc3 x0 x1 x2 x3 x4 x5 xs0 = k0_pay4 x0 x1 x2 x3 k0_pay3 := by
  unfold sout0_D_1
  rw [View.read_writes_eq_canon _ _ _ (scover0_D_1 c i arg3 harg3 arg4 harg4 arg5 harg5 arg6 harg6 arg7 harg7 arg8 harg8 arg9 harg9 arg10 harg10 arg11 harg11 hc0 hc1 hc2 hc3 x0 x1 x2 x3 x4 x5 xs0)]
  unfold kernelRun0_D
  dsimp only
  try sl_unfold_words
  simp only [View.canon_unit_zero (S := S1024x1024) hz2, View.canon_cons_unit_zero (S := S1024x1024) hz2,
    View.readCov_unit_zero (S := S1024x1024) _ hz2, View.readAt_eq_ld, harg3.read_unread, harg4.read_unread,
    harg5.read_unread, harg6.read_unread, harg7.read_unread, harg8.read_unread, harg9.read_unread, harg10.read_unread,
    harg11.read_unread, View.ld_unit_zero (S := S1024x1024) hz2, View.ld_unit_zero (S := S1x1024x512) hz3,
    View.ld_unit_zero (S := S1x1x512) hz3, View.ld_unit_zero (S := S1x512x1024) hz3,
    View.ld_unit_zero (S := S1x1x1024) hz3, View.ld_unit_zero (S := S1024x8) hz2]

/-- The last chunk of the last expert: as for any expert's last chunk, -/
theorem inner_E (c : Dev nD) (i : grid0.Coords) (arg3 : Memref sig .tc .vmem S1024x1024 .bf16) (harg3 : arg3.IsWhole) (arg4 : Memref sig .tc .vmem S1x1024x512 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1x1024 .f32) (harg7 : arg7.IsWhole) (arg8 : Memref sig .tc .vmem S1024x8 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : ¬cond0_1 i) (hc2 : cond0_2 i) (hc3 : cond0_3 i)
    (x0 : Vec F S1024x1024 .bf16) (x1 : Vec F S1x1024x512 .bf16) (x2 : Vec F S1x1x512 .f32) (x3 : Vec F S1x512x1024 .bf16) (x4 : Vec F S1x1x1024 .f32) (x5 : Vec F S1024x8 .f32) (xs0 xs1 : Vec F S1024x1024 .f32) :
    sout0_E_1 c i arg3 harg3 arg4 harg4 arg5 harg5 arg6 harg6 arg7 harg7 arg8 harg8 arg9 harg9 arg10 harg10 arg11 harg11 hc0 hc1 hc2 hc3 x0 x1 x2 x3 x4 x5 xs0 xs1 = k0_pay4 x0 x1 x2 x3 xs1 := by
  unfold sout0_E_1
  rw [View.read_writes_eq_canon _ _ _ (scover0_E_1 c i arg3 harg3 arg4 harg4 arg5 harg5 arg6 harg6 arg7 harg7 arg8 harg8 arg9 harg9 arg10 harg10 arg11 harg11 hc0 hc1 hc2 hc3 x0 x1 x2 x3 x4 x5 xs0 xs1)]
  unfold kernelRun0_E
  dsimp only
  try sl_unfold_words
  simp only [View.canon_unit_zero (S := S1024x1024) hz2, View.canon_cons_unit_zero (S := S1024x1024) hz2,
    View.readCov_unit_zero (S := S1024x1024) _ hz2, View.readAt_eq_ld, harg3.read_unread, harg4.read_unread,
    harg5.read_unread, harg6.read_unread, harg7.read_unread, harg8.read_unread, harg9.read_unread, harg10.read_unread,
    harg11.read_unread, View.ld_unit_zero (S := S1024x1024) hz2, View.ld_unit_zero (S := S1x1024x512) hz3,
    View.ld_unit_zero (S := S1x1x512) hz3, View.ld_unit_zero (S := S1x512x1024) hz3,
    View.ld_unit_zero (S := S1x1x1024) hz3, View.ld_unit_zero (S := S1024x8) hz2]

theorem acc_E (c : Dev nD) (i : grid0.Coords) (arg3 : Memref sig .tc .vmem S1024x1024 .bf16) (harg3 : arg3.IsWhole) (arg4 : Memref sig .tc .vmem S1x1024x512 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1x1024 .f32) (harg7 : arg7.IsWhole) (arg8 : Memref sig .tc .vmem S1024x8 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : ¬cond0_1 i) (hc2 : cond0_2 i) (hc3 : cond0_3 i)
    (x0 : Vec F S1024x1024 .bf16) (x1 : Vec F S1x1024x512 .bf16) (x2 : Vec F S1x1x512 .f32) (x3 : Vec F S1x512x1024 .bf16) (x4 : Vec F S1x1x1024 .f32) (x5 : Vec F S1024x8 .f32) (xs0 xs1 : Vec F S1024x1024 .f32) :
    sout0_E_0 c i arg3 harg3 arg4 harg4 arg5 harg5 arg6 harg6 arg7 harg7 arg8 harg8 arg9 harg9 arg10 harg10 arg11 harg11 hc0 hc1 hc2 hc3 x0 x1 x2 x3 x4 x5 xs0 xs1 = k0_pay1 (BitVec.ofNat 32 (i 1).val) x5 x4 xs0 (k0_pay4 x0 x1 x2 x3 xs1) := by
  unfold sout0_E_0
  rw [View.read_writes_eq_canon _ _ _ (scover0_E_0 c i arg3 harg3 arg4 harg4 arg5 harg5 arg6 harg6 arg7 harg7 arg8 harg8 arg9 harg9 arg10 harg10 arg11 harg11 hc0 hc1 hc2 hc3 x0 x1 x2 x3 x4 x5 xs0 xs1)]
  unfold kernelRun0_E
  dsimp only
  try sl_unfold_words
  simp only [View.canon_unit_zero (S := S1024x1024) hz2, View.canon_cons_unit_zero (S := S1024x1024) hz2,
    View.readCov_unit_zero (S := S1024x1024) _ hz2, View.readAt_eq_ld, harg3.read_unread, harg4.read_unread,
    harg5.read_unread, harg6.read_unread, harg7.read_unread, harg8.read_unread, harg9.read_unread, harg10.read_unread,
    harg11.read_unread, View.ld_unit_zero (S := S1024x1024) hz2, View.ld_unit_zero (S := S1x1024x512) hz3,
    View.ld_unit_zero (S := S1x1x512) hz3, View.ld_unit_zero (S := S1x512x1024) hz3,
    View.ld_unit_zero (S := S1x1x1024) hz3, View.ld_unit_zero (S := S1024x8) hz2]

/-- and the output block is the result buffer after that update. -/
theorem out_E (c : Dev nD) (i : grid0.Coords) (arg3 : Memref sig .tc .vmem S1024x1024 .bf16) (harg3 : arg3.IsWhole) (arg4 : Memref sig .tc .vmem S1x1024x512 .bf16) (harg4 : arg4.IsWhole) (arg5 : Memref sig .tc .vmem S1x1x512 .f32) (harg5 : arg5.IsWhole) (arg6 : Memref sig .tc .vmem S1x512x1024 .bf16) (harg6 : arg6.IsWhole) (arg7 : Memref sig .tc .vmem S1x1x1024 .f32) (harg7 : arg7.IsWhole) (arg8 : Memref sig .tc .vmem S1024x8 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : ¬cond0_1 i) (hc2 : cond0_2 i) (hc3 : cond0_3 i)
    (x0 : Vec F S1024x1024 .bf16) (x1 : Vec F S1x1024x512 .bf16) (x2 : Vec F S1x1x512 .f32) (x3 : Vec F S1x512x1024 .bf16) (x4 : Vec F S1x1x1024 .f32) (x5 : Vec F S1024x8 .f32) (xs0 xs1 : Vec F S1024x1024 .f32) :
    out0_E_6 c i arg3 harg3 arg4 harg4 arg5 harg5 arg6 harg6 arg7 harg7 arg8 harg8 arg9 harg9 arg10 harg10 arg11 harg11 hc0 hc1 hc2 hc3 x0 x1 x2 x3 x4 x5 xs0 xs1 = k0_pay1 (BitVec.ofNat 32 (i 1).val) x5 x4 xs0 (k0_pay4 x0 x1 x2 x3 xs1) := by
  unfold out0_E_6
  rw [View.read_writes_eq_canon _ _ _ (cover0_E_6 c i arg3 harg3 arg4 harg4 arg5 harg5 arg6 harg6 arg7 harg7 arg8 harg8 arg9 harg9 arg10 harg10 arg11 harg11 hc0 hc1 hc2 hc3 x0 x1 x2 x3 x4 x5 xs0 xs1)]
  unfold kernelRun0_E
  dsimp only
  try sl_unfold_words
  simp only [View.canon_unit_zero (S := S1024x1024) hz2, View.canon_cons_unit_zero (S := S1024x1024) hz2,
    View.readCov_unit_zero (S := S1024x1024) _ hz2, View.readAt_eq_ld, harg3.read_unread, harg4.read_unread,
    harg5.read_unread, harg6.read_unread, harg7.read_unread, harg8.read_unread, harg9.read_unread, harg10.read_unread,
    harg11.read_unread, View.ld_unit_zero (S := S1024x1024) hz2, View.ld_unit_zero (S := S1x1024x512) hz3,
    View.ld_unit_zero (S := S1x1x512) hz3, View.ld_unit_zero (S := S1x512x1024) hz3,
    View.ld_unit_zero (S := S1x1x1024) hz3, View.ld_unit_zero (S := S1024x8) hz2]

end Cert.KernelIdeal.KVal

end
-- ==== Proof.KBlocks.lean ====
/-
  The blocks the body loads at a grid point, read off the arrays the region is launched on. Point t of the 8×8×8 grid
  is row block t / 64, expert t / 8 mod 8, hidden chunk t mod 8. The token block holds rows 1024·(t/64) … of x and of
  the gate masses; the first-layer blocks hold, of expert t/8 mod 8, columns 512·(t mod 8) … of its weights and bias;
  the second-layer weight block rows 512·(t mod 8) … of that expert's weights; the second bias block that expert's
  row. The arrays the region finds are the arguments themselves (a change of float format is the identity on the
  extended reals), the biases re-shaped with a unit middle axis, and the gate masses the host computed before the call.
-/
import proofs.«141319_j14516989460789_2_alg».proof.Proof.Gen.KernelIdeal.Frame
import Idealize.ShloMosaic.PureOps.Ideal
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem

namespace Cert.KernelIdeal.KVal

open Cert.KernelIdeal Cert.KernelIdeal.Gen

/-! ## Where each window's block sits -/

theorem idx0 : ∀ t : Fin cfg0.N, win0_0.index t 0 = t.val / 64 ∧ win0_0.index t 1 = 0 :=
  (by decide +kernel : ∀ t : Fin grid0.N, win0_0.index t 0 = t.val / 64 ∧ win0_0.index t 1 = 0)
theorem idx1 : ∀ t : Fin cfg0.N, win0_1.index t 0 = t.val / 8 % 8 ∧ win0_1.index t 1 = 0 ∧ win0_1.index t 2 = t.val % 8 :=
  (by decide +kernel : ∀ t : Fin grid0.N, win0_1.index t 0 = t.val / 8 % 8 ∧ win0_1.index t 1 = 0 ∧ win0_1.index t 2 = t.val % 8)
theorem idx2 : ∀ t : Fin cfg0.N, win0_2.index t 0 = t.val / 8 % 8 ∧ win0_2.index t 1 = 0 ∧ win0_2.index t 2 = t.val % 8 :=
  (by decide +kernel : ∀ t : Fin grid0.N, win0_2.index t 0 = t.val / 8 % 8 ∧ win0_2.index t 1 = 0 ∧ win0_2.index t 2 = t.val % 8)
theorem idx3 : ∀ t : Fin cfg0.N, win0_3.index t 0 = t.val / 8 % 8 ∧ win0_3.index t 1 = t.val % 8 ∧ win0_3.index t 2 = 0 :=
  (by decide +kernel : ∀ t : Fin grid0.N, win0_3.index t 0 = t.val / 8 % 8 ∧ win0_3.index t 1 = t.val % 8 ∧ win0_3.index t 2 = 0)
theorem idx4 : ∀ t : Fin cfg0.N, win0_4.index t 0 = t.val / 8 % 8 ∧ win0_4.index t 1 = 0 ∧ win0_4.index t 2 = 0 :=
  (by decide +kernel : ∀ t : Fin grid0.N, win0_4.index t 0 = t.val / 8 % 8 ∧ win0_4.index t 1 = 0 ∧ win0_4.index t 2 = 0)
theorem idx5 : ∀ t : Fin cfg0.N, win0_5.index t 0 = t.val / 64 ∧ win0_5.index t 1 = 0 :=
  (by decide +kernel : ∀ t : Fin grid0.N, win0_5.index t 0 = t.val / 64 ∧ win0_5.index t 1 = 0)
theorem idx6 : ∀ t : Fin cfg0.N, win0_6.index t 0 = t.val / 64 ∧ win0_6.index t 1 = 0 :=
  (by decide +kernel : ∀ t : Fin grid0.N, win0_6.index t 0 = t.val / 64 ∧ win0_6.index t 1 = 0)

/-- The grid coordinates of point t. -/
theorem coords_val : ∀ t : Fin cfg0.N, (grid0.coords t 0).val = t.val / 64 ∧ (grid0.coords t 1).val = t.val / 8 % 8
    ∧ (grid0.coords t 2).val = t.val % 8 :=
  (by decide +kernel : ∀ t : Fin grid0.N, (grid0.coords t 0).val = t.val / 64 ∧ (grid0.coords t 1).val = t.val / 8 % 8
    ∧ (grid0.coords t 2).val = t.val % 8)

section Blocks

variable {F : FTy → Type} [FloatOps F]
variable (m : (ℓ : Loc nD τ sig) → Buf (Elt F) ℓ)

/-- The token block: rows 1024·(t/64) … of the tokens. -/
theorem iblk0_apply (c : Dev nD) (t : Fin cfg0.N) (x : S1024x1024.Idx) (k : S8192x1024.Idx)
    (hk0 : (k 0).val = 1024 * (t.val / 64) + (x 0).val) (hk1 : (k 1).val = (x 1).val) :
    (iblk m c 0 t : Vec F S1024x1024 .bf16) x = (V m c main_v11 : S8192x1024.Idx → Elt F .bf16) k := by
  have hi := idx0 t
  unfold iblk
  rw [View.read_apply]
  show V m c main_v11 _ = V m c main_v11 _
  congr 1
  funext a
  apply Fin.ext
  match a with
  | ⟨0, _⟩ => show win0_0.index t 0 * 1024 + 1 * (x 0).val = (k 0).val; rw [hi.1, hk0]; omega
  | ⟨1, _⟩ => show win0_0.index t 1 * 1024 + 1 * (x 1).val = (k 1).val; rw [hi.2, hk1]; omega

/-- The first weights' block: of expert t/8 mod 8, columns 512·(t mod 8) …. -/
theorem iblk1_apply (c : Dev nD) (t : Fin cfg0.N) (x : S1x1024x512.Idx) (k : S8x1024x4096.Idx)
    (hk0 : (k 0).val = t.val / 8 % 8 + (x 0).val) (hk1 : (k 1).val = (x 1).val)
    (hk2 : (k 2).val = 512 * (t.val % 8) + (x 2).val) :
    (iblk m c 1 t : Vec F S1x1024x512 .bf16) x = (V m c main_v12 : S8x1024x4096.Idx → Elt F .bf16) k := by
  have hi := idx1 t
  unfold iblk
  rw [View.read_apply]
  show V m c main_v12 _ = V m c main_v12 _
  congr 1
  funext a
  apply Fin.ext
  match a with
  | ⟨0, _⟩ => show win0_1.index t 0 * 1 + 1 * (x 0).val = (k 0).val; rw [hi.1, hk0]; omega
  | ⟨1, _⟩ => show win0_1.index t 1 * 1024 + 1 * (x 1).val = (k 1).val; rw [hi.2.1, hk1]; omega
  | ⟨2, _⟩ => show win0_1.index t 2 * 512 + 1 * (x 2).val = (k 2).val; rw [hi.2.2, hk2]; omega

/-- The first bias block. -/
theorem iblk2_apply (c : Dev nD) (t : Fin cfg0.N) (x : S1x1x512.Idx) (k : S8x1x4096.Idx)
    (hk0 : (k 0).val = t.val / 8 % 8 + (x 0).val) (hk1 : (k 1).val = (x 1).val)
    (hk2 : (k 2).val = 512 * (t.val % 8) + (x 2).val) :
    (iblk m c 2 t : Vec F S1x1x512 .f32) x = (V m c main_v14 : S8x1x4096.Idx → Elt F .f32) k := by
  have hi := idx2 t
  unfold iblk
  rw [View.read_apply]
  show V m c main_v14 _ = V m c main_v14 _
  congr 1
  funext a
  apply Fin.ext
  match a with
  | ⟨0, _⟩ => show win0_2.index t 0 * 1 + 1 * (x 0).val = (k 0).val; rw [hi.1, hk0]; omega
  | ⟨1, _⟩ => show win0_2.index t 1 * 1 + 1 * (x 1).val = (k 1).val; rw [hi.2.1, hk1]; omega
  | ⟨2, _⟩ => show win0_2.index t 2 * 512 + 1 * (x 2).val = (k 2).val; rw [hi.2.2, hk2]; omega

/-- The second weights' block: of expert t/8 mod 8, rows 512·(t mod 8) …. -/
theorem iblk3_apply (c : Dev nD) (t : Fin cfg0.N) (x : S1x512x1024.Idx) (k : S8x4096x1024.Idx)
    (hk0 : (k 0).val = t.val / 8 % 8 + (x 0).val) (hk1 : (k 1).val = 512 * (t.val % 8) + (x 1).val)
    (hk2 : (k 2).val = (x 2).val) :
    (iblk m c 3 t : Vec F S1x512x1024 .bf16) x = (V m c main_v13 : S8x4096x1024.Idx → Elt F .bf16) k := by
  have hi := idx3 t
  unfold iblk
  rw [View.read_apply]
  show V m c main_v13 _ = V m c main_v13 _
  congr 1
  funext a
  apply Fin.ext
  match a with
  | ⟨0, _⟩ => show win0_3.index t 0 * 1 + 1 * (x 0).val = (k 0).val; rw [hi.1, hk0]; omega
  | ⟨1, _⟩ => show win0_3.index t 1 * 512 + 1 * (x 1).val = (k 1).val; rw [hi.2.1, hk1]; omega
  | ⟨2, _⟩ => show win0_3.index t 2 * 1024 + 1 * (x 2).val = (k 2).val; rw [hi.2.2, hk2]; omega

/-- The second bias block: expert t/8 mod 8's row. -/
theorem iblk4_apply (c : Dev nD) (t : Fin cfg0.N) (x : S1x1x1024.Idx) (k : S8x1x1024.Idx)
    (hk0 : (k 0).val = t.val / 8 % 8 + (x 0).val) (hk1 : (k 1).val = (x 1).val) (hk2 : (k 2).val = (x 2).val) :
    (iblk m c 4 t : Vec F S1x1x1024 .f32) x = (V m c main_v15 : S8x1x1024.Idx → Elt F .f32) k := by
  have hi := idx4 t
  unfold iblk
  rw [View.read_apply]
  show V m c main_v15 _ = V m c main_v15 _
  congr 1
  funext a
  apply Fin.ext
  match a with
  | ⟨0, _⟩ => show win0_4.index t 0 * 1 + 1 * (x 0).val = (k 0).val; rw [hi.1, hk0]; omega
  | ⟨1, _⟩ => show win0_4.index t 1 * 1 + 1 * (x 1).val = (k 1).val; rw [hi.2.1, hk1]; omega
  | ⟨2, _⟩ => show win0_4.index t 2 * 1024 + 1 * (x 2).val = (k 2).val; rw [hi.2.2, hk2]; omega

/-- The gate-mass block: rows 1024·(t/64) … of the gate masses. -/
theorem iblk5_apply (c : Dev nD) (t : Fin cfg0.N) (x : S1024x8.Idx) (k : S8192x8.Idx)
    (hk0 : (k 0).val = 1024 * (t.val / 64) + (x 0).val) (hk1 : (k 1).val = (x 1).val) :
    (iblk m c 5 t : Vec F S1024x8 .f32) x = (V m c main_v10 : S8192x8.Idx → Elt F .f32) k := by
  have hi := idx5 t
  unfold iblk
  rw [View.read_apply]
  show V m c main_v10 _ = V m c main_v10 _
  congr 1
  funext a
  apply Fin.ext
  match a with
  | ⟨0, _⟩ => show win0_5.index t 0 * 1024 + 1 * (x 0).val = (k 0).val; rw [hi.1, hk0]; omega
  | ⟨1, _⟩ => show win0_5.index t 1 * 8 + 1 * (x 1).val = (k 1).val; rw [hi.2, hk1]; omega

end Blocks

/-! ## The arrays the region finds, on the extended reals -/

section Arrays

variable (m : (ℓ : Loc nD τ sig) → Buf (Elt Ideal) ℓ)

theorem V11 (c : Dev nD) : (V m c main_v11 : S8192x1024.Idx → EReal) = m ((c : Thread nD τ).loc main_arg0) := by
  dsimp only [Gen.V, Gen.hostOps0]; after_results; rfl
theorem V12 (c : Dev nD) : (V m c main_v12 : S8x1024x4096.Idx → EReal) = m ((c : Thread nD τ).loc main_arg3) := by
  dsimp only [Gen.V, Gen.hostOps0]; after_results; rfl
theorem V13 (c : Dev nD) : (V m c main_v13 : S8x4096x1024.Idx → EReal) = m ((c : Thread nD τ).loc main_arg5) := by
  dsimp only [Gen.V, Gen.hostOps0]; after_results; rfl
theorem V14 (c : Dev nD) : (V m c main_v14 : S8x1x4096.Idx → EReal)
    = shapeCast S8x1x4096 (m ((c : Thread nD τ).loc main_arg4) : S8x4096.Idx → EReal) shapeCasts_S8x4096_S8x1x4096 := by
  dsimp only [Gen.V, Gen.hostOps0]; after_results; rfl
theorem V15 (c : Dev nD) : (V m c main_v15 : S8x1x1024.Idx → EReal)
    = shapeCast S8x1x1024 (m ((c : Thread nD τ).loc main_arg6) : S8x1024.Idx → EReal) shapeCasts_S8x1024_S8x1x1024 := by
  dsimp only [Gen.V, Gen.hostOps0]; after_results; rfl
theorem V10 (c : Dev nD) : (V m c main_v10 : S8192x8.Idx → EReal)
    = Host.reduceAdd (F := Ideal)
        (mulf (broadcastInDim S8192x2x8 ![0, 1, 2] bcast_S8192x2x1_S8192x2x8_0_1_2
            (broadcastInDim S8192x2x1 ![0, 1] bcast_S8192x2_S8192x2x1_0_1
              (m ((c : Thread nD τ).loc main_arg2) : S8192x2.Idx → EReal)))
          (uitofp .f32 (cmpi .eq
            (broadcastInDim S8192x2x8 ![0, 1, 2] bcast_S8192x2x1_S8192x2x8_0_1_2
              (broadcastInDim S8192x2x1 ![0, 1] bcast_S8192x2_S8192x2x1_0_1
                (m ((c : Thread nD τ).loc main_arg1) : S8192x2.Idx → BitVec 32)))
            (broadcastInDim S8192x2x8 ![0, 1, 2] bcast_S1x1x8_S8192x2x8_0_1_2
              (broadcastInDim S1x1x8 ![2] bcast_S8_S1x1x8_2 (iotaInDim S8 32 0))))))
        (constant S_ .f32 0x00000000#32) reducesTo_S8192x2x8_S8192x8_d1 h_S_ := by
  dsimp only [Gen.V, Gen.hostOps0]; after_results

end Arrays

end Cert.KernelIdeal.KVal

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«141319_j14516989460789_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«141319_j14516989460789_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«141319_j14516989460789_2_alg».proof.Proof.LibBlockReads
import proofs.«141319_j14516989460789_2_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibDenseLayers.lean ====
/-
  Dense layers on the extended reals, as functions of whole arrays.

  A layer takes an r×k array X, a k×n array W and a vector b of n entries to the r×n array whose entry (p, q) is the
  sum over c of X(p, c) · W(c, q), plus b(q) — `affine` — or the maximum of that and zero — `dense`. An entry of a
  layer's result depends on one row of X, one column of W and one entry of b, so a layer applied to some rows of X
  (and to some columns of W with the matching entries of b) gives those rows (and columns) of the layer applied to
  the whole arrays: `dense_rows`, `affine_rows`, `affine_block`, with the row and column maps as variables. The two
  spellings of the bias are read once — a kernel body's (the vector re-shaped to a 1×n row, broadcast down the rows,
  added: `body_bias`, and with the maximum with a splat of the zero word: `body_bias_max`) and a host program's (the
  vector broadcast into a 1×n row and that into the r×n array, added: `host_bias`; with the maximum it is
  `Cert.Lib.BiasRelu.host_eq`) — and `max_biasAdd` takes the maximum of an already-read bias with the zero splat
  (the form a rewriting pass meets, since it reads the inner sum first). Sums and maxima on the extended reals need no
  finiteness here: nothing is distributed or cancelled. Nothing here mentions a program.
-/
import Idealize.ShloMosaic.PureOps.Ideal.Laws
import Idealize.ShloMosaic.Lib.ValueIdx
import Idealize.ShloMosaic.Lib.Pipeline.Value
import proofs.«141319_j14516989460789_2_alg».proof.Proof.LibMatProd
import proofs.«141319_j14516989460789_2_alg».proof.Proof.LibBiasRelu
import proofs.«141319_j14516989460789_2_alg».proof.Proof.LibRowVector
import proofs.«141319_j14516989460789_2_alg».proof.Proof.LibBlockReads

open scoped BigOperators

noncomputable section

namespace Cert.Layers

open Idealize.ShloMosaic Idealize.ShloMosaic.ValueIdx Cert.Lib.MatProd Cert.Lib.BiasRelu Cert.Lib.RowVector

variable {r r' k n n' : Nat}

/-- Entry (p, q) is X(p, q) + b(0, q). -/
def biasAdd (X : (⟨2, ![r, n]⟩ : Shape).Idx → EReal) (b : (⟨2, ![1, n]⟩ : Shape).Idx → EReal) :
    (⟨2, ![r, n]⟩ : Shape).Idx → EReal :=
  fun i => X i + b (ix2 (0 : Fin 1) (⟨(i 1).val, idx2_lt1 i⟩ : Fin n))

theorem biasAdd_apply (X : (⟨2, ![r, n]⟩ : Shape).Idx → EReal) (b : (⟨2, ![1, n]⟩ : Shape).Idx → EReal)
    (p : Fin r) (q : Fin n) : biasAdd X b (ix2 p q) = X (ix2 p q) + b (ix2 0 q) := rfl

/-- A layer with the maximum: entry (p, q) is max (∑ c, X(p, c) · W(c, q) + b(q)) 0. -/
def dense (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasRelu (matProd X W) (asRow b)

/-- A layer without it: entry (p, q) is ∑ c, X(p, c) · W(c, q) + b(q). -/
def affine (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasAdd (matProd X W) (asRow b)

/-- If row p of X' is row ρ p of X, row p of `dense X' W b` is row ρ p of `dense X W b`. -/
theorem dense_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    dense X' W b (ix2 p q) = dense X W b (ix2 (ρ p) q) :=
  biasRelu_rows _ _ _ p (ρ p) q (matProd_block X X' W W p q (ρ p) q (h p) fun _ => rfl)

/-- The same for a layer without the maximum, a block of columns of W and the matching entries of b taken as well:
    if also column q of W' is column γ q of W and entry q of b' is entry γ q of b, entry (p, q) of
    `affine X' W' b'` is entry (ρ p, γ q) of `affine X W b`. -/
theorem affine_block (X : (⟨2, ![r, k]⟩ : Shape).Idx → EReal) (X' : (⟨2, ![r', k]⟩ : Shape).Idx → EReal)
    (W : (⟨2, ![k, n]⟩ : Shape).Idx → EReal) (W' : (⟨2, ![k, n']⟩ : Shape).Idx → EReal)
    (b : (⟨1, ![n]⟩ : Shape).Idx → EReal) (b' : (⟨1, ![n']⟩ : Shape).Idx → EReal)
    (ρ : Fin r' → Fin r) (γ : Fin n' → Fin n)
    (hX : ∀ (p : Fin r') (c : Fin k), X' (ix2 p c) = X (ix2 (ρ p) c))
    (hW : ∀ (c : Fin k) (q : Fin n'), W' (ix2 c q) = W (ix2 c (γ q)))
    (hb : ∀ q : Fin n', b' (ix1 q) = b (ix1 (γ q))) (p : Fin r') (q : Fin n') :
    affine X' W' b' (ix2 p q) = affine X W b (ix2 (ρ p) (γ q)) := by
  unfold affine
  rw [biasAdd_apply, biasAdd_apply, asRow_apply, asRow_apply, hb q,
    matProd_block X X' W W' p q (ρ p) (γ q) (hX p) fun c => hW c q]

theorem affine_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    affine X' W b (ix2 p q) = affine X W b (ix2 (ρ p) q) :=
  affine_block X X' W W b b ρ id h (fun _ _ => rfl) (fun _ => rfl) p q

/-! ## The two spellings of a layer's bias and maximum -/

/-- The kernel body's bias: the vector re-shaped to a 1×n row and broadcast down the rows, then added. -/
theorem body_bias (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    addf M (broadcastTo ⟨2, ![r, n]⟩ (shapeCast ⟨2, ![1, n]⟩ v h) hb) = biasAdd M (asRow v) := by
  funext i
  obtain ⟨p, q, rfl⟩ : ∃ (p : Fin r) (q : Fin n), i = ix2 p q := ⟨i 0, i 1, eq_ix2 i⟩
  rw [addf_apply, Cert.Lib.BlockReads.broadcast_row_apply, shapeCast_eq_asRow]
  rfl

/-- The kernel body's bias and maximum with a splat of the zero word. -/
theorem body_bias_max (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    maximumf (addf M (broadcastTo ⟨2, ![r, n]⟩ (shapeCast ⟨2, ![1, n]⟩ v h) hb))
      (broadcast ⟨2, ![r, n]⟩ (Scalar.ofBits (F := Ideal) .f32 0x00000000#32)) = biasRelu M (asRow v) := by
  funext i
  obtain ⟨p, q, rfl⟩ : ∃ (p : Fin r) (q : Fin n), i = ix2 p q := ⟨i 0, i 1, eq_ix2 i⟩
  rw [maximumf_apply, addf_apply, Cert.Lib.BlockReads.broadcast_row_apply, shapeCast_eq_asRow]
  rfl

/-- The reference's bias: the vector broadcast into a 1×n row and that into the r×n array, then added. -/
theorem host_bias (M : FVec Ideal ⟨2, ![r, n]⟩ .f32) (v : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf M (broadcastInDim ⟨2, ![r, n]⟩ ![0, 1] h2 (broadcastInDim ⟨2, ![1, n]⟩ ![1] h1 v)) = biasAdd M (asRow v) := by
  funext i
  obtain ⟨p, q, rfl⟩ : ∃ (p : Fin r) (q : Fin n), i = ix2 p q := ⟨i 0, i 1, eq_ix2 i⟩
  rw [addf_apply, bcastInDim_rows_apply, bcastInDim_eq_asRow]
  rfl

/-- The maximum of a biased matrix with a splat of the zero word is the bias and maximum in one. -/
theorem max_biasAdd (M : (⟨2, ![r, n]⟩ : Shape).Idx → EReal) (b : (⟨2, ![1, n]⟩ : Shape).Idx → EReal) :
    maximumf (F := Ideal) (s := ⟨2, ![r, n]⟩) (φ := .f32) (biasAdd M b)
      (broadcast ⟨2, ![r, n]⟩ (FloatOps.ofBits (F := Ideal) .f32 0x00000000#32)) = biasRelu M b := by
  funext i
  rw [maximumf_apply]
  rfl

end Cert.Layers

end
-- ==== Proof.MoeSpec.lean ====
/-
  A mixture-of-experts layer on the extended reals, as one function of whole arrays.

  There are E experts. Expert e is a dense layer with the maximum with zero (weights W1 e, bias b1 e) followed by a
  layer without it (weights W2 e, bias b2 e), applied to every row of X. Token p carries K expert numbers T(p, ·) and
  K weights Wt(p, ·); its gate mass for expert e is the zero word's value plus the sum over j of Wt(p, j) times one or
  zero as T(p, j) is or is not the number e. The layer's result at (p, q) is the zero word's value with the experts'
  terms gate(p, e) · out_e(p, q) added to it one after the other, e = 0, 1, …, E − 1, in that order.
  Nothing here mentions a program.
-/
import Idealize.ShloMosaic.PureOps.Ideal.Laws
import Idealize.ShloMosaic.Lib.ValueIdx
import proofs.«141319_j14516989460789_2_alg».proof.Proof.LibMatProd
import proofs.«141319_j14516989460789_2_alg».proof.Proof.LibDenseLayers

open scoped BigOperators

noncomputable section

namespace Cert.Moe

open Idealize.ShloMosaic Idealize.ShloMosaic.ValueIdx Cert.Lib.MatProd Cert.Layers

variable {E B K k h n : Nat}

/-- Matrix e of a stack of E matrices: entry (a, b) is W(e, a, b). -/
def slab (W : (⟨3, ![E, k, n]⟩ : Shape).Idx → EReal) (e : Fin E) : (⟨2, ![k, n]⟩ : Shape).Idx → EReal :=
  fun i => W (ix3 e (i 0) (i 1))

theorem slab_apply (W : (⟨3, ![E, k, n]⟩ : Shape).Idx → EReal) (e : Fin E) (a : Fin k) (b : Fin n) :
    slab W e (ix2 a b) = W (ix3 e a b) := rfl

/-- Row e of an E×n array, as a vector. -/
def rowOf (b : (⟨2, ![E, n]⟩ : Shape).Idx → EReal) (e : Fin E) : (⟨1, ![n]⟩ : Shape).Idx → EReal :=
  fun i => b (ix2 e (i 0))

theorem rowOf_apply (b : (⟨2, ![E, n]⟩ : Shape).Idx → EReal) (e : Fin E) (q : Fin n) :
    rowOf b e (ix1 q) = b (ix2 e q) := rfl

/-- One or zero, as the word t is or is not the word c. -/
def hit (t c : BitVec 32) : EReal := (((IntOp.cmpi .eq t c).toNat : ℝ) : EReal)

/-- The gate mass of token p for the expert whose number is the word c. -/
def gate (T : (⟨2, ![B, K]⟩ : Shape).Idx → BitVec 32) (Wt : (⟨2, ![B, K]⟩ : Shape).Idx → EReal) (c : BitVec 32)
    (p : Fin B) : EReal :=
  Ideal.ofBits .f32 0x00000000#32 + ∑ j : Fin K, Wt (ix2 p j) * hit (T (ix2 p j)) c

/-- Expert e applied to every row of X. -/
def expertOut (X : (⟨2, ![B, k]⟩ : Shape).Idx → EReal) (W1 : (⟨3, ![E, k, h]⟩ : Shape).Idx → EReal)
    (b1 : (⟨2, ![E, h]⟩ : Shape).Idx → EReal) (W2 : (⟨3, ![E, h, n]⟩ : Shape).Idx → EReal)
    (b2 : (⟨2, ![E, n]⟩ : Shape).Idx → EReal) (e : Fin E) : (⟨2, ![B, n]⟩ : Shape).Idx → EReal :=
  affine (dense X (slab W1 e) (rowOf b1 e)) (slab W2 e) (rowOf b2 e)

/-- Expert e's term of the result: the token's gate mass for e times e's output. -/
def term (X : (⟨2, ![B, k]⟩ : Shape).Idx → EReal) (T : (⟨2, ![B, K]⟩ : Shape).Idx → BitVec 32)
    (Wt : (⟨2, ![B, K]⟩ : Shape).Idx → EReal) (W1 : (⟨3, ![E, k, h]⟩ : Shape).Idx → EReal)
    (b1 : (⟨2, ![E, h]⟩ : Shape).Idx → EReal) (W2 : (⟨3, ![E, h, n]⟩ : Shape).Idx → EReal)
    (b2 : (⟨2, ![E, n]⟩ : Shape).Idx → EReal) (e : Fin E) : (⟨2, ![B, n]⟩ : Shape).Idx → EReal :=
  fun i => gate T Wt (BitVec.ofNat 32 e.val) (i 0) * expertOut X W1 b1 W2 b2 e i

/-- The zero word's value with the terms of experts 0, …, m − 1 added in that order. -/
def partialSum (X : (⟨2, ![B, k]⟩ : Shape).Idx → EReal) (T : (⟨2, ![B, K]⟩ : Shape).Idx → BitVec 32)
    (Wt : (⟨2, ![B, K]⟩ : Shape).Idx → EReal) (W1 : (⟨3, ![E, k, h]⟩ : Shape).Idx → EReal)
    (b1 : (⟨2, ![E, h]⟩ : Shape).Idx → EReal) (W2 : (⟨3, ![E, h, n]⟩ : Shape).Idx → EReal)
    (b2 : (⟨2, ![E, n]⟩ : Shape).Idx → EReal) : ℕ → (⟨2, ![B, n]⟩ : Shape).Idx → EReal
  | 0 => fun _ => Ideal.ofBits .f32 0x00000000#32
  | m + 1 => fun i => partialSum X T Wt W1 b1 W2 b2 m i
      + (if hm : m < E then term X T Wt W1 b1 W2 b2 ⟨m, hm⟩ i else 0)

/-- The layer: all E terms added. -/
def moe (X : (⟨2, ![B, k]⟩ : Shape).Idx → EReal) (T : (⟨2, ![B, K]⟩ : Shape).Idx → BitVec 32)
    (Wt : (⟨2, ![B, K]⟩ : Shape).Idx → EReal) (W1 : (⟨3, ![E, k, h]⟩ : Shape).Idx → EReal)
    (b1 : (⟨2, ![E, h]⟩ : Shape).Idx → EReal) (W2 : (⟨3, ![E, h, n]⟩ : Shape).Idx → EReal)
    (b2 : (⟨2, ![E, n]⟩ : Shape).Idx → EReal) : (⟨2, ![B, n]⟩ : Shape).Idx → EReal :=
  partialSum X T Wt W1 b1 W2 b2 E

end Cert.Moe

end
-- ==== Proof.LibMoeBody.lean ====
/-
  A kernel body's spelling of the steps of a mixture-of-experts layer, on the extended reals, read as whole-array
  functions of the blocks the body loads. Four pieces: a block with a unit leading axis viewed without it (`slab` at
  0; a 1×1×n block as a vector, `lastVec`); one hidden-chunk step — a product into zeros, a bias row, the maximum
  with zero, a second product into zeros, added to what was accumulated (`chunk_step`); a token's gate mass for the
  expert whose number is a given word picked out of a row of gate masses by a lane sum against a one-hot mask
  (`gate_lane_sum`); and the per-expert update of the result — the accumulated products plus a bias row, times the
  gate mass down the rows, added (`expert_step_apply`). Nothing here mentions a program.
-/
import Idealize.ShloMosaic.PureOps.Ideal.Laws
import Idealize.ShloMosaic.Lib.ValueIdx
import Idealize.ShloMosaic.Lib.Pipeline.Value
import proofs.«141319_j14516989460789_2_alg».proof.Proof.MoeSpec
import proofs.«141319_j14516989460789_2_alg».proof.Proof.LibBlockReads
import proofs.«141319_j14516989460789_2_alg».proof.Proof.LibRowReductions

open scoped BigOperators

noncomputable section

namespace Cert.Lib.MoeBody

open Idealize.ShloMosaic Idealize.ShloMosaic.ValueIdx Cert.Lib.MatProd Cert.Lib.BiasRelu Cert.Lib.RowVector
  Cert.Layers Cert.Moe

variable {α : Type} {r k c n L : Nat}

/-- A 1×1×n block as a vector of n entries. -/
def lastVec (x : (⟨3, ![1, 1, n]⟩ : Shape).Idx → α) : (⟨1, ![n]⟩ : Shape).Idx → α :=
  fun i => x (ix3 (0 : Fin 1) (0 : Fin 1) (i 0))

theorem lastVec_apply (x : (⟨3, ![1, 1, n]⟩ : Shape).Idx → α) (q : Fin n) :
    lastVec x (ix1 q) = x (ix3 0 0 q) := rfl

/-- The re-shaping [1,1,n]→[n] is `lastVec`. -/
theorem shapeCast_lastVec (x : (⟨3, ![1, 1, n]⟩ : Shape).Idx → α)
    (h : (⟨3, ![1, 1, n]⟩ : Shape).ShapeCasts ⟨1, ![n]⟩) : shapeCast ⟨1, ![n]⟩ x h = lastVec x := by
  funext i
  obtain ⟨q, rfl⟩ : ∃ q : Fin n, i = ix1 q := ⟨i 0, eq_ix1 i⟩
  exact shapeCast_apply x h (ix1 q) (ix3 (0 : Fin 1) (0 : Fin 1) q)
    (by rw [Shape.rowMajor_val_three, Shape.rowMajor_val_one]; show (0 * 1 + 0) * n + q.val = q.val; omega)

/-- The re-shaping [1,k,n]→[k,n] is matrix 0 of the one-matrix stack. -/
theorem shapeCast_dropLead (x : (⟨3, ![1, k, n]⟩ : Shape).Idx → EReal)
    (h : (⟨3, ![1, k, n]⟩ : Shape).ShapeCasts ⟨2, ![k, n]⟩) : shapeCast ⟨2, ![k, n]⟩ x h = slab x 0 := by
  funext i
  obtain ⟨a, b, rfl⟩ : ∃ (a : Fin k) (b : Fin n), i = ix2 a b := ⟨i 0, i 1, eq_ix2 i⟩
  exact shapeCast_apply x h (ix2 a b) (ix3 (0 : Fin 1) a b)
    (by rw [Shape.rowMajor_val_three, Shape.rowMajor_val_two]
        show (0 * k + a.val) * n + b.val = a.val * n + b.val
        rw [Nat.zero_mul, Nat.zero_add])

/-- One hidden-chunk step of the body: the block of rows times the chunk's columns of the first weights into zeros,
    the chunk's bias row, the maximum with zero, times the chunk's rows of the second weights into zeros, added to
    what was accumulated. -/
theorem chunk_step {φ₁ φ₂ φ₃ : FTy} (x : FVec Ideal ⟨2, ![r, k]⟩ φ₁) (w1 : FVec Ideal ⟨3, ![1, k, c]⟩ φ₂)
    (b1 : FVec Ideal ⟨3, ![1, 1, c]⟩ .f32) (w2 : FVec Ideal ⟨3, ![1, c, n]⟩ φ₃) (inner : FVec Ideal ⟨2, ![r, n]⟩ .f32)
    (d1 : DotDims ⟨2, ![r, k]⟩ ⟨2, ![k, c]⟩ ⟨2, ![r, c]⟩) (d2 : DotDims ⟨2, ![r, c]⟩ ⟨2, ![c, n]⟩ ⟨2, ![r, n]⟩)
    (h1lc : d1.lhsContracting = [1]) (h1rc : d1.rhsContracting = [0]) (h1ln : d1.lhsNonContracting = [0])
    (h1rn : d1.rhsNonContracting = [1]) (h1lb : d1.lhsBatch = []) (h1rb : d1.rhsBatch = [])
    (h2lc : d2.lhsContracting = [1]) (h2rc : d2.rhsContracting = [0]) (h2ln : d2.lhsNonContracting = [0])
    (h2rn : d2.rhsNonContracting = [1]) (h2lb : d2.lhsBatch = []) (h2rb : d2.rhsBatch = [])
    (hx : (⟨2, ![r, k]⟩ : Shape).ShapeCasts ⟨2, ![r, k]⟩)
    (hw1 : (⟨3, ![1, k, c]⟩ : Shape).ShapeCasts ⟨2, ![k, c]⟩)
    (hb1 : (⟨3, ![1, 1, c]⟩ : Shape).ShapeCasts ⟨1, ![c]⟩) (hb1' : (⟨1, ![c]⟩ : Shape).ShapeCasts ⟨2, ![1, c]⟩)
    (hbc : (⟨2, ![1, c]⟩ : Shape).Broadcasts ⟨2, ![r, c]⟩) (hlt : FTy.bits .bf16 < FTy.bits .f32)
    (hw2 : (⟨3, ![1, c, n]⟩ : Shape).ShapeCasts ⟨2, ![c, n]⟩)
    (hs : (⟨2, ![r, n]⟩ : Shape).ShapeCasts ⟨2, ![r, n]⟩) :
    shapeCast ⟨2, ![r, n]⟩
      (addf inner
        (matmul d2 none
          (truncf .bf16
            (maximumf
              (addf (matmul d1 none (shapeCast ⟨2, ![r, k]⟩ x hx) (shapeCast ⟨2, ![k, c]⟩ w1 hw1)
                  (constant ⟨2, ![r, c]⟩ .f32 0x00000000#32))
                (broadcastTo ⟨2, ![r, c]⟩ (shapeCast ⟨2, ![1, c]⟩ (shapeCast ⟨1, ![c]⟩ b1 hb1) hb1') hbc))
              (broadcast ⟨2, ![r, c]⟩ (Scalar.ofBits (F := Ideal) .f32 0x00000000#32))) hlt)
          (shapeCast ⟨2, ![c, n]⟩ w2 hw2) (constant ⟨2, ![r, n]⟩ .f32 0x00000000#32))) hs
      = fun i => inner i + matProd (dense x (slab w1 0) (lastVec b1)) (slab w2 0) i := by
  rw [shapeCast_self, shapeCast_self, shapeCast_dropLead w1 hw1, shapeCast_dropLead w2 hw2, shapeCast_lastVec b1 hb1,
    matmul_zero_eq_matProd d1 h1lc h1rc h1ln h1rn h1lb h1rb, body_bias_max]
  funext i
  rw [addf_apply]
  refine congrArg (inner i + ·) ?_
  exact congrFun (matmul_zero_eq_matProd d2 h2lc h2rc h2ln h2rn h2lb h2rb none
    (truncf .bf16 (biasRelu (matProd x (slab w1 0)) (asRow (lastVec b1))) hlt) (slab w2 0)) i

/-- One or zero, as a kernel body converts a comparison: the one-bit result widened to 32 bits and read signed. -/
theorem mask_eq_hit (t c : BitVec 32) (h : 1 < 32) :
    (((((IntOp.cmpi .eq t c).setWidth 32).toInt : ℤ) : ℝ) : EReal) = hit t c := by
  unfold hit
  rcases BitVec.eq_zero_or_eq_one (IntOp.cmpi .eq t c) with h0 | h1
  · rw [h0]; rfl
  · rw [h1]; rfl

/-- The body's gate mass for the expert numbered e: the row of L gate masses times the one-hot mask of lane e, summed
    along the row, is the row's entry e. -/
theorem gate_lane_sum (g : FVec Ideal ⟨2, ![r, L]⟩ .f32) (e : Fin L) (hL : L ≤ 2 ^ 32)
    (hg : (⟨2, ![r, L]⟩ : Shape).ShapeCasts ⟨2, ![r, L]⟩) (hi : (⟨2, ![r, L]⟩ : Shape).Iotas .tc 32 [1])
    (hlt : 1 < 32) (hr : (⟨2, ![r, L]⟩ : Shape).Reduces [1] ⟨1, ![r]⟩)
    (hφ : FKind.Formats .f32) (hacc : (0x00000000#32 : BitVec 32) = FKind.add.neutral .f32 hφ) (p : Fin r) :
    multiReduction .add [1] ⟨1, ![r]⟩
      (mulf (shapeCast ⟨2, ![r, L]⟩ g hg)
        (sitofp (F := Ideal) .f32 (extui 32 (cmpi .eq (iota .tc ⟨2, ![r, L]⟩ 32 [1] hi)
          (broadcast ⟨2, ![r, L]⟩ (BitVec.ofNat 32 e.val))) hlt)))
      0x00000000#32 hr hφ hacc (ix1 p) = g (ix2 p e) := by
  refine (Cert.Lib.RowReductions.rowsum_apply _ _ hr hφ hacc p).trans ?_
  rw [Finset.sum_eq_single e]
  · rw [mulf_apply, shapeCast_self]
    show g (ix2 p e) * (((((IntOp.cmpi .eq (iota .tc ⟨2, ![r, L]⟩ 32 [1] hi (ix2 p e)) (BitVec.ofNat 32 e.val)).setWidth 32).toInt : ℤ) : ℝ) : EReal) = _
    rw [iota_single_apply, mask_eq_hit _ _ hlt]
    show g (ix2 p e) * hit (BitVec.ofNat 32 e.val) (BitVec.ofNat 32 e.val) = _
    unfold hit
    rw [show IntOp.cmpi .eq (BitVec.ofNat 32 e.val) (BitVec.ofNat 32 e.val) = 1#1 from by simp [IntOp.cmpi]]
    simp
  · intro l _ hle
    rw [mulf_apply, shapeCast_self]
    show g (ix2 p l) * (((((IntOp.cmpi .eq (iota .tc ⟨2, ![r, L]⟩ 32 [1] hi (ix2 p l)) (BitVec.ofNat 32 e.val)).setWidth 32).toInt : ℤ) : ℝ) : EReal) = 0
    rw [iota_single_apply, mask_eq_hit _ _ hlt]
    show g (ix2 p l) * hit (BitVec.ofNat 32 l.val) (BitVec.ofNat 32 e.val) = 0
    unfold hit
    have hne : (BitVec.ofNat 32 l.val == BitVec.ofNat 32 e.val) = false := by
      rw [beq_eq_false_iff_ne]
      intro hEq
      have := congrArg BitVec.toNat hEq
      simp only [BitVec.toNat_ofNat] at this
      have hl := l.isLt; have he := e.isLt
      rw [Nat.mod_eq_of_lt (by omega), Nat.mod_eq_of_lt (by omega)] at this
      exact hle (Fin.ext this)
    rw [show IntOp.cmpi .eq (BitVec.ofNat 32 l.val) (BitVec.ofNat 32 e.val) = 0#1 from by simp [IntOp.cmpi, hne]]
    simp
  · intro hne; exact absurd (Finset.mem_univ e) hne

/-- The per-expert update of the result, read at (p, q): what was accumulated, plus the gate mass of row p times the
    sum of the accumulated products and the bias entry q. -/
theorem expert_step_apply (gcol : FVec Ideal ⟨1, ![r]⟩ .f32) (b2 : FVec Ideal ⟨3, ![1, 1, n]⟩ .f32)
    (acc inner : FVec Ideal ⟨2, ![r, n]⟩ .f32)
    (hc : (⟨1, ![r]⟩ : Shape).ShapeCasts ⟨2, ![r, 1]⟩) (hb : (⟨3, ![1, 1, n]⟩ : Shape).ShapeCasts ⟨1, ![n]⟩)
    (hb' : (⟨1, ![n]⟩ : Shape).ShapeCasts ⟨2, ![1, n]⟩) (hbr : (⟨2, ![1, n]⟩ : Shape).Broadcasts ⟨2, ![r, n]⟩)
    (hbc : (⟨2, ![r, 1]⟩ : Shape).Broadcasts ⟨2, ![r, n]⟩) (hs : (⟨2, ![r, n]⟩ : Shape).ShapeCasts ⟨2, ![r, n]⟩)
    (p : Fin r) (q : Fin n) :
    shapeCast ⟨2, ![r, n]⟩
      (addf acc (mulf (broadcastTo ⟨2, ![r, n]⟩ (shapeCast ⟨2, ![r, 1]⟩ gcol hc) hbc)
        (addf inner (broadcastTo ⟨2, ![r, n]⟩ (shapeCast ⟨2, ![1, n]⟩ (shapeCast ⟨1, ![n]⟩ b2 hb) hb') hbr)))) hs
      (ix2 p q)
      = acc (ix2 p q) + gcol (ix1 p) * (inner (ix2 p q) + b2 (ix3 0 0 q)) := by
  rw [shapeCast_self, addf_apply, mulf_apply, addf_apply, Cert.Lib.RowReductions.broadcast_col_apply,
    Cert.Lib.RowReductions.shapeCast_col_apply, Cert.Lib.BlockReads.broadcast_row_apply, shapeCast_eq_asRow,
    shapeCast_lastVec b2 hb]
  rfl

end Cert.Lib.MoeBody

end
-- ==== Proof.LibGateRows.lean ====
/-
  The gate masses of a mixture-of-experts layer computed for all experts at once by a host program, on the extended
  reals, read at an index: the tokens' expert numbers and weights are broadcast along a new trailing axis of length L,
  the numbers compared with the lane numbers 0, …, L − 1 broadcast from a vector, the comparison converted and
  multiplied with the weights, and the products summed along the middle axis from the zero word. Entry (p, e) is
  token p's gate mass for the expert numbered e. Nothing here mentions a program.
-/
import Idealize.ShloMosaic.PureOps.Ideal.Laws
import Idealize.ShloMosaic.Lib.ValueIdx
import Idealize.ShloMosaic.Lib.Pipeline.Value
import proofs.«141319_j14516989460789_2_alg».proof.Proof.MoeSpec

open scoped BigOperators

noncomputable section

namespace Cert.Lib.GateRows

open Idealize.ShloMosaic Idealize.ShloMosaic.ValueIdx Cert.Moe

variable {α : Type} {B K L : Nat}

/-- The index (p, r) of an a×c array with middle coordinate k put back is (p, k, r). -/
theorem lift_mid (h : (⟨3, ![B, K, L]⟩ : Shape).Reduces [1] ⟨2, ![B, L]⟩) (p : Fin B) (r : Fin L)
    (k : Fin ((⟨3, ![B, K, L]⟩ : Shape).size 1)) : h.lift (ix2 p r) k = ix3 p (⟨k.val, k.isLt⟩ : Fin K) r := by
  funext ax; apply Fin.ext
  match ax with
  | ⟨0, _⟩ => rfl
  | ⟨1, _⟩ => rfl
  | ⟨2, _⟩ => rfl

/-- The host's sum along the middle axis of a B×K×L array is at (p, r) the initial value's element plus the sum over
    k of the array at (p, k, r). -/
theorem host_midsum_apply {u : Shape} (x : FVec Ideal ⟨3, ![B, K, L]⟩ .f32) (init : u.Idx → Ideal .f32)
    (h' : (⟨3, ![B, K, L]⟩ : Shape).ReducesTo [1] ⟨2, ![B, L]⟩) (hu : 0 < u.numel) (p : Fin B) (r : Fin L) :
    Host.reduceAdd x init h' hu (ix2 p r) = init (Shape.Idx.first hu) + ∑ k : Fin K, x (ix3 p k r) := by
  have h : (⟨3, ![B, K, L]⟩ : Shape).Reduces [1] ⟨2, ![B, L]⟩ := ⟨h'.1, Nat.two_pos, h'.2⟩
  simp only [Host.reduceAdd, Ideal.hostReduceAdd_def]
  rw [Ideal.hostReduceAdd_single h' h]
  exact congrArg (_ + ·) (Finset.sum_congr rfl fun k _ => congrArg x (lift_mid h p r k))

/-- A B×K array broadcast along a new trailing axis reads its entry (p, j) at every (p, j, e). -/
theorem bcast_trailing_apply (x : (⟨2, ![B, K]⟩ : Shape).Idx → α)
    (h1 : (⟨2, ![B, K]⟩ : Shape).BroadcastsInDim ⟨3, ![B, K, 1]⟩ ![0, 1])
    (h2 : (⟨3, ![B, K, 1]⟩ : Shape).BroadcastsInDim ⟨3, ![B, K, L]⟩ ![0, 1, 2]) (p : Fin B) (j : Fin K) (e : Fin L) :
    broadcastInDim ⟨3, ![B, K, L]⟩ ![0, 1, 2] h2 (broadcastInDim ⟨3, ![B, K, 1]⟩ ![0, 1] h1 x) (ix3 p j e)
      = x (ix2 p j) := by
  rw [broadcastInDim_apply _ h2 _ (ix3 p j e) (ix3 p j (0 : Fin 1)) (fun ax => by
    match ax with
    | ⟨0, _⟩ =>
      show p.val = if B = 1 then 0 else p.val
      split_ifs with hB
      · have := p.isLt; omega
      · rfl
    | ⟨1, _⟩ =>
      show j.val = if K = 1 then 0 else j.val
      split_ifs with hK
      · have := j.isLt; omega
      · rfl
    | ⟨2, _⟩ =>
      show (0 : Nat) = if (1 : Nat) = 1 then 0 else e.val
      rw [if_pos rfl])]
  exact broadcastInDim_apply _ h1 x (ix3 p j (0 : Fin 1)) (ix2 p j) (fun ax => by
    match ax with
    | ⟨0, _⟩ =>
      show p.val = if B = 1 then 0 else p.val
      split_ifs with hB
      · have := p.isLt; omega
      · rfl
    | ⟨1, _⟩ =>
      show j.val = if K = 1 then 0 else j.val
      split_ifs with hK
      · have := j.isLt; omega
      · rfl)

/-- The lane numbers 0, …, L − 1 broadcast from a vector into a B×K×L array read e at (p, j, e). -/
theorem lanes_apply (h1 : (⟨1, ![L]⟩ : Shape).BroadcastsInDim ⟨3, ![1, 1, L]⟩ ![2])
    (h2 : (⟨3, ![1, 1, L]⟩ : Shape).BroadcastsInDim ⟨3, ![B, K, L]⟩ ![0, 1, 2]) (p : Fin B) (j : Fin K) (e : Fin L) :
    broadcastInDim ⟨3, ![B, K, L]⟩ ![0, 1, 2] h2 (broadcastInDim ⟨3, ![1, 1, L]⟩ ![2] h1 (iotaInDim ⟨1, ![L]⟩ 32 0))
      (ix3 p j e) = BitVec.ofNat 32 e.val := by
  rw [broadcastInDim_apply _ h2 _ (ix3 p j e) (ix3 (0 : Fin 1) (0 : Fin 1) e) (fun ax => by
    match ax with
    | ⟨0, _⟩ =>
      show (0 : Nat) = if (1 : Nat) = 1 then 0 else p.val
      rw [if_pos rfl]
    | ⟨1, _⟩ =>
      show (0 : Nat) = if (1 : Nat) = 1 then 0 else j.val
      rw [if_pos rfl]
    | ⟨2, _⟩ =>
      show e.val = if L = 1 then 0 else e.val
      split_ifs with hL
      · have := e.isLt; omega
      · rfl)]
  rw [broadcastInDim_apply _ h1 _ (ix3 (0 : Fin 1) (0 : Fin 1) e) (ix1 e) (fun ax => by
    match ax with
    | ⟨0, _⟩ =>
      show e.val = if L = 1 then 0 else e.val
      split_ifs with hL
      · have := e.isLt; omega
      · rfl)]
  rfl

/-- The host's gate masses for all experts at once, at (p, e): token p's gate mass for the expert numbered e. -/
theorem host_gates_apply (T : IVec ⟨2, ![B, K]⟩ 32) (Wt : FVec Ideal ⟨2, ![B, K]⟩ .f32)
    (h1 : (⟨2, ![B, K]⟩ : Shape).BroadcastsInDim ⟨3, ![B, K, 1]⟩ ![0, 1])
    (h2 : (⟨3, ![B, K, 1]⟩ : Shape).BroadcastsInDim ⟨3, ![B, K, L]⟩ ![0, 1, 2])
    (h3 : (⟨1, ![L]⟩ : Shape).BroadcastsInDim ⟨3, ![1, 1, L]⟩ ![2])
    (h4 : (⟨3, ![1, 1, L]⟩ : Shape).BroadcastsInDim ⟨3, ![B, K, L]⟩ ![0, 1, 2])
    (hr : (⟨3, ![B, K, L]⟩ : Shape).ReducesTo [1] ⟨2, ![B, L]⟩) (hu : 0 < (⟨0, ![]⟩ : Shape).numel)
    (p : Fin B) (e : Fin L) :
    Host.reduceAdd (F := Ideal)
      (mulf (broadcastInDim ⟨3, ![B, K, L]⟩ ![0, 1, 2] h2 (broadcastInDim ⟨3, ![B, K, 1]⟩ ![0, 1] h1 Wt))
        (uitofp .f32 (cmpi .eq
          (broadcastInDim ⟨3, ![B, K, L]⟩ ![0, 1, 2] h2 (broadcastInDim ⟨3, ![B, K, 1]⟩ ![0, 1] h1 T))
          (broadcastInDim ⟨3, ![B, K, L]⟩ ![0, 1, 2] h4
            (broadcastInDim ⟨3, ![1, 1, L]⟩ ![2] h3 (iotaInDim ⟨1, ![L]⟩ 32 0))))))
      (constant ⟨0, ![]⟩ .f32 0x00000000#32) hr hu (ix2 p e) = gate T Wt (BitVec.ofNat 32 e.val) p := by
  rw [host_midsum_apply]
  unfold gate
  refine congrArg (_ + ·) (Finset.sum_congr rfl fun j _ => ?_)
  rw [mulf_apply, bcast_trailing_apply Wt h1 h2 p j e]
  show Wt (ix2 p j) * ((((IntOp.cmpi .eq
    (broadcastInDim ⟨3, ![B, K, L]⟩ ![0, 1, 2] h2 (broadcastInDim ⟨3, ![B, K, 1]⟩ ![0, 1] h1 T) (ix3 p j e))
    (broadcastInDim ⟨3, ![B, K, L]⟩ ![0, 1, 2] h4 (broadcastInDim ⟨3, ![1, 1, L]⟩ ![2] h3 (iotaInDim ⟨1, ![L]⟩ 32 0))
      (ix3 p j e))).toNat : ℝ) : EReal)) = _
  rw [bcast_trailing_apply T h1 h2 p j e, lanes_apply h3 h4 p j e]
  rfl

end Cert.Lib.GateRows

end
-- ==== Proof.LibFinGroups.lean ====
/-
  A sum over a·b consecutive naturals, grouped into a groups of b: ∑_{n < a·b} f n = ∑_{g < a} ∑_{j < b} f (b·g + j),
  in any commutative additive monoid.
-/
import Mathlib.Algebra.BigOperators.Fin
import Mathlib.Logic.Equiv.Fin.Basic

open scoped BigOperators

namespace Cert.Lib.FinGroups

/-- The sum over n < a·b of f n is the sum over the a groups of the sums over each group's b members. -/
theorem sum_fin_groups {M : Type*} [AddCommMonoid M] (a b : ℕ) (f : ℕ → M) :
    ∑ n : Fin (a * b), f n.val = ∑ g : Fin a, ∑ j : Fin b, f (b * g.val + j.val) := by
  rw [← Fintype.sum_prod_type']
  refine (Fintype.sum_equiv (finProdFinEquiv (m := a) (n := b)) _ (fun n => f n.val) fun x => ?_).symm
  show f (b * x.1.val + x.2.val) = f (x.2.val + b * x.1.val)
  rw [Nat.add_comm]

end Cert.Lib.FinGroups
-- ==== Proof.KInv.lean ====
/-
  What the two carried buffers hold after every grid point, as functions of the whole argument arrays.

  Point n of the grid is row block n / 64, expert n / 8 mod 8, hidden chunk n mod 8. After it the products buffer
  holds, for the block's rows, the zero word's value plus the first (n mod 8) + 1 chunks of the expert's hidden
  activations times its second weights (`innerSpec`), and the result buffer holds the layer's partial sum over the
  experts finished so far (`accSpec`): n / 8 mod 8 of them, one more once the expert's last chunk is in. By induction
  on the point. After the eight chunks the products are the whole product of the hidden activations with the second
  weights (a sum over 4096 = 8·512 taken in eight groups), so the update at an expert's last chunk adds exactly the
  expert's term of the layer.
-/
import proofs.«141319_j14516989460789_2_alg».proof.Proof.KPieces
import proofs.«141319_j14516989460789_2_alg».proof.Proof.KBlocks
import proofs.«141319_j14516989460789_2_alg».proof.Proof.MoeSpec
import proofs.«141319_j14516989460789_2_alg».proof.Proof.LibMoeBody
import proofs.«141319_j14516989460789_2_alg».proof.Proof.LibGateRows
import proofs.«141319_j14516989460789_2_alg».proof.Proof.LibFinGroups
import proofs.«141319_j14516989460789_2_alg».proof.Proof.LibRowReductions

open scoped BigOperators

noncomputable section

open Idealize.ShloMosaic Idealize.ShloMosaic.TcCoe Idealize.SL.Sem

namespace Cert.KernelIdeal.KVal

open Cert.KernelIdeal Cert.KernelIdeal.Gen Idealize.ShloMosaic.ValueIdx Cert.Moe Cert.Lib.MatProd Cert.Layers
  Cert.Lib.BiasRelu Cert.Lib.RowVector Cert.Lib.MoeBody Cert.Lib.GateRows

/-! ## The body's arithmetic on the extended reals -/

/-- One hidden-chunk step, as a function of the loaded blocks. -/
theorem pay4_eq (v8 : Vec Ideal S1024x1024 .bf16) (v10 : Vec Ideal S1x1024x512 .bf16) (v12 : Vec Ideal S1x1x512 .f32)
    (v21 : Vec Ideal S1x512x1024 .bf16) (v24 : Vec Ideal S1024x1024 .f32) :
    k0_pay4 (F := Ideal) v8 v10 v12 v21 v24
      = fun i => v24 i + matProd (dense v8 (slab v10 0) (lastVec v12)) (slab v21 0) i := by
  unfold k0_pay4
  exact chunk_step v8 v10 v12 v21 v24 dot_S1024x1024_S1024x512_S1024x512_1_0_0_1_n_n
    dot_S1024x512_S512x1024_S1024x1024_1_0_0_1_n_n rfl rfl rfl rfl rfl rfl rfl rfl rfl rfl rfl rfl
    shapeCasts_S1024x1024_S1024x1024 shapeCasts_S1x1024x512_S1024x512 shapeCasts_S1x1x512_S512 shapeCasts_S512_S1x512
    broadcasts_S1x512_S1024x512 bitsLt_bf16_f32 shapeCasts_S1x512x1024_S512x1024 shapeCasts_S1024x1024_S1024x1024

/-- The per-expert update of the result, at (p, q), for the expert numbered e. -/
theorem pay1_apply (e : Fin 8) (v37 : Vec Ideal S1024x8 .f32) (v47 : Vec Ideal S1x1x1024 .f32)
    (v49 v50 : Vec Ideal S1024x1024 .f32) (p q : Fin 1024) :
    k0_pay1 (F := Ideal) (BitVec.ofNat 32 e.val) v37 v47 v49 v50 (ix2 p q)
      = v49 (ix2 p q) + v37 (ix2 p e) * (v50 (ix2 p q) + v47 (ix3 0 0 q)) := by
  unfold k0_pay1
  refine (expert_step_apply _ v47 v49 v50 shapeCasts_S1024_S1024x1 shapeCasts_S1x1x1024_S1024 shapeCasts_S1024_S1x1024
    broadcasts_S1x1024_S1024x1024 broadcasts_S1024x1_S1024x1024 shapeCasts_S1024x1024_S1024x1024 p q).trans ?_
  exact congrArg (fun g => v49 (ix2 p q) + g * (v50 (ix2 p q) + v47 (ix3 0 0 q)))
    (gate_lane_sum v37 e (by norm_num) shapeCasts_S1024x8_S1024x8 iota_S1024x8_d1_w32 natLt_1_32 reduces_S1024x8_S1024
      (.inl rfl) rfl p)

/-- The zero block a reset stores. -/
theorem pay_zero (y : S1024x1024.Idx) : (k0_pay3 (F := Ideal)) y = Ideal.ofBits .f32 0x00000000#32 := rfl
theorem pay_zero' (y : S1024x1024.Idx) : (k0_pay2 (F := Ideal)) y = Ideal.ofBits .f32 0x00000000#32 := rfl

/-! ## The layer's pieces, indexed by naturals -/

/-- Row p of row block i, column k of hidden chunk g, expert e: as indices of the whole arrays (wrapped into range,
    which changes nothing for i, e, g < 8, p < 1024, k < 512). -/
def rowN (i p : Nat) : Fin 8192 := ⟨(1024 * i + p) % 8192, Nat.mod_lt _ (by decide)⟩
def colN (g k : Nat) : Fin 4096 := ⟨(512 * g + k) % 4096, Nat.mod_lt _ (by decide)⟩
def expN (e : Nat) : Fin 8 := ⟨e % 8, Nat.mod_lt _ (by decide)⟩

/-- A dense layer with the maximum: a block of rows and of columns is those rows and columns of the whole layer. -/
theorem dense_block {r r' k n n' : Nat} (X : (⟨2, ![r, k]⟩ : Shape).Idx → EReal) (X' : (⟨2, ![r', k]⟩ : Shape).Idx → EReal)
    (W : (⟨2, ![k, n]⟩ : Shape).Idx → EReal) (W' : (⟨2, ![k, n']⟩ : Shape).Idx → EReal)
    (b : (⟨1, ![n]⟩ : Shape).Idx → EReal) (b' : (⟨1, ![n']⟩ : Shape).Idx → EReal) (p : Fin r') (q : Fin n')
    (ρ : Fin r) (γ : Fin n) (hX : ∀ c : Fin k, X' (ix2 p c) = X (ix2 ρ c))
    (hW : ∀ c : Fin k, W' (ix2 c q) = W (ix2 c γ)) (hb : b' (ix1 q) = b (ix1 γ)) :
    dense X' W' b' (ix2 p q) = dense X W b (ix2 ρ γ) := by
  unfold dense
  rw [biasRelu_apply, biasRelu_apply, asRow_apply, asRow_apply, hb, matProd_block X X' W W' p q ρ γ hX hW]

section Spec

variable (m : (ℓ : Loc nD τ sig) → Buf (Elt Ideal) ℓ) (c : Dev nD)

/-- The seven argument arrays. -/
abbrev A0 : S8192x1024.Idx → EReal := (m ((c : Thread nD τ).loc main_arg0))
abbrev A1 : S8192x2.Idx → BitVec 32 := (m ((c : Thread nD τ).loc main_arg1))
abbrev A2 : S8192x2.Idx → EReal := (m ((c : Thread nD τ).loc main_arg2))
abbrev A3 : S8x1024x4096.Idx → EReal := (m ((c : Thread nD τ).loc main_arg3))
abbrev A4 : S8x4096.Idx → EReal := (m ((c : Thread nD τ).loc main_arg4))
abbrev A5 : S8x4096x1024.Idx → EReal := (m ((c : Thread nD τ).loc main_arg5))
abbrev A6 : S8x1024.Idx → EReal := (m ((c : Thread nD τ).loc main_arg6))

/-- Expert e's hidden activations of every token. -/
def hidE (e : Fin 8) : (⟨2, ![8192, 4096]⟩ : Shape).Idx → EReal := dense (A0 m c) (slab (A3 m c) e) (rowOf (A4 m c) e)

/-- Hidden chunk g's part of expert e's products, for row block i. -/
def chunkSpec (i e g : Nat) : S1024x1024.Idx → EReal := fun y =>
  ∑ k : Fin 512, hidE m c (expN e) (ix2 (rowN i (y 0).val) (colN g k.val))
    * A5 m c (ix3 (expN e) (colN g k.val) (y 1))

/-- The zero word's value plus the first n chunks, added in order. -/
def innerSpec (i e : Nat) : Nat → S1024x1024.Idx → EReal
  | 0 => fun _ => Ideal.ofBits .f32 0x00000000#32
  | n + 1 => fun y => innerSpec i e n y + chunkSpec m c i e n y

/-- The layer's partial sum over the first n experts, on row block i. -/
def accSpec (i n : Nat) : S1024x1024.Idx → EReal := fun y =>
  partialSum (A0 m c) (A1 m c) (A2 m c) (A3 m c) (A4 m c) (A5 m c) (A6 m c) n (ix2 (rowN i (y 0).val) (y 1))

/-! ## The blocks at a point, on the whole arrays -/

theorem xblk_apply (t : Fin cfg0.N) (p d : Fin 1024) :
    (iblk m c 0 t : Vec Ideal S1024x1024 .bf16) (ix2 p d) = A0 m c (ix2 (rowN (t.val / 64) p.val) d) := by
  have hN : t.val < 512 := lt_of_lt_of_eq t.isLt (show cfg0.N = 512 from N_0)
  rw [iblk0_apply m c t (ix2 p d) (ix2 (rowN (t.val / 64) p.val) d)
    (by show (1024 * (t.val / 64) + p.val) % 8192 = 1024 * (t.val / 64) + p.val; have := p.isLt; omega) rfl]
  exact congrFun (V11 m c) _

theorem w1blk_apply (t : Fin cfg0.N) (d : Fin 1024) (k : Fin 512) :
    (iblk m c 1 t : Vec Ideal S1x1024x512 .bf16) (ix3 0 d k)
      = A3 m c (ix3 (expN (t.val / 8 % 8)) d (colN (t.val % 8) k.val)) := by
  rw [iblk1_apply m c t (ix3 0 d k) (ix3 (expN (t.val / 8 % 8)) d (colN (t.val % 8) k.val))
    (by show t.val / 8 % 8 % 8 = t.val / 8 % 8 + 0; omega) rfl
    (by show (512 * (t.val % 8) + k.val) % 4096 = 512 * (t.val % 8) + k.val; have := k.isLt; omega)]
  exact congrFun (V12 m c) _

theorem b1blk_apply (t : Fin cfg0.N) (k : Fin 512) :
    (iblk m c 2 t : Vec Ideal S1x1x512 .f32) (ix3 0 0 k)
      = A4 m c (ix2 (expN (t.val / 8 % 8)) (colN (t.val % 8) k.val)) := by
  rw [iblk2_apply m c t (ix3 0 0 k) (ix3 (expN (t.val / 8 % 8)) (0 : Fin 1) (colN (t.val % 8) k.val))
    (by show t.val / 8 % 8 % 8 = t.val / 8 % 8 + 0; omega) rfl
    (by show (512 * (t.val % 8) + k.val) % 4096 = 512 * (t.val % 8) + k.val; have := k.isLt; omega)]
  rw [V14 m c]
  exact shapeCast_apply _ shapeCasts_S8x4096_S8x1x4096 _ (ix2 (expN (t.val / 8 % 8)) (colN (t.val % 8) k.val))
    (by rw [Shape.rowMajor_val_two, Shape.rowMajor_val_three]
        show (t.val / 8 % 8 % 8) * 4096 + (512 * (t.val % 8) + k.val) % 4096
          = ((t.val / 8 % 8 % 8) * 1 + 0) * 4096 + (512 * (t.val % 8) + k.val) % 4096
        omega)

theorem w2blk_apply (t : Fin cfg0.N) (k : Fin 512) (o : Fin 1024) :
    (iblk m c 3 t : Vec Ideal S1x512x1024 .bf16) (ix3 0 k o)
      = A5 m c (ix3 (expN (t.val / 8 % 8)) (colN (t.val % 8) k.val) o) := by
  rw [iblk3_apply m c t (ix3 0 k o) (ix3 (expN (t.val / 8 % 8)) (colN (t.val % 8) k.val) o)
    (by show t.val / 8 % 8 % 8 = t.val / 8 % 8 + 0; omega)
    (by show (512 * (t.val % 8) + k.val) % 4096 = 512 * (t.val % 8) + k.val; have := k.isLt; omega) rfl]
  exact congrFun (V13 m c) _

theorem b2blk_apply (t : Fin cfg0.N) (q : Fin 1024) :
    (iblk m c 4 t : Vec Ideal S1x1x1024 .f32) (ix3 0 0 q) = A6 m c (ix2 (expN (t.val / 8 % 8)) q) := by
  rw [iblk4_apply m c t (ix3 0 0 q) (ix3 (expN (t.val / 8 % 8)) (0 : Fin 1) q)
    (by show t.val / 8 % 8 % 8 = t.val / 8 % 8 + 0; omega) rfl rfl]
  rw [V15 m c]
  exact shapeCast_apply _ shapeCasts_S8x1024_S8x1x1024 _ (ix2 (expN (t.val / 8 % 8)) q)
    (by rw [Shape.rowMajor_val_two, Shape.rowMajor_val_three]
        show (t.val / 8 % 8 % 8) * 1024 + q.val = ((t.val / 8 % 8 % 8) * 1 + 0) * 1024 + q.val
        omega)

theorem gblk_apply (t : Fin cfg0.N) (p : Fin 1024) (e : Fin 8) :
    (iblk m c 5 t : Vec Ideal S1024x8 .f32) (ix2 p e)
      = gate (A1 m c) (A2 m c) (BitVec.ofNat 32 e.val) (rowN (t.val / 64) p.val) := by
  have hN : t.val < 512 := lt_of_lt_of_eq t.isLt (show cfg0.N = 512 from N_0)
  rw [iblk5_apply m c t (ix2 p e) (ix2 (rowN (t.val / 64) p.val) e)
    (by show (1024 * (t.val / 64) + p.val) % 8192 = 1024 * (t.val / 64) + p.val; have := p.isLt; omega) rfl]
  rw [V10 m c]
  exact host_gates_apply (A1 m c) (A2 m c) bcast_S8192x2_S8192x2x1_0_1 bcast_S8192x2x1_S8192x2x8_0_1_2 bcast_S8_S1x1x8_2
    bcast_S1x1x8_S8192x2x8_0_1_2 reducesTo_S8192x2x8_S8192x8_d1 h_S_ (rowN (t.val / 64) p.val) e

/-! ## One chunk, one expert -/

/-- The chunk step at point t adds the point's chunk. -/
theorem chunk_at (t : Fin cfg0.N) (v : Vec Ideal S1024x1024 .f32) :
    k0_pay4 (F := Ideal) (iblk m c 0 t) (iblk m c 1 t) (iblk m c 2 t) (iblk m c 3 t) v
      = fun y => v y + chunkSpec m c (t.val / 64) (t.val / 8 % 8) (t.val % 8) y := by
  rw [pay4_eq]
  funext y
  obtain ⟨p, o, rfl⟩ : ∃ (p o : Fin 1024), y = ix2 p o := ⟨y 0, y 1, eq_ix2 y⟩
  refine congrArg (v (ix2 p o) + ·) ?_
  rw [matProd_apply]
  unfold chunkSpec
  refine Finset.sum_congr rfl fun k _ => ?_
  rw [slab_apply]
  show _ * (iblk m c 3 t : Vec Ideal S1x512x1024 .bf16) (ix3 0 k o) = _
  rw [w2blk_apply m c t k o]
  refine congrArg (· * _) ?_
  unfold hidE
  refine dense_block _ _ _ _ _ _ p k _ _ (fun d => xblk_apply m c t p d) (fun d => ?_) ?_
  · rw [slab_apply, slab_apply]
    exact w1blk_apply m c t d k
  · rw [lastVec_apply, rowOf_apply]
    exact b1blk_apply m c t k

/-- The first n chunks, as a sum. -/
theorem innerSpec_eq_sum (i e : Nat) (y : S1024x1024.Idx) : ∀ n : Nat,
    innerSpec m c i e n y = Ideal.ofBits .f32 0x00000000#32 + ∑ g : Fin n, chunkSpec m c i e g.val y
  | 0 => by simp [innerSpec]
  | n + 1 => by
    show innerSpec m c i e n y + chunkSpec m c i e n y = _
    rw [innerSpec_eq_sum i e y n, Fin.sum_univ_castSucc, add_assoc]
    simp only [Fin.coe_castSucc, Fin.val_last]

/-- All eight chunks are the whole product of the hidden activations with the second weights. -/
theorem inner_full (i e : Nat) (p o : Fin 1024) :
    innerSpec m c i e 8 (ix2 p o)
      = matProd (hidE m c (expN e)) (slab (A5 m c) (expN e)) (ix2 (rowN i p.val) o) := by
  rw [innerSpec_eq_sum, Ideal.ofBits_zero_f32, zero_add, matProd_apply]
  have hf := Cert.Lib.FinGroups.sum_fin_groups 8 512 (fun n : Nat =>
    hidE m c (expN e) (ix2 (rowN i p.val) (⟨n % 4096, Nat.mod_lt _ (by decide)⟩ : Fin 4096))
      * A5 m c (ix3 (expN e) (⟨n % 4096, Nat.mod_lt _ (by decide)⟩ : Fin 4096) o))
  refine Eq.trans ?_ (Eq.trans hf.symm ?_)
  · rfl
  · refine Finset.sum_congr rfl fun n _ => ?_
    have hn : (⟨n.val % 4096, Nat.mod_lt _ (by decide)⟩ : Fin 4096) = n := Fin.ext (Nat.mod_eq_of_lt n.isLt)
    rw [hn, slab_apply]

/-- Expert e's term of the layer at (r, q). -/
theorem term_apply (e : Fin 8) (r : Fin 8192) (q : Fin 1024) :
    term (A0 m c) (A1 m c) (A2 m c) (A3 m c) (A4 m c) (A5 m c) (A6 m c) e (ix2 r q)
      = gate (A1 m c) (A2 m c) (BitVec.ofNat 32 e.val) r
        * (matProd (hidE m c e) (slab (A5 m c) e) (ix2 r q) + A6 m c (ix2 e q)) := rfl

/-- The update at the last chunk of expert e < 8 on row block t / 64 adds the expert's term. -/
theorem expert_at (t : Fin cfg0.N) (i e : Nat) (hi : i = t.val / 64) (he : e = t.val / 8 % 8) :
    k0_pay1 (F := Ideal) (BitVec.ofNat 32 (grid0.coords t 1).val) (iblk m c 5 t) (iblk m c 4 t) (accSpec m c i e)
        (innerSpec m c i e 8)
      = accSpec m c i (e + 1) := by
  subst hi he
  have hlt : t.val / 8 % 8 < 8 := Nat.mod_lt _ (by decide)
  have hco : (grid0.coords t 1).val = (expN (t.val / 8 % 8)).val := by
    rw [(coords_val t).2.1]; show _ = t.val / 8 % 8 % 8; omega
  funext y
  obtain ⟨p, q, rfl⟩ : ∃ (p q : Fin 1024), y = ix2 p q := ⟨y 0, y 1, eq_ix2 y⟩
  rw [hco, pay1_apply, gblk_apply, b2blk_apply, inner_full]
  show _ = partialSum (A0 m c) (A1 m c) (A2 m c) (A3 m c) (A4 m c) (A5 m c) (A6 m c) (t.val / 8 % 8)
      (ix2 (rowN (t.val / 64) p.val) q)
    + (if hm : t.val / 8 % 8 < 8 then
        term (A0 m c) (A1 m c) (A2 m c) (A3 m c) (A4 m c) (A5 m c) (A6 m c) ⟨t.val / 8 % 8, hm⟩
          (ix2 (rowN (t.val / 64) p.val) q)
      else 0)
  rw [dif_pos hlt, term_apply]
  have hE : (⟨t.val / 8 % 8, hlt⟩ : Fin 8) = expN (t.val / 8 % 8) := Fin.ext (by show t.val / 8 % 8 = t.val / 8 % 8 % 8; omega)
  rw [hE]
  rfl

end Spec

end Cert.KernelIdeal.KVal

end
-- ==== Proof.KState.lean ====
/-
  By induction on the grid point: after point n the result buffer holds the layer's partial sum over the experts
  finished so far and the products buffer the current expert's first (n mod 8) + 1 chunks, on row block n / 64.
-/
import proofs.«141319_j14516989460789_2_alg».proof.Proof.KInv

open scoped BigOperators

noncomputable section

open Idealize.ShloMosaic Idealize.ShloMosaic.TcCoe Idealize.SL.Sem

namespace Cert.KernelIdeal.KVal

open Cert.KernelIdeal Cert.KernelIdeal.Gen Idealize.ShloMosaic.ValueIdx Cert.Moe

variable (m : (ℓ : Loc nD τ sig) → Buf (Elt Ideal) ℓ) (c : Dev nD)

/-- Resetting the products buffer and adding the point's chunk leaves the first chunk. -/
theorem first_chunk (i e : Nat) :
    (fun y => (k0_pay3 (F := Ideal)) y + chunkSpec m c i e 0 y) = innerSpec m c i e 1 := rfl

theorem next_chunk (i e g : Nat) :
    (fun y => innerSpec m c i e g y + chunkSpec m c i e g y) = innerSpec m c i e (g + 1) := rfl

theorem acc_zero (i : Nat) : (k0_pay2 (F := Ideal) : Vec Ideal S1024x1024 .f32) = accSpec m c i 0 := rfl

theorem state_eq : ∀ (n : Nat) (hn : n < cfg0.N),
    (outsAt0 m c n hn).2.1 = accSpec m c (n / 64) (if n % 8 = 7 then n / 8 % 8 + 1 else n / 8 % 8)
    ∧ (outsAt0 m c n hn).2.2 = innerSpec m c (n / 64) (n / 8 % 8) (n % 8 + 1)
  | 0, hn => by
    rw [outsAt0_A m c (⟨0, hn⟩ : Fin cfg0.N) rfl rfl (show ¬(0 % 8 = 7) from by decide) (show ¬(0 % 64 = 63) from by decide)]
    dsimp only
    rw [acc_A (F := Ideal) c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) (ms0_5 (⟨0, hn⟩ : Fin cfg0.N)) (hs0_5 (⟨0, hn⟩ : Fin cfg0.N)) (ms0_6 (⟨0, hn⟩ : Fin cfg0.N)) (hs0_6 (⟨0, hn⟩ : Fin cfg0.N)) scM0_0 (Memref.isWhole_whole _) scM0_1 (Memref.isWhole_whole _) _ _ _ _ (iblk m c 0 (⟨0, hn⟩ : Fin cfg0.N)) (iblk m c 1 (⟨0, hn⟩ : Fin cfg0.N)) (iblk m c 2 (⟨0, hn⟩ : Fin cfg0.N)) (iblk m c 3 (⟨0, hn⟩ : Fin cfg0.N)) (iblk m c 4 (⟨0, hn⟩ : Fin cfg0.N)) (iblk m c 5 (⟨0, hn⟩ : Fin cfg0.N)), inner_A (F := Ideal) c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) (ms0_5 (⟨0, hn⟩ : Fin cfg0.N)) (hs0_5 (⟨0, hn⟩ : Fin cfg0.N)) (ms0_6 (⟨0, hn⟩ : Fin cfg0.N)) (hs0_6 (⟨0, hn⟩ : Fin cfg0.N)) scM0_0 (Memref.isWhole_whole _) scM0_1 (Memref.isWhole_whole _) _ _ _ _ (iblk m c 0 (⟨0, hn⟩ : Fin cfg0.N)) (iblk m c 1 (⟨0, hn⟩ : Fin cfg0.N)) (iblk m c 2 (⟨0, hn⟩ : Fin cfg0.N)) (iblk m c 3 (⟨0, hn⟩ : Fin cfg0.N)) (iblk m c 4 (⟨0, hn⟩ : Fin cfg0.N)) (iblk m c 5 (⟨0, hn⟩ : Fin cfg0.N)), chunk_at m c (⟨0, hn⟩ : Fin cfg0.N)]
    exact ⟨rfl, rfl⟩
  | n + 1, hn => by
    have hN : n + 1 < 512 := lt_of_lt_of_eq hn (show cfg0.N = 512 from N_0)
    obtain ⟨ihA, ihI⟩ := state_eq n (Nat.lt_of_succ_lt hn)
    have e1 : ∀ h', outsAt0 m c (n + 1 - 1) h' = outsAt0 m c n (Nat.lt_of_succ_lt hn) := fun _ => rfl
    by_cases h0 : (n + 1) % 64 = 0
    · have h1 : (n + 1) % 8 = 0 := by omega
      have h2 : ¬(n + 1) % 8 = 7 := by omega
      have h3 : ¬(n + 1) % 64 = 63 := by omega
      rw [outsAt0_A m c (⟨n + 1, hn⟩ : Fin cfg0.N) h0 h1 h2 h3]
      dsimp only
      rw [acc_A (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) _ _ _ _ (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)), inner_A (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) _ _ _ _ (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)), chunk_at m c (⟨n + 1, hn⟩ : Fin cfg0.N)]
      dsimp only
      rw [if_neg h2, h1, show (n + 1) / 8 % 8 = 0 from by omega]
      exact ⟨rfl, rfl⟩
    · by_cases h1 : (n + 1) % 8 = 0
      · have h2 : ¬(n + 1) % 8 = 7 := by omega
        have h3 : ¬(n + 1) % 64 = 63 := by omega
        rw [outsAt0_D m c (⟨n + 1, hn⟩ : Fin cfg0.N) h0 h1 h2 h3]
        dsimp only
        rw [inner_D (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) _ _ _ _ (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) _, chunk_at m c (⟨n + 1, hn⟩ : Fin cfg0.N)]
        unfold sout0_D_0
        dsimp only
        simp only [e1]
        rw [ihA, if_pos (show n % 8 = 7 from by omega), if_neg h2, h1,
          show n / 64 = (n + 1) / 64 from by omega, show n / 8 % 8 + 1 = (n + 1) / 8 % 8 from by omega]
        exact ⟨rfl, rfl⟩
      · by_cases h2 : (n + 1) % 8 = 7
        · by_cases h3 : (n + 1) % 64 = 63
          · rw [outsAt0_E m c (⟨n + 1, hn⟩ : Fin cfg0.N) h0 h1 h2 h3]
            dsimp only
            rw [acc_E (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) _ _ _ _ (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) _ _, inner_E (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) _ _ _ _ (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) _ _, chunk_at m c (⟨n + 1, hn⟩ : Fin cfg0.N)]
            dsimp only
            simp only [e1]
            rw [ihA, ihI, if_neg (show ¬n % 8 = 7 from by omega), if_pos h2,
              show n / 64 = (n + 1) / 64 from by omega, show n / 8 % 8 = (n + 1) / 8 % 8 from by omega,
              show n % 8 + 1 = (n + 1) % 8 from by omega, h2]
            exact ⟨expert_at m c (⟨n + 1, hn⟩ : Fin cfg0.N) _ _ rfl rfl, rfl⟩
          · rw [outsAt0_C m c (⟨n + 1, hn⟩ : Fin cfg0.N) h0 h1 h2 h3]
            dsimp only
            rw [acc_C (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) _ _ _ _ (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) _ _, inner_C (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) _ _ _ _ (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) _ _, chunk_at m c (⟨n + 1, hn⟩ : Fin cfg0.N)]
            dsimp only
            simp only [e1]
            rw [ihA, ihI, if_neg (show ¬n % 8 = 7 from by omega), if_pos h2,
              show n / 64 = (n + 1) / 64 from by omega, show n / 8 % 8 = (n + 1) / 8 % 8 from by omega,
              show n % 8 + 1 = (n + 1) % 8 from by omega, h2]
            exact ⟨expert_at m c (⟨n + 1, hn⟩ : Fin cfg0.N) _ _ rfl rfl, rfl⟩
        · have h3 : ¬(n + 1) % 64 = 63 := by omega
          rw [outsAt0_B m c (⟨n + 1, hn⟩ : Fin cfg0.N) h0 h1 h2 h3]
          dsimp only
          rw [inner_B (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) _ _ _ _ (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) _ _, chunk_at m c (⟨n + 1, hn⟩ : Fin cfg0.N)]
          unfold sout0_B_0
          dsimp only
          simp only [e1]
          rw [ihA, ihI, if_neg (show ¬n % 8 = 7 from by omega), if_neg h2,
            show n / 64 = (n + 1) / 64 from by omega, show n / 8 % 8 = (n + 1) / 8 % 8 from by omega,
            show n % 8 + 1 = (n + 1) % 8 from by omega]
          exact ⟨rfl, rfl⟩

/-- At the last point of row block i the output block is the layer on the block's rows. -/
theorem out_last (t : Fin cfg0.N) (h3 : t.val % 64 = 63) :
    (outsAt0 m c t.val t.isLt).1 = accSpec m c (t.val / 64) 8 := by
  have hN : t.val < 512 := lt_of_lt_of_eq t.isLt (show cfg0.N = 512 from N_0)
  have h0 : ¬t.val % 64 = 0 := by omega
  have h1 : ¬t.val % 8 = 0 := by omega
  have h2 : t.val % 8 = 7 := by omega
  obtain ⟨n, hn⟩ := t
  cases n with
  | zero => exact absurd h3 (show ¬(0 % 64 = 63) from by decide)
  | succ n =>
    have hacc := (state_eq m c (n + 1) hn).1
    rw [outsAt0_E m c (⟨n + 1, hn⟩ : Fin cfg0.N) h0 h1 h2 h3] at hacc ⊢
    dsimp only at hacc ⊢
    rw [acc_E (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) _ _ _ _ (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) _ _] at hacc
    rw [out_E (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) scM0_1 (Memref.isWhole_whole _) _ _ _ _ (iblk m c 0 (⟨n + 1, hn⟩ : Fin cfg0.N)) (iblk m c 1 (⟨n + 1, hn⟩ : Fin cfg0.N)) (iblk m c 2 (⟨n + 1, hn⟩ : Fin cfg0.N)) (iblk m c 3 (⟨n + 1, hn⟩ : Fin cfg0.N)) (iblk m c 4 (⟨n + 1, hn⟩ : Fin cfg0.N)) (iblk m c 5 (⟨n + 1, hn⟩ : Fin cfg0.N)) _ _, hacc, if_pos h2]
    dsimp only at h3 ⊢
    rw [show (n + 1) / 8 % 8 + 1 = 8 from by omega]

end Cert.KernelIdeal.KVal

end
-- ==== Proof.KValue.lean ====
/-
  The kernel's result array is the mixture-of-experts layer of its arguments. Row block i of the array is written back
  once, after the block's last grid point (point 64·i + 63), with the result buffer's contents there: the layer's sum
  over all eight experts on the block's rows. The eight blocks cover the array.
-/
import proofs.«141319_j14516989460789_2_alg».proof.Proof.KState
import proofs.«141319_j14516989460789_2_alg».proof.Proof.Gen.KernelIdeal.Value

noncomputable section

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.ValueIdx Cert.Moe

variable (m : (ℓ : Loc nD τ sig) → Buf (Elt Ideal) ℓ) (ρ : Dev nD → PrngReg)

/-- The layer of the argument arrays, as contents of the result array. -/
abbrev result (c : Dev nD) : Buf (Elt Ideal) ((c : Thread nD τ).loc main_v16) :=
  moe (A0 m c) (A1 m c) (A2 m c) (A3 m c) (A4 m c) (A5 m c) (A6 m c)

/-- What a write-back writes is the block of the layer at the point's row block. -/
theorem flushed_eq (c : Dev nD) (t : Fin cfg0.N) (hf : (cfg0.win 6).flush t = true) :
    (dats m 0 c).flushed 6 t = ((cfg0.win 6).blk t).view.read (Elt Ideal) (result m c) := by
  have h3 : t.val % 64 = 63 := (flush0_6 t).mp hf
  have hN : t.val < 512 := lt_of_lt_of_eq t.isLt (show cfg0.N = 512 from N_0)
  rw [Cert.KernelIdeal.Value.flushed6, out_last m c t h3]
  obtain ⟨e0, e1⟩ := idx6 t
  funext j
  show accSpec m c (t.val / 64) 8 j = result m c (((cfg0.win 6).blk t).view.emb j)
  unfold accSpec
  refine congrArg (moe (A0 m c) (A1 m c) (A2 m c) (A3 m c) (A4 m c) (A5 m c) (A6 m c)) ?_
  funext a
  apply Fin.ext
  match a with
  | ⟨0, _⟩ =>
    show (1024 * (t.val / 64) + (j 0).val) % 8192 = win0_6.index t (0 : Fin 2) * 1024 + 1 * (j 0).val
    have hj : (j 0).val < 1024 := (j 0).isLt
    rw [e0]; omega
  | ⟨1, _⟩ =>
    show (j 1).val = win0_6.index t (1 : Fin 2) * 1024 + 1 * (j 1).val
    rw [e1]; omega

/-- An index of the array is in point t's block iff each coordinate is in the block's range on its axis. -/
theorem mem_blk6 (t : Fin cfg0.N) (i : S8192x1024.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v16).slice (win0_6.rect t)).set ↔ _
  rw [View.set_slice_whole, Rect.mem_set_unit]
  exact Iff.rfl

/-- Every index of the array is in the block written back after the last point of its row block. -/
theorem cover6 (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 512 := N_0
  have hlt : 64 * ((i 0).val / 1024) + 63 < cfg0.N := by rw [hN]; omega
  refine ⟨⟨64 * ((i 0).val / 1024) + 63, hlt⟩, (flush0_6 _).mpr (by show (64 * ((i 0).val / 1024) + 63) % 64 = 63; omega), ?_⟩
  rw [mem_blk6]
  obtain ⟨e0, e1⟩ := idx6 ⟨64 * ((i 0).val / 1024) + 63, hlt⟩
  intro a
  match a with
  | ⟨0, _⟩ =>
    show win0_6.index ⟨64 * ((i 0).val / 1024) + 63, hlt⟩ (0 : Fin 2) * 1024 ≤ (i 0).val
      ∧ (i 0).val < win0_6.index ⟨64 * ((i 0).val / 1024) + 63, hlt⟩ (0 : Fin 2) * 1024 + 1024
    rw [e0]
    show (64 * ((i 0).val / 1024) + 63) / 64 * 1024 ≤ (i 0).val ∧ (i 0).val < (64 * ((i 0).val / 1024) + 63) / 64 * 1024 + 1024
    omega
  | ⟨1, _⟩ =>
    show win0_6.index ⟨64 * ((i 0).val / 1024) + 63, hlt⟩ (1 : Fin 2) * 1024 ≤ (i 1).val
      ∧ (i 1).val < win0_6.index ⟨64 * ((i 0).val / 1024) + 63, hlt⟩ (1 : Fin 2) * 1024 + 1024
    rw [e1]
    omega

/-- So the result array ends holding the layer. -/
theorem final6 (c : Dev nD) : (dats m 0 c).arrAt 6 cfg0.N = result m c :=
  (dats m 0 c).arrAt_eq_of_cover 6 (result m c) (flushed_eq m c) (cover6)

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final6 m c), (h c).2⟩)
    (Cert.KernelIdeal.Value.run_blocks m ρ)

end Cert.KernelIdeal.KVal

end
-- ==== Proof.LibHostRows.lean ====
/-
  The reference's sum along each row of an a×b array, on the extended reals, read at an index: the initial value plus
  the sum over the row's entries. Nothing here mentions a program.
-/
import Idealize.ShloMosaic.PureOps.Ideal
import Idealize.ShloMosaic.PureOps.Ideal.Laws
import Idealize.ShloMosaic.Lib.ValueIdx
import proofs.«141319_j14516989460789_2_alg».proof.Proof.LibRowReductions

open scoped BigOperators

namespace Cert.Lib.HostRows

open Idealize.ShloMosaic Idealize.ShloMosaic.ValueIdx

variable {a b : Nat}

/-- The reference's one-operand reduce with an add body along each row of an a×b array is at p the initial value's
    element plus the sum over k of the array at (p, k). -/
theorem host_rowsum_apply {u : Shape} (x : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (Cert.Lib.RowReductions.lift_row h p k))

end Cert.Lib.HostRows
-- ==== Proof.LibExpertMix.lean ====
/-
  A host program's spelling of the pieces of a mixture-of-experts layer, on the extended reals, read as the layer's
  whole-array functions: matrix e of a stack taken by a unit-thick slice along the leading axis and the unit axis
  dropped (`slab`), row e of an E×n array taken the same way (`rowOf`), a token's gate mass for an expert as a sum
  along each row of weights times a converted comparison (`gate`), one expert's two layers (`expertOut`), and the
  gate mass broadcast along the rows and multiplied in (`term`). Nothing here mentions a program.
-/
import Idealize.ShloMosaic.PureOps.Ideal.Laws
import Idealize.ShloMosaic.Lib.ValueIdx
import Idealize.ShloMosaic.Lib.Pipeline.Value
import proofs.«141319_j14516989460789_2_alg».proof.Proof.MoeSpec
import proofs.«141319_j14516989460789_2_alg».proof.Proof.LibHostRows
import proofs.«141319_j14516989460789_2_alg».proof.Proof.LibRowReductions

open scoped BigOperators

noncomputable section

namespace Cert.Lib.ExpertMix

open Idealize.ShloMosaic Idealize.ShloMosaic.ValueIdx Cert.Lib.MatProd Cert.Layers Cert.Moe

variable {E B K k h n : Nat}

/-- The unit-thick slice of a stack at e, its unit axis dropped, is matrix e of the stack. -/
theorem slab_of_slice (W : (⟨3, ![E, k, n]⟩ : Shape).Idx → EReal) (e : Nat) (he : e < E)
    (hs : (⟨3, ![E, k, n]⟩ : Shape).Slices ![e, 0, 0] ⟨3, ![1, k, n]⟩)
    (hc : (⟨3, ![1, k, n]⟩ : Shape).ShapeCasts ⟨2, ![k, n]⟩) :
    shapeCast ⟨2, ![k, n]⟩ (extractStridedSlice ⟨3, ![1, k, n]⟩ ![e, 0, 0] W hs) hc = slab W ⟨e, he⟩ := by
  funext i
  obtain ⟨a, b, rfl⟩ : ∃ (a : Fin k) (b : Fin n), i = ix2 a b := ⟨i 0, i 1, eq_ix2 i⟩
  rw [shapeCast_apply _ hc (ix2 a b) (ix3 (0 : Fin 1) a b)
    (by rw [Shape.rowMajor_val_three, Shape.rowMajor_val_two]; show (0 * k + a.val) * n + b.val = a.val * n + b.val; rw [Nat.zero_mul, Nat.zero_add])]
  exact extractStridedSlice_apply _ W hs (ix3 (0 : Fin 1) a b) (ix3 (⟨e, he⟩ : Fin E) a b) fun ax => by
    match ax with
    | ⟨0, _⟩ => show e = e + 0; omega
    | ⟨1, _⟩ => show a.val = 0 + a.val; omega
    | ⟨2, _⟩ => show b.val = 0 + b.val; omega

/-- The unit-thick slice of an E×n array at row e, re-shaped to a vector, is row e. -/
theorem row_of_slice (b : (⟨2, ![E, n]⟩ : Shape).Idx → EReal) (e : Nat) (he : e < E)
    (hs : (⟨2, ![E, n]⟩ : Shape).Slices ![e, 0] ⟨2, ![1, n]⟩)
    (hc : (⟨2, ![1, n]⟩ : Shape).ShapeCasts ⟨1, ![n]⟩) :
    shapeCast ⟨1, ![n]⟩ (extractStridedSlice ⟨2, ![1, n]⟩ ![e, 0] b hs) hc = rowOf b ⟨e, he⟩ := by
  funext i
  obtain ⟨q, rfl⟩ : ∃ q : Fin n, i = ix1 q := ⟨i 0, eq_ix1 i⟩
  rw [shapeCast_apply _ hc (ix1 q) (ix2 (0 : Fin 1) q)
    (by rw [Shape.rowMajor_val_two, Shape.rowMajor_val_one]; show 0 * n + q.val = q.val; rw [Nat.zero_mul, Nat.zero_add])]
  exact extractStridedSlice_apply _ b hs (ix2 (0 : Fin 1) q) (ix2 (⟨e, he⟩ : Fin E) q) fun ax => by
    match ax with
    | ⟨0, _⟩ => show e = e + 0; omega
    | ⟨1, _⟩ => show q.val = 0 + q.val; omega

/-- The host's gate mass: weights times the converted comparison of the expert numbers with a broadcast constant,
    summed along each row from the zero word. -/
theorem host_gate_apply (T : IVec ⟨2, ![B, K]⟩ 32) (Wt : FVec Ideal ⟨2, ![B, K]⟩ .f32) (c : BitVec 32)
    (hb : (⟨0, ![]⟩ : Shape).BroadcastsInDim ⟨2, ![B, K]⟩ ![])
    (hr : (⟨2, ![B, K]⟩ : Shape).ReducesTo [1] ⟨1, ![B]⟩) (hu : 0 < (⟨0, ![]⟩ : Shape).numel) (p : Fin B) :
    Host.reduceAdd (mulf Wt (uitofp .f32 (cmpi .eq T (broadcastInDim ⟨2, ![B, K]⟩ ![] hb (constantI ⟨0, ![]⟩ 32 c)))))
      (constant (F := Ideal) ⟨0, ![]⟩ .f32 0x00000000#32) hr hu (ix1 p) = gate T Wt c p := by
  rw [Cert.Lib.HostRows.host_rowsum_apply]
  rfl

/-- One expert in the host's spelling: two plain dot_generals, each bias broadcast from a vector through a one-row
    array, the maximum taken with a broadcast zero word. -/
theorem host_expert_eq (X : FVec Ideal ⟨2, ![B, k]⟩ .f32) (W1 : FVec Ideal ⟨2, ![k, h]⟩ .f32)
    (v1 : FVec Ideal ⟨1, ![h]⟩ .f32) (W2 : FVec Ideal ⟨2, ![h, n]⟩ .f32) (v2 : FVec Ideal ⟨1, ![n]⟩ .f32)
    (d1 : DotDims ⟨2, ![B, k]⟩ ⟨2, ![k, h]⟩ ⟨2, ![B, h]⟩) (d2 : DotDims ⟨2, ![B, h]⟩ ⟨2, ![h, n]⟩ ⟨2, ![B, n]⟩)
    (h1lc : d1.lhsContracting = [1]) (h1rc : d1.rhsContracting = [0]) (h1ln : d1.lhsNonContracting = [0])
    (h1rn : d1.rhsNonContracting = [1]) (h1lb : d1.lhsBatch = []) (h1rb : d1.rhsBatch = [])
    (h2lc : d2.lhsContracting = [1]) (h2rc : d2.rhsContracting = [0]) (h2ln : d2.lhsNonContracting = [0])
    (h2rn : d2.rhsNonContracting = [1]) (h2lb : d2.lhsBatch = []) (h2rb : d2.rhsBatch = [])
    (ha1 : (⟨1, ![h]⟩ : Shape).BroadcastsInDim ⟨2, ![1, h]⟩ ![1])
    (ha2 : (⟨2, ![1, h]⟩ : Shape).BroadcastsInDim ⟨2, ![B, h]⟩ ![0, 1])
    (ha3 : (⟨0, ![]⟩ : Shape).BroadcastsInDim ⟨2, ![B, h]⟩ ![])
    (hb1 : (⟨1, ![n]⟩ : Shape).BroadcastsInDim ⟨2, ![1, n]⟩ ![1])
    (hb2 : (⟨2, ![1, n]⟩ : Shape).BroadcastsInDim ⟨2, ![B, n]⟩ ![0, 1]) :
    addf (Host.dotGeneral d2 none
        (maximumf (addf (Host.dotGeneral d1 none X W1)
            (broadcastInDim ⟨2, ![B, h]⟩ ![0, 1] ha2 (broadcastInDim ⟨2, ![1, h]⟩ ![1] ha1 v1)))
          (broadcastInDim ⟨2, ![B, h]⟩ ![] ha3 (constant (F := Ideal) ⟨0, ![]⟩ .f32 0x00000000#32))) W2)
      (broadcastInDim ⟨2, ![B, n]⟩ ![0, 1] hb2 (broadcastInDim ⟨2, ![1, n]⟩ ![1] hb1 v2))
      = affine (dense X W1 v1) W2 v2 := by
  simp only [Host.dotGeneral]
  rw [dotGeneral_eq_matProd d1 h1lc h1rc h1ln h1rn h1lb h1rb, Cert.Lib.BiasRelu.host_eq,
    dotGeneral_eq_matProd d2 h2lc h2rc h2ln h2rn h2lb h2rb, host_bias]
  rfl

/-- A per-token value broadcast along the rows and multiplied in, read at (p, q). -/
theorem host_gated_apply (g : FVec Ideal ⟨1, ![B]⟩ .f32) (Y : FVec Ideal ⟨2, ![B, n]⟩ .f32)
    (h1 : (⟨1, ![B]⟩ : Shape).BroadcastsInDim ⟨2, ![B, 1]⟩ ![0])
    (h2 : (⟨2, ![B, 1]⟩ : Shape).BroadcastsInDim ⟨2, ![B, n]⟩ ![0, 1]) (p : Fin B) (q : Fin n) :
    mulf (broadcastInDim ⟨2, ![B, n]⟩ ![0, 1] h2 (broadcastInDim ⟨2, ![B, 1]⟩ ![0] h1 g)) Y (ix2 p q)
      = g (ix1 p) * Y (ix2 p q) := by
  rw [mulf_apply, Cert.Lib.RowReductions.bcastInDim_cols_apply, Cert.Lib.RowReductions.bcastInDim_col_apply]

end Cert.Lib.ExpertMix

end
-- ==== Proof.RefValue.lean ====
/-
  The reference computes the mixture-of-experts layer: its eight experts, unrolled, are each the layer's term for
  that expert — the expert's two weight matrices and two bias rows taken by unit-thick slices, its gate mass the sum
  along each token's row of the weights times the converted comparison with the expert's number — and the terms are
  added to a zero array first to last, which is the order the layer's definition adds them in.
-/
import proofs.«141319_j14516989460789_2_alg».proof.Proof.RefTerms
import proofs.«141319_j14516989460789_2_alg».proof.Proof.MoeSpec
import proofs.«141319_j14516989460789_2_alg».proof.Proof.LibExpertMix

set_option maxRecDepth 65536

noncomputable section

namespace Cert.ReferenceIdeal.RefValue

open Cert.ReferenceIdeal Cert.ReferenceIdeal.Gen Cert.ReferenceIdeal.HandRun Idealize.ShloMosaic
  Idealize.ShloMosaic.ValueIdx Cert.Moe Cert.Lib.ExpertMix Cert.Layers

/-- The reference's running sum after its eighth expert, as a function of the seven arguments, is the layer. -/
theorem result_eq (x0 : FVec Ideal S8192x1024 .f32) (x1 : IVec S8192x2 32) (x2 : FVec Ideal S8192x2 .f32)
    (x3 : FVec Ideal S8x1024x4096 .f32) (x4 : FVec Ideal S8x4096 .f32) (x5 : FVec Ideal S8x4096x1024 .f32)
    (x6 : FVec Ideal S8x1024 .f32) :
    acc7 (F := Ideal) x0 x1 x2 x3 x4 x5 x6 = moe x0 x1 x2 x3 x4 x5 x6 := by
  funext i
  obtain ⟨p, q, rfl⟩ : ∃ (p : Fin 8192) (q : Fin 1024), i = ix2 p q := ⟨i 0, i 1, eq_ix2 i⟩
  simp only [acc7, acc6, acc5, acc4, acc3, acc2, acc1, acc0, zeroArr, expertTerm0, expertTerm1, expertTerm2, expertTerm3,
    expertTerm4, expertTerm5, expertTerm6, expertTerm7]
  rw [slab_of_slice x3 0 (by decide) slices_S8x1024x4096_S1x1024x4096_0_0_0 shapeCasts_S1x1024x4096_S1024x4096,
    row_of_slice x4 0 (by decide) slices_S8x4096_S1x4096_0_0 shapeCasts_S1x4096_S4096,
    slab_of_slice x5 0 (by decide) slices_S8x4096x1024_S1x4096x1024_0_0_0 shapeCasts_S1x4096x1024_S4096x1024,
    row_of_slice x6 0 (by decide) slices_S8x1024_S1x1024_0_0 shapeCasts_S1x1024_S1024,
    slab_of_slice x3 1 (by decide) slices_S8x1024x4096_S1x1024x4096_1_0_0 shapeCasts_S1x1024x4096_S1024x4096,
    row_of_slice x4 1 (by decide) slices_S8x4096_S1x4096_1_0 shapeCasts_S1x4096_S4096,
    slab_of_slice x5 1 (by decide) slices_S8x4096x1024_S1x4096x1024_1_0_0 shapeCasts_S1x4096x1024_S4096x1024,
    row_of_slice x6 1 (by decide) slices_S8x1024_S1x1024_1_0 shapeCasts_S1x1024_S1024,
    slab_of_slice x3 2 (by decide) slices_S8x1024x4096_S1x1024x4096_2_0_0 shapeCasts_S1x1024x4096_S1024x4096,
    row_of_slice x4 2 (by decide) slices_S8x4096_S1x4096_2_0 shapeCasts_S1x4096_S4096,
    slab_of_slice x5 2 (by decide) slices_S8x4096x1024_S1x4096x1024_2_0_0 shapeCasts_S1x4096x1024_S4096x1024,
    row_of_slice x6 2 (by decide) slices_S8x1024_S1x1024_2_0 shapeCasts_S1x1024_S1024,
    slab_of_slice x3 3 (by decide) slices_S8x1024x4096_S1x1024x4096_3_0_0 shapeCasts_S1x1024x4096_S1024x4096,
    row_of_slice x4 3 (by decide) slices_S8x4096_S1x4096_3_0 shapeCasts_S1x4096_S4096,
    slab_of_slice x5 3 (by decide) slices_S8x4096x1024_S1x4096x1024_3_0_0 shapeCasts_S1x4096x1024_S4096x1024,
    row_of_slice x6 3 (by decide) slices_S8x1024_S1x1024_3_0 shapeCasts_S1x1024_S1024,
    slab_of_slice x3 4 (by decide) slices_S8x1024x4096_S1x1024x4096_4_0_0 shapeCasts_S1x1024x4096_S1024x4096,
    row_of_slice x4 4 (by decide) slices_S8x4096_S1x4096_4_0 shapeCasts_S1x4096_S4096,
    slab_of_slice x5 4 (by decide) slices_S8x4096x1024_S1x4096x1024_4_0_0 shapeCasts_S1x4096x1024_S4096x1024,
    row_of_slice x6 4 (by decide) slices_S8x1024_S1x1024_4_0 shapeCasts_S1x1024_S1024,
    slab_of_slice x3 5 (by decide) slices_S8x1024x4096_S1x1024x4096_5_0_0 shapeCasts_S1x1024x4096_S1024x4096,
    row_of_slice x4 5 (by decide) slices_S8x4096_S1x4096_5_0 shapeCasts_S1x4096_S4096,
    slab_of_slice x5 5 (by decide) slices_S8x4096x1024_S1x4096x1024_5_0_0 shapeCasts_S1x4096x1024_S4096x1024,
    row_of_slice x6 5 (by decide) slices_S8x1024_S1x1024_5_0 shapeCasts_S1x1024_S1024,
    slab_of_slice x3 6 (by decide) slices_S8x1024x4096_S1x1024x4096_6_0_0 shapeCasts_S1x1024x4096_S1024x4096,
    row_of_slice x4 6 (by decide) slices_S8x4096_S1x4096_6_0 shapeCasts_S1x4096_S4096,
    slab_of_slice x5 6 (by decide) slices_S8x4096x1024_S1x4096x1024_6_0_0 shapeCasts_S1x4096x1024_S4096x1024,
    row_of_slice x6 6 (by decide) slices_S8x1024_S1x1024_6_0 shapeCasts_S1x1024_S1024,
    slab_of_slice x3 7 (by decide) slices_S8x1024x4096_S1x1024x4096_7_0_0 shapeCasts_S1x1024x4096_S1024x4096,
    row_of_slice x4 7 (by decide) slices_S8x4096_S1x4096_7_0 shapeCasts_S1x4096_S4096,
    slab_of_slice x5 7 (by decide) slices_S8x4096x1024_S1x4096x1024_7_0_0 shapeCasts_S1x4096x1024_S4096x1024,
    row_of_slice x6 7 (by decide) slices_S8x1024_S1x1024_7_0 shapeCasts_S1x1024_S1024]
  simp only [host_expert_eq _ _ _ _ _ dot_S8192x1024_S1024x4096_S8192x4096_1_0_0_1_n_n
    dot_S8192x4096_S4096x1024_S8192x1024_1_0_0_1_n_n rfl rfl rfl rfl rfl rfl rfl rfl rfl rfl rfl rfl]
  simp only [addf_apply]
  iterate 8 rw [host_gated_apply]
  iterate 8 rw [host_gate_apply]
  rw [Cert.Lib.RowVector.bcastInDim_scalar_apply, constant_apply]
  rfl

end Cert.ReferenceIdeal.RefValue

end
-- ==== Proof.lean ====
/-
  The kernel computes a mixture-of-experts layer over a grid of row blocks × experts × hidden chunks, carrying two
  buffers from grid point to grid point: one expert's products of hidden activations with its second weights,
  accumulated chunk by chunk, and the result, to which each expert's gated output is added once its last chunk is in.
  The reference computes the same layer expert by expert on whole arrays. On the extended reals both result arrays are
  one function of the arguments (`Cert.Moe.moe`): the kernel's eight chunk products are the reference's one product
  over the hidden axis taken in eight groups, a token's gate mass picked out of the row of eight by a lane sum against
  a one-hot mask is the reference's gate mass for that expert, and the experts' terms are added in the same order on
  both sides. Only the associativity and commutativity of the sum over the hidden axis and multiplication by zero and
  one are used, so the inputs' finiteness is not.
-/
import proofs.«141319_j14516989460789_2_alg».proof.Defs
import proofs.«141319_j14516989460789_2_alg».proof.Proof.Gen.Kernel
import proofs.«141319_j14516989460789_2_alg».proof.Proof.Gen.Kernel.Frame
import proofs.«141319_j14516989460789_2_alg».proof.Proof.Gen.KernelIdeal
import proofs.«141319_j14516989460789_2_alg».proof.Proof.Gen.KernelIdeal.Frame
import proofs.«141319_j14516989460789_2_alg».proof.Proof.Gen.KernelIdeal.Value
import proofs.«141319_j14516989460789_2_alg».proof.Proof.Gen.ReferenceIdeal
import proofs.«141319_j14516989460789_2_alg».proof.Proof.RefRun
import proofs.«141319_j14516989460789_2_alg».proof.Proof.Gen.Pre_finite_inputs
import proofs.«141319_j14516989460789_2_alg».proof.Proof.KValue
import proofs.«141319_j14516989460789_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.HandRun.run (F := Ideal) m ρ)

/-- Both programs end with the layer of their arguments in the result array, and the arguments agree. -/
theorem algebraic : Cert.algebraic_KernelIdeal_ReferenceIdeal := by
  intro m ρ m' ρ' _ hagree
  refine ⟨fun c => Cert.KernelIdeal.KVal.result m c, Cert.KernelIdeal.KVal.run m ρ, ?_⟩
  refine (θ_run Cert.ReferenceIdeal.defs _ _).mono (fun _ h c => ⟨(h c).1.trans ?_, (h c).2⟩)
    (Cert.ReferenceIdeal.HandRun.run (F := Ideal) m' ρ')
  obtain ⟨h0, h1, h2, h3, h4, h5, h6⟩ := hagree c
  rw [Cert.ReferenceIdeal.RefValue.result_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
